-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v473)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v473) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1x128 : Shape := ⟨2, ![1, 128]⟩

abbrev nBuf : Space → Nat
  | .hbm => 590
  | .vmem => 18
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S1600000, .i32⟩
  | 6 => ⟨S1600000, .i32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S_, .f32⟩
  | 15 => ⟨S100000, .f32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S128x128, .bf16⟩
  | 32 => ⟨S128x128, .bf16⟩
  | 33 => ⟨S100000x1, .f32⟩
  | 34 => ⟨S100000x128, .f32⟩
  | 35 => ⟨S100000x128, .f32⟩
  | 36 => ⟨S100000x128, .bf16⟩
  | 37 => ⟨S_, .f32⟩
  | 38 => ⟨S100000x128, .f32⟩
  | 39 => ⟨S100000, .i32⟩
  | 40 => ⟨S100000, .i32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x128, .bf16⟩
  | 50 => ⟨S100000x128, .f32⟩
  | 51 => ⟨S_, .f32⟩
  | 52 => ⟨S100000x128, .f32⟩
  | 53 => ⟨S100000x1, .i32⟩
  | 54 => ⟨S100000x128, .f32⟩
  | 55 => ⟨S100000x128, .f32⟩
  | 56 => ⟨S100000, .i32⟩
  | 57 => ⟨S100000, .i32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S100000x1, .i32⟩
  | 66 => ⟨S100000x128, .bf16⟩
  | 67 => ⟨S100000x128, .f32⟩
  | 68 => ⟨S_, .f32⟩
  | 69 => ⟨S100000x128, .f32⟩
  | 70 => ⟨S100000x1, .i32⟩
  | 71 => ⟨S100000x128, .f32⟩
  | 72 => ⟨S100000x128, .f32⟩
  | 73 => ⟨S100000, .i32⟩
  | 74 => ⟨S100000, .i32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S100000x1, .i32⟩
  | 83 => ⟨S100000x128, .bf16⟩
  | 84 => ⟨S100000x128, .f32⟩
  | 85 => ⟨S_, .f32⟩
  | 86 => ⟨S100000x128, .f32⟩
  | 87 => ⟨S100000x1, .i32⟩
  | 88 => ⟨S100000x128, .f32⟩
  | 89 => ⟨S100000x128, .f32⟩
  | 90 => ⟨S100000, .i32⟩
  | 91 => ⟨S100000, .i32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S100000x128, .bf16⟩
  | 101 => ⟨S100000x128, .f32⟩
  | 102 => ⟨S_, .f32⟩
  | 103 => ⟨S100000x128, .f32⟩
  | 104 => ⟨S100000x1, .i32⟩
  | 105 => ⟨S100000x128, .f32⟩
  | 106 => ⟨S100000x128, .f32⟩
  | 107 => ⟨S100000, .i32⟩
  | 108 => ⟨S100000, .i32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S100000x128, .bf16⟩
  | 118 => ⟨S100000x128, .f32⟩
  | 119 => ⟨S_, .f32⟩
  | 120 => ⟨S100000x128, .f32⟩
  | 121 => ⟨S100000x1, .i32⟩
  | 122 => ⟨S100000x128, .f32⟩
  | 123 => ⟨S100000x128, .f32⟩
  | 124 => ⟨S100000, .i32⟩
  | 125 => ⟨S100000, .i32⟩
  | 126 => ⟨S_, .i32⟩
  | 127 => ⟨S100000, .i32⟩
  | _ => ⟨S100000x128, .f32⟩

abbrev hbmTy0_1 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S100000x1, .i32⟩
  | 6 => ⟨S100000x128, .bf16⟩
  | 7 => ⟨S100000x128, .f32⟩
  | 8 => ⟨S_, .f32⟩
  | 9 => ⟨S100000x128, .f32⟩
  | 10 => ⟨S100000x1, .i32⟩
  | 11 => ⟨S100000x128, .f32⟩
  | 12 => ⟨S100000x128, .f32⟩
  | 13 => ⟨S100000, .i32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x128, .bf16⟩
  | 24 => ⟨S100000x128, .f32⟩
  | 25 => ⟨S_, .f32⟩
  | 26 => ⟨S100000x128, .f32⟩
  | 27 => ⟨S100000x1, .i32⟩
  | 28 => ⟨S100000x128, .f32⟩
  | 29 => ⟨S100000x128, .f32⟩
  | 30 => ⟨S100000, .i32⟩
  | 31 => ⟨S100000, .i32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S100000x128, .bf16⟩
  | 41 => ⟨S100000x128, .f32⟩
  | 42 => ⟨S_, .f32⟩
  | 43 => ⟨S100000x128, .f32⟩
  | 44 => ⟨S100000x1, .i32⟩
  | 45 => ⟨S100000x128, .f32⟩
  | 46 => ⟨S100000x128, .f32⟩
  | 47 => ⟨S100000, .i32⟩
  | 48 => ⟨S100000, .i32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000x128, .bf16⟩
  | 58 => ⟨S100000x128, .f32⟩
  | 59 => ⟨S_, .f32⟩
  | 60 => ⟨S100000x128, .f32⟩
  | 61 => ⟨S100000x1, .i32⟩
  | 62 => ⟨S100000x128, .f32⟩
  | 63 => ⟨S100000x128, .f32⟩
  | 64 => ⟨S100000, .i32⟩
  | 65 => ⟨S100000, .i32⟩
  | 66 => ⟨S_, .i32⟩
  | 67 => ⟨S100000, .i32⟩
  | 68 => ⟨S100000, .i1⟩
  | 69 => ⟨S_, .i32⟩
  | 70 => ⟨S100000, .i32⟩
  | 71 => ⟨S100000, .i32⟩
  | 72 => ⟨S100000, .i32⟩
  | 73 => ⟨S100000x1, .i32⟩
  | 74 => ⟨S100000x128, .bf16⟩
  | 75 => ⟨S100000x128, .f32⟩
  | 76 => ⟨S_, .f32⟩
  | 77 => ⟨S100000x128, .f32⟩
  | 78 => ⟨S100000x1, .i32⟩
  | 79 => ⟨S100000x128, .f32⟩
  | 80 => ⟨S100000x128, .f32⟩
  | 81 => ⟨S100000, .i32⟩
  | 82 => ⟨S100000, .i32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000x128, .bf16⟩
  | 92 => ⟨S100000x128, .f32⟩
  | 93 => ⟨S_, .f32⟩
  | 94 => ⟨S100000x128, .f32⟩
  | 95 => ⟨S100000x1, .i32⟩
  | 96 => ⟨S100000x128, .f32⟩
  | 97 => ⟨S100000x128, .f32⟩
  | 98 => ⟨S100000, .i32⟩
  | 99 => ⟨S100000, .i32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S100000x128, .bf16⟩
  | 109 => ⟨S100000x128, .f32⟩
  | 110 => ⟨S_, .f32⟩
  | 111 => ⟨S100000x128, .f32⟩
  | 112 => ⟨S100000x1, .i32⟩
  | 113 => ⟨S100000x128, .f32⟩
  | 114 => ⟨S100000x128, .f32⟩
  | 115 => ⟨S100000, .i32⟩
  | 116 => ⟨S100000, .i32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000x128, .bf16⟩
  | 126 => ⟨S100000x128, .f32⟩
  | 127 => ⟨S_, .f32⟩
  | _ => ⟨S100000x128, .f32⟩

abbrev hbmTy0_2 (i : Nat) : BufTy := match i % 128 with
  | 0 => ⟨S100000x128, .f32⟩
  | 1 => ⟨S100000x1, .i32⟩
  | 2 => ⟨S100000x128, .f32⟩
  | 3 => ⟨S100000x128, .f32⟩
  | 4 => ⟨S100000, .i32⟩
  | 5 => ⟨S100000, .i32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S100000x128, .bf16⟩
  | 15 => ⟨S100000x128, .f32⟩
  | 16 => ⟨S_, .f32⟩
  | 17 => ⟨S100000x128, .f32⟩
  | 18 => ⟨S100000x1, .i32⟩
  | 19 => ⟨S100000x128, .f32⟩
  | 20 => ⟨S100000x128, .f32⟩
  | 21 => ⟨S100000, .i32⟩
  | 22 => ⟨S100000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x128, .bf16⟩
  | 32 => ⟨S100000x128, .f32⟩
  | 33 => ⟨S_, .f32⟩
  | 34 => ⟨S100000x128, .f32⟩
  | 35 => ⟨S100000x1, .i32⟩
  | 36 => ⟨S100000x128, .f32⟩
  | 37 => ⟨S100000x128, .f32⟩
  | 38 => ⟨S100000, .i32⟩
  | 39 => ⟨S100000, .i32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S100000x128, .bf16⟩
  | 49 => ⟨S100000x128, .f32⟩
  | 50 => ⟨S_, .f32⟩
  | 51 => ⟨S100000x128, .f32⟩
  | 52 => ⟨S100000x1, .i32⟩
  | 53 => ⟨S100000x128, .f32⟩
  | 54 => ⟨S100000x128, .f32⟩
  | 55 => ⟨S100000x1, .f32⟩
  | 56 => ⟨S100000x1, .f32⟩
  | 57 => ⟨S100000x128, .bf16⟩
  | 58 => ⟨S_, .f32⟩
  | 59 => ⟨S100000x128, .f32⟩
  | 60 => ⟨S100000, .i32⟩
  | 61 => ⟨S100000, .i32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S100000x1, .i32⟩
  | 70 => ⟨S100000x128, .bf16⟩
  | 71 => ⟨S100000x128, .f32⟩
  | 72 => ⟨S_, .f32⟩
  | 73 => ⟨S100000x128, .f32⟩
  | 74 => ⟨S100000x1, .i32⟩
  | 75 => ⟨S100000x128, .f32⟩
  | 76 => ⟨S100000x128, .f32⟩
  | 77 => ⟨S100000, .i32⟩
  | 78 => ⟨S100000, .i32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x128, .bf16⟩
  | 88 => ⟨S100000x128, .f32⟩
  | 89 => ⟨S_, .f32⟩
  | 90 => ⟨S100000x128, .f32⟩
  | 91 => ⟨S100000x1, .i32⟩
  | 92 => ⟨S100000x128, .f32⟩
  | 93 => ⟨S100000x128, .f32⟩
  | 94 => ⟨S100000, .i32⟩
  | 95 => ⟨S100000, .i32⟩
  | 96 => ⟨S_, .i32⟩
  | 97 => ⟨S100000, .i32⟩
  | 98 => ⟨S100000, .i1⟩
  | 99 => ⟨S_, .i32⟩
  | 100 => ⟨S100000, .i32⟩
  | 101 => ⟨S100000, .i32⟩
  | 102 => ⟨S100000, .i32⟩
  | 103 => ⟨S100000x1, .i32⟩
  | 104 => ⟨S100000x128, .bf16⟩
  | 105 => ⟨S100000x128, .f32⟩
  | 106 => ⟨S_, .f32⟩
  | 107 => ⟨S100000x128, .f32⟩
  | 108 => ⟨S100000x1, .i32⟩
  | 109 => ⟨S100000x128, .f32⟩
  | 110 => ⟨S100000x128, .f32⟩
  | 111 => ⟨S100000, .i32⟩
  | 112 => ⟨S100000, .i32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S100000x128, .bf16⟩
  | 122 => ⟨S100000x128, .f32⟩
  | 123 => ⟨S_, .f32⟩
  | 124 => ⟨S100000x128, .f32⟩
  | 125 => ⟨S100000x1, .i32⟩
  | 126 => ⟨S100000x128, .f32⟩
  | 127 => ⟨S100000x128, .f32⟩
  | _ => ⟨S100000x128, .f32⟩

abbrev hbmTy0_3 (i : Nat) : BufTy := match i % 128 with
  | 0 => ⟨S100000, .i32⟩
  | 1 => ⟨S100000, .i32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000x128, .bf16⟩
  | 11 => ⟨S100000x128, .f32⟩
  | 12 => ⟨S_, .f32⟩
  | 13 => ⟨S100000x128, .f32⟩
  | 14 => ⟨S100000x1, .i32⟩
  | 15 => ⟨S100000x128, .f32⟩
  | 16 => ⟨S100000x128, .f32⟩
  | 17 => ⟨S100000, .i32⟩
  | 18 => ⟨S100000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x128, .bf16⟩
  | 28 => ⟨S100000x128, .f32⟩
  | 29 => ⟨S_, .f32⟩
  | 30 => ⟨S100000x128, .f32⟩
  | 31 => ⟨S100000x1, .i32⟩
  | 32 => ⟨S100000x128, .f32⟩
  | 33 => ⟨S100000x128, .f32⟩
  | 34 => ⟨S100000, .i32⟩
  | 35 => ⟨S100000, .i32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S100000x128, .bf16⟩
  | 45 => ⟨S100000x128, .f32⟩
  | 46 => ⟨S_, .f32⟩
  | 47 => ⟨S100000x128, .f32⟩
  | 48 => ⟨S100000x1, .i32⟩
  | 49 => ⟨S100000x128, .f32⟩
  | 50 => ⟨S100000x128, .f32⟩
  | 51 => ⟨S100000, .i32⟩
  | 52 => ⟨S100000, .i32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000x128, .bf16⟩
  | 62 => ⟨S100000x128, .f32⟩
  | 63 => ⟨S_, .f32⟩
  | 64 => ⟨S100000x128, .f32⟩
  | 65 => ⟨S100000x1, .i32⟩
  | 66 => ⟨S100000x128, .f32⟩
  | 67 => ⟨S100000x128, .f32⟩
  | 68 => ⟨S100000, .i32⟩
  | 69 => ⟨S100000, .i32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000x128, .bf16⟩
  | 79 => ⟨S100000x128, .f32⟩
  | 80 => ⟨S_, .f32⟩
  | 81 => ⟨S100000x128, .f32⟩
  | 82 => ⟨S100000x1, .i32⟩
  | 83 => ⟨S100000x128, .f32⟩
  | 84 => ⟨S100000x128, .f32⟩
  | 85 => ⟨S100000, .i32⟩
  | 86 => ⟨S100000, .i32⟩
  | 87 => ⟨S_, .i32⟩
  | 88 => ⟨S100000, .i32⟩
  | 89 => ⟨S100000, .i1⟩
  | 90 => ⟨S_, .i32⟩
  | 91 => ⟨S100000, .i32⟩
  | 92 => ⟨S100000, .i32⟩
  | 93 => ⟨S100000, .i32⟩
  | 94 => ⟨S100000x1, .i32⟩
  | 95 => ⟨S100000x128, .bf16⟩
  | 96 => ⟨S100000x128, .f32⟩
  | 97 => ⟨S_, .f32⟩
  | 98 => ⟨S100000x128, .f32⟩
  | 99 => ⟨S100000x1, .i32⟩
  | 100 => ⟨S100000x128, .f32⟩
  | 101 => ⟨S100000x128, .f32⟩
  | 102 => ⟨S100000, .i32⟩
  | 103 => ⟨S100000, .i32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000x128, .bf16⟩
  | 113 => ⟨S100000x128, .f32⟩
  | 114 => ⟨S_, .f32⟩
  | 115 => ⟨S100000x128, .f32⟩
  | 116 => ⟨S100000x1, .i32⟩
  | 117 => ⟨S100000x128, .f32⟩
  | 118 => ⟨S100000x128, .f32⟩
  | 119 => ⟨S100000, .i32⟩
  | 120 => ⟨S100000, .i32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S100000x128, .f32⟩

abbrev hbmTy0_4 (i : Nat) : BufTy := match i % 128 with
  | 0 => ⟨S100000x1, .i32⟩
  | 1 => ⟨S100000x128, .bf16⟩
  | 2 => ⟨S100000x128, .f32⟩
  | 3 => ⟨S_, .f32⟩
  | 4 => ⟨S100000x128, .f32⟩
  | 5 => ⟨S100000x1, .i32⟩
  | 6 => ⟨S100000x128, .f32⟩
  | 7 => ⟨S100000x128, .f32⟩
  | 8 => ⟨S100000, .i32⟩
  | 9 => ⟨S100000, .i32⟩
  | 10 => ⟨S_, .i32⟩
  | 11 => ⟨S100000, .i32⟩
  | 12 => ⟨S100000, .i1⟩
  | 13 => ⟨S_, .i32⟩
  | 14 => ⟨S100000, .i32⟩
  | 15 => ⟨S100000, .i32⟩
  | 16 => ⟨S100000, .i32⟩
  | 17 => ⟨S100000x1, .i32⟩
  | 18 => ⟨S100000x128, .bf16⟩
  | 19 => ⟨S100000x128, .f32⟩
  | 20 => ⟨S_, .f32⟩
  | 21 => ⟨S100000x128, .f32⟩
  | 22 => ⟨S100000x1, .i32⟩
  | 23 => ⟨S100000x128, .f32⟩
  | 24 => ⟨S100000x128, .f32⟩
  | 25 => ⟨S100000, .i32⟩
  | 26 => ⟨S100000, .i32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x128, .bf16⟩
  | 36 => ⟨S100000x128, .f32⟩
  | 37 => ⟨S_, .f32⟩
  | 38 => ⟨S100000x128, .f32⟩
  | 39 => ⟨S100000x1, .i32⟩
  | 40 => ⟨S100000x128, .f32⟩
  | 41 => ⟨S100000x128, .f32⟩
  | 42 => ⟨S100000, .i32⟩
  | 43 => ⟨S100000, .i32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S100000x128, .bf16⟩
  | 53 => ⟨S100000x128, .f32⟩
  | 54 => ⟨S_, .f32⟩
  | 55 => ⟨S100000x128, .f32⟩
  | 56 => ⟨S100000x1, .i32⟩
  | 57 => ⟨S100000x128, .f32⟩
  | 58 => ⟨S100000x128, .f32⟩
  | 59 => ⟨S100000, .i32⟩
  | 60 => ⟨S100000, .i32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x128, .bf16⟩
  | 70 => ⟨S100000x128, .f32⟩
  | 71 => ⟨S_, .f32⟩
  | 72 => ⟨S100000x128, .f32⟩
  | 73 => ⟨S100000x1, .i32⟩
  | 74 => ⟨S100000x128, .f32⟩
  | 75 => ⟨S100000x128, .f32⟩
  | 76 => ⟨S100000x1, .f32⟩
  | 77 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S128, .f32⟩
  | .local _ .vmem, ⟨8, _⟩ => ⟨S4000x128, .bf16⟩
  | .local _ .vmem, ⟨9, _⟩ => ⟨S4000x128, .bf16⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | .local _ .vmem, ⟨14, _⟩ => ⟨S128x128, .bf16⟩
  | .local _ .vmem, ⟨15, _⟩ => ⟨S128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_12 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_15 : Ref sig .tc := ⟨.hbm, 92, rfl⟩
abbrev main_v64 : Ref sig .tc := ⟨.hbm, 93, rfl⟩
abbrev main_v65 : Ref sig .tc := ⟨.hbm, 94, rfl⟩
abbrev main_c_16 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_17 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_18 : Ref sig .tc := ⟨.hbm, 109, rfl⟩
abbrev main_v78 : Ref sig .tc := ⟨.hbm, 110, rfl⟩
abbrev main_v79 : Ref sig .tc := ⟨.hbm, 111, rfl⟩
abbrev main_c_19 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_20 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_21 : Ref sig .tc := ⟨.hbm, 126, rfl⟩
abbrev main_v92 : Ref sig .tc := ⟨.hbm, 127, rfl⟩
abbrev main_v93 : Ref sig .tc := ⟨.hbm, 128, rfl⟩
abbrev main_c_22 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_23 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_24 : Ref sig .tc := ⟨.hbm, 143, rfl⟩
abbrev main_v106 : Ref sig .tc := ⟨.hbm, 144, rfl⟩
abbrev main_v107 : Ref sig .tc := ⟨.hbm, 145, rfl⟩
abbrev main_c_25 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_26 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_c_27 : Ref sig .tc := ⟨.hbm, 160, rfl⟩
abbrev main_v120 : Ref sig .tc := ⟨.hbm, 161, rfl⟩
abbrev main_v121 : Ref sig .tc := ⟨.hbm, 162, rfl⟩
abbrev main_c_28 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_29 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c_30 : Ref sig .tc := ⟨.hbm, 177, rfl⟩
abbrev main_v134 : Ref sig .tc := ⟨.hbm, 178, rfl⟩
abbrev main_v135 : Ref sig .tc := ⟨.hbm, 179, rfl⟩
abbrev main_c_31 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_32 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_c_33 : Ref sig .tc := ⟨.hbm, 194, rfl⟩
abbrev main_v148 : Ref sig .tc := ⟨.hbm, 195, rfl⟩
abbrev main_v149 : Ref sig .tc := ⟨.hbm, 196, rfl⟩
abbrev main_c_34 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_35 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_36 : Ref sig .tc := ⟨.hbm, 211, rfl⟩
abbrev main_v162 : Ref sig .tc := ⟨.hbm, 212, rfl⟩
abbrev main_v163 : Ref sig .tc := ⟨.hbm, 213, rfl⟩
abbrev main_c_37 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_cst_38 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_c_39 : Ref sig .tc := ⟨.hbm, 228, rfl⟩
abbrev main_v176 : Ref sig .tc := ⟨.hbm, 229, rfl⟩
abbrev main_v177 : Ref sig .tc := ⟨.hbm, 230, rfl⟩
abbrev main_c_40 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_cst_41 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_c_42 : Ref sig .tc := ⟨.hbm, 245, rfl⟩
abbrev main_v190 : Ref sig .tc := ⟨.hbm, 246, rfl⟩
abbrev main_v191 : Ref sig .tc := ⟨.hbm, 247, rfl⟩
abbrev main_c_43 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_cst_44 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_c_45 : Ref sig .tc := ⟨.hbm, 262, rfl⟩
abbrev main_v204 : Ref sig .tc := ⟨.hbm, 263, rfl⟩
abbrev main_v205 : Ref sig .tc := ⟨.hbm, 264, rfl⟩
abbrev main_c_46 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_cst_47 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_c_48 : Ref sig .tc := ⟨.hbm, 279, rfl⟩
abbrev main_v218 : Ref sig .tc := ⟨.hbm, 280, rfl⟩
abbrev main_v219 : Ref sig .tc := ⟨.hbm, 281, rfl⟩
abbrev main_c_49 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_cst_50 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_c_51 : Ref sig .tc := ⟨.hbm, 296, rfl⟩
abbrev main_v232 : Ref sig .tc := ⟨.hbm, 297, rfl⟩
abbrev main_v233 : Ref sig .tc := ⟨.hbm, 298, rfl⟩
abbrev main_c_52 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_cst_53 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_cst_54 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_c_55 : Ref sig .tc := ⟨.hbm, 318, rfl⟩
abbrev main_v250 : Ref sig .tc := ⟨.hbm, 319, rfl⟩
abbrev main_v251 : Ref sig .tc := ⟨.hbm, 320, rfl⟩
abbrev main_c_56 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_cst_57 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_c_58 : Ref sig .tc := ⟨.hbm, 335, rfl⟩
abbrev main_v264 : Ref sig .tc := ⟨.hbm, 336, rfl⟩
abbrev main_v265 : Ref sig .tc := ⟨.hbm, 337, rfl⟩
abbrev main_c_59 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_cst_60 : Ref sig .tc := ⟨.hbm, 345, rfl⟩
abbrev main_v272 : Ref sig .tc := ⟨.hbm, 346, rfl⟩
abbrev main_v273 : Ref sig .tc := ⟨.hbm, 347, rfl⟩
abbrev main_v274 : Ref sig .tc := ⟨.hbm, 348, rfl⟩
abbrev main_v275 : Ref sig .tc := ⟨.hbm, 349, rfl⟩
abbrev main_v276 : Ref sig .tc := ⟨.hbm, 350, rfl⟩
abbrev main_v277 : Ref sig .tc := ⟨.hbm, 351, rfl⟩
abbrev main_c_61 : Ref sig .tc := ⟨.hbm, 352, rfl⟩
abbrev main_v278 : Ref sig .tc := ⟨.hbm, 353, rfl⟩
abbrev main_v279 : Ref sig .tc := ⟨.hbm, 354, rfl⟩
abbrev main_c_62 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_cst_63 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_c_64 : Ref sig .tc := ⟨.hbm, 369, rfl⟩
abbrev main_v292 : Ref sig .tc := ⟨.hbm, 370, rfl⟩
abbrev main_v293 : Ref sig .tc := ⟨.hbm, 371, rfl⟩
abbrev main_c_65 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_v299 : Ref sig .tc := ⟨.hbm, 378, rfl⟩
abbrev main_cst_66 : Ref sig .tc := ⟨.hbm, 379, rfl⟩
abbrev main_v300 : Ref sig .tc := ⟨.hbm, 380, rfl⟩
abbrev main_v301 : Ref sig .tc := ⟨.hbm, 381, rfl⟩
abbrev main_v302 : Ref sig .tc := ⟨.hbm, 382, rfl⟩
abbrev main_v303 : Ref sig .tc := ⟨.hbm, 383, rfl⟩
abbrev main_v304 : Ref sig .tc := ⟨.hbm, 384, rfl⟩
abbrev main_v305 : Ref sig .tc := ⟨.hbm, 385, rfl⟩
abbrev main_c_67 : Ref sig .tc := ⟨.hbm, 386, rfl⟩
abbrev main_v306 : Ref sig .tc := ⟨.hbm, 387, rfl⟩
abbrev main_v307 : Ref sig .tc := ⟨.hbm, 388, rfl⟩
abbrev main_c_68 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩
abbrev main_v311 : Ref sig .tc := ⟨.hbm, 393, rfl⟩
abbrev main_v312 : Ref sig .tc := ⟨.hbm, 394, rfl⟩
abbrev main_v313 : Ref sig .tc := ⟨.hbm, 395, rfl⟩
abbrev main_cst_69 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_v318 : Ref sig .tc := ⟨.hbm, 401, rfl⟩
abbrev main_v319 : Ref sig .tc := ⟨.hbm, 402, rfl⟩
abbrev main_c_70 : Ref sig .tc := ⟨.hbm, 403, rfl⟩
abbrev main_v320 : Ref sig .tc := ⟨.hbm, 404, rfl⟩
abbrev main_v321 : Ref sig .tc := ⟨.hbm, 405, rfl⟩
abbrev main_c_71 : Ref sig .tc := ⟨.hbm, 406, rfl⟩
abbrev main_v322 : Ref sig .tc := ⟨.hbm, 407, rfl⟩
abbrev main_v323 : Ref sig .tc := ⟨.hbm, 408, rfl⟩
abbrev main_v324 : Ref sig .tc := ⟨.hbm, 409, rfl⟩
abbrev main_v325 : Ref sig .tc := ⟨.hbm, 410, rfl⟩
abbrev main_v326 : Ref sig .tc := ⟨.hbm, 411, rfl⟩
abbrev main_v327 : Ref sig .tc := ⟨.hbm, 412, rfl⟩
abbrev main_cst_72 : Ref sig .tc := ⟨.hbm, 413, rfl⟩
abbrev main_v328 : Ref sig .tc := ⟨.hbm, 414, rfl⟩
abbrev main_v329 : Ref sig .tc := ⟨.hbm, 415, rfl⟩
abbrev main_v330 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_c_73 : Ref sig .tc := ⟨.hbm, 420, rfl⟩
abbrev main_v334 : Ref sig .tc := ⟨.hbm, 421, rfl⟩
abbrev main_v335 : Ref sig .tc := ⟨.hbm, 422, rfl⟩
abbrev main_c_74 : Ref sig .tc := ⟨.hbm, 423, rfl⟩
abbrev main_v336 : Ref sig .tc := ⟨.hbm, 424, rfl⟩
abbrev main_v337 : Ref sig .tc := ⟨.hbm, 425, rfl⟩
abbrev main_v338 : Ref sig .tc := ⟨.hbm, 426, rfl⟩
abbrev main_v339 : Ref sig .tc := ⟨.hbm, 427, rfl⟩
abbrev main_v340 : Ref sig .tc := ⟨.hbm, 428, rfl⟩
abbrev main_v341 : Ref sig .tc := ⟨.hbm, 429, rfl⟩
abbrev main_cst_75 : Ref sig .tc := ⟨.hbm, 430, rfl⟩
abbrev main_v342 : Ref sig .tc := ⟨.hbm, 431, rfl⟩
abbrev main_v343 : Ref sig .tc := ⟨.hbm, 432, rfl⟩
abbrev main_v344 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_c_76 : Ref sig .tc := ⟨.hbm, 437, rfl⟩
abbrev main_v348 : Ref sig .tc := ⟨.hbm, 438, rfl⟩
abbrev main_v349 : Ref sig .tc := ⟨.hbm, 439, rfl⟩
abbrev main_c_77 : Ref sig .tc := ⟨.hbm, 440, rfl⟩
abbrev main_v350 : Ref sig .tc := ⟨.hbm, 441, rfl⟩
abbrev main_v351 : Ref sig .tc := ⟨.hbm, 442, rfl⟩
abbrev main_v352 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_cst_78 : Ref sig .tc := ⟨.hbm, 447, rfl⟩
abbrev main_v356 : Ref sig .tc := ⟨.hbm, 448, rfl⟩
abbrev main_v357 : Ref sig .tc := ⟨.hbm, 449, rfl⟩
abbrev main_v358 : Ref sig .tc := ⟨.hbm, 450, rfl⟩
abbrev main_v359 : Ref sig .tc := ⟨.hbm, 451, rfl⟩
abbrev main_v360 : Ref sig .tc := ⟨.hbm, 452, rfl⟩
abbrev main_v361 : Ref sig .tc := ⟨.hbm, 453, rfl⟩
abbrev main_c_79 : Ref sig .tc := ⟨.hbm, 454, rfl⟩
abbrev main_v362 : Ref sig .tc := ⟨.hbm, 455, rfl⟩
abbrev main_v363 : Ref sig .tc := ⟨.hbm, 456, rfl⟩
abbrev main_c_80 : Ref sig .tc := ⟨.hbm, 457, rfl⟩
abbrev main_v364 : Ref sig .tc := ⟨.hbm, 458, rfl⟩
abbrev main_v365 : Ref sig .tc := ⟨.hbm, 459, rfl⟩
abbrev main_v366 : Ref sig .tc := ⟨.hbm, 460, rfl⟩
abbrev main_v367 : Ref sig .tc := ⟨.hbm, 461, rfl⟩
abbrev main_v368 : Ref sig .tc := ⟨.hbm, 462, rfl⟩
abbrev main_v369 : Ref sig .tc := ⟨.hbm, 463, rfl⟩
abbrev main_cst_81 : Ref sig .tc := ⟨.hbm, 464, rfl⟩
abbrev main_v370 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_v375 : Ref sig .tc := ⟨.hbm, 470, rfl⟩
abbrev main_c_82 : Ref sig .tc := ⟨.hbm, 471, rfl⟩
abbrev main_v376 : Ref sig .tc := ⟨.hbm, 472, rfl⟩
abbrev main_v377 : Ref sig .tc := ⟨.hbm, 473, rfl⟩
abbrev main_c_83 : Ref sig .tc := ⟨.hbm, 474, rfl⟩
abbrev main_v378 : Ref sig .tc := ⟨.hbm, 475, rfl⟩
abbrev main_v379 : Ref sig .tc := ⟨.hbm, 476, rfl⟩
abbrev main_v380 : Ref sig .tc := ⟨.hbm, 477, rfl⟩
abbrev main_v381 : Ref sig .tc := ⟨.hbm, 478, rfl⟩
abbrev main_v382 : Ref sig .tc := ⟨.hbm, 479, rfl⟩
abbrev main_v383 : Ref sig .tc := ⟨.hbm, 480, rfl⟩
abbrev main_cst_84 : Ref sig .tc := ⟨.hbm, 481, rfl⟩
abbrev main_v384 : Ref sig .tc := ⟨.hbm, 482, rfl⟩
abbrev main_v385 : Ref sig .tc := ⟨.hbm, 483, rfl⟩
abbrev main_v386 : Ref sig .tc := ⟨.hbm, 484, rfl⟩
abbrev main_v387 : Ref sig .tc := ⟨.hbm, 485, rfl⟩
abbrev main_v388 : Ref sig .tc := ⟨.hbm, 486, rfl⟩
abbrev main_v389 : Ref sig .tc := ⟨.hbm, 487, rfl⟩
abbrev main_c_85 : Ref sig .tc := ⟨.hbm, 488, rfl⟩
abbrev main_v390 : Ref sig .tc := ⟨.hbm, 489, rfl⟩
abbrev main_v391 : Ref sig .tc := ⟨.hbm, 490, rfl⟩
abbrev main_c_86 : Ref sig .tc := ⟨.hbm, 491, rfl⟩
abbrev main_v392 : Ref sig .tc := ⟨.hbm, 492, rfl⟩
abbrev main_v393 : Ref sig .tc := ⟨.hbm, 493, rfl⟩
abbrev main_v394 : Ref sig .tc := ⟨.hbm, 494, rfl⟩
abbrev main_v395 : Ref sig .tc := ⟨.hbm, 495, rfl⟩
abbrev main_v396 : Ref sig .tc := ⟨.hbm, 496, rfl⟩
abbrev main_v397 : Ref sig .tc := ⟨.hbm, 497, rfl⟩
abbrev main_cst_87 : Ref sig .tc := ⟨.hbm, 498, rfl⟩
abbrev main_v398 : Ref sig .tc := ⟨.hbm, 499, rfl⟩
abbrev main_v399 : Ref sig .tc := ⟨.hbm, 500, rfl⟩
abbrev main_v400 : Ref sig .tc := ⟨.hbm, 501, rfl⟩
abbrev main_v401 : Ref sig .tc := ⟨.hbm, 502, rfl⟩
abbrev main_v402 : Ref sig .tc := ⟨.hbm, 503, rfl⟩
abbrev main_v403 : Ref sig .tc := ⟨.hbm, 504, rfl⟩
abbrev main_c_88 : Ref sig .tc := ⟨.hbm, 505, rfl⟩
abbrev main_v404 : Ref sig .tc := ⟨.hbm, 506, rfl⟩
abbrev main_v405 : Ref sig .tc := ⟨.hbm, 507, rfl⟩
abbrev main_c_89 : Ref sig .tc := ⟨.hbm, 508, rfl⟩
abbrev main_v406 : Ref sig .tc := ⟨.hbm, 509, rfl⟩
abbrev main_v407 : Ref sig .tc := ⟨.hbm, 510, rfl⟩
abbrev main_v408 : Ref sig .tc := ⟨.hbm, 511, rfl⟩
abbrev main_v409 : Ref sig .tc := ⟨.hbm, 512, rfl⟩
abbrev main_v410 : Ref sig .tc := ⟨.hbm, 513, rfl⟩
abbrev main_v411 : Ref sig .tc := ⟨.hbm, 514, rfl⟩
abbrev main_cst_90 : Ref sig .tc := ⟨.hbm, 515, rfl⟩
abbrev main_v412 : Ref sig .tc := ⟨.hbm, 516, rfl⟩
abbrev main_v413 : Ref sig .tc := ⟨.hbm, 517, rfl⟩
abbrev main_v414 : Ref sig .tc := ⟨.hbm, 518, rfl⟩
abbrev main_v415 : Ref sig .tc := ⟨.hbm, 519, rfl⟩
abbrev main_v416 : Ref sig .tc := ⟨.hbm, 520, rfl⟩
abbrev main_v417 : Ref sig .tc := ⟨.hbm, 521, rfl⟩
abbrev main_c_91 : Ref sig .tc := ⟨.hbm, 522, rfl⟩
abbrev main_v418 : Ref sig .tc := ⟨.hbm, 523, rfl⟩
abbrev main_v419 : Ref sig .tc := ⟨.hbm, 524, rfl⟩
abbrev main_c_92 : Ref sig .tc := ⟨.hbm, 525, rfl⟩
abbrev main_v420 : Ref sig .tc := ⟨.hbm, 526, rfl⟩
abbrev main_v421 : Ref sig .tc := ⟨.hbm, 527, rfl⟩
abbrev main_v422 : Ref sig .tc := ⟨.hbm, 528, rfl⟩
abbrev main_v423 : Ref sig .tc := ⟨.hbm, 529, rfl⟩
abbrev main_v424 : Ref sig .tc := ⟨.hbm, 530, rfl⟩
abbrev main_v425 : Ref sig .tc := ⟨.hbm, 531, rfl⟩
abbrev main_cst_93 : Ref sig .tc := ⟨.hbm, 532, rfl⟩
abbrev main_v426 : Ref sig .tc := ⟨.hbm, 533, rfl⟩
abbrev main_v427 : Ref sig .tc := ⟨.hbm, 534, rfl⟩
abbrev main_v428 : Ref sig .tc := ⟨.hbm, 535, rfl⟩
abbrev main_v429 : Ref sig .tc := ⟨.hbm, 536, rfl⟩
abbrev main_v430 : Ref sig .tc := ⟨.hbm, 537, rfl⟩
abbrev main_v431 : Ref sig .tc := ⟨.hbm, 538, rfl⟩
abbrev main_c_94 : Ref sig .tc := ⟨.hbm, 539, rfl⟩
abbrev main_v432 : Ref sig .tc := ⟨.hbm, 540, rfl⟩
abbrev main_v433 : Ref sig .tc := ⟨.hbm, 541, rfl⟩
abbrev main_c_95 : Ref sig .tc := ⟨.hbm, 542, rfl⟩
abbrev main_v434 : Ref sig .tc := ⟨.hbm, 543, rfl⟩
abbrev main_v435 : Ref sig .tc := ⟨.hbm, 544, rfl⟩
abbrev main_v436 : Ref sig .tc := ⟨.hbm, 545, rfl⟩
abbrev main_v437 : Ref sig .tc := ⟨.hbm, 546, rfl⟩
abbrev main_v438 : Ref sig .tc := ⟨.hbm, 547, rfl⟩
abbrev main_v439 : Ref sig .tc := ⟨.hbm, 548, rfl⟩
abbrev main_cst_96 : Ref sig .tc := ⟨.hbm, 549, rfl⟩
abbrev main_v440 : Ref sig .tc := ⟨.hbm, 550, rfl⟩
abbrev main_v441 : Ref sig .tc := ⟨.hbm, 551, rfl⟩
abbrev main_v442 : Ref sig .tc := ⟨.hbm, 552, rfl⟩
abbrev main_v443 : Ref sig .tc := ⟨.hbm, 553, rfl⟩
abbrev main_v444 : Ref sig .tc := ⟨.hbm, 554, rfl⟩
abbrev main_v445 : Ref sig .tc := ⟨.hbm, 555, rfl⟩
abbrev main_c_97 : Ref sig .tc := ⟨.hbm, 556, rfl⟩
abbrev main_v446 : Ref sig .tc := ⟨.hbm, 557, rfl⟩
abbrev main_v447 : Ref sig .tc := ⟨.hbm, 558, rfl⟩
abbrev main_c_98 : Ref sig .tc := ⟨.hbm, 559, rfl⟩
abbrev main_v448 : Ref sig .tc := ⟨.hbm, 560, rfl⟩
abbrev main_v449 : Ref sig .tc := ⟨.hbm, 561, rfl⟩
abbrev main_v450 : Ref sig .tc := ⟨.hbm, 562, rfl⟩
abbrev main_v451 : Ref sig .tc := ⟨.hbm, 563, rfl⟩
abbrev main_v452 : Ref sig .tc := ⟨.hbm, 564, rfl⟩
abbrev main_v453 : Ref sig .tc := ⟨.hbm, 565, rfl⟩
abbrev main_cst_99 : Ref sig .tc := ⟨.hbm, 566, rfl⟩
abbrev main_v454 : Ref sig .tc := ⟨.hbm, 567, rfl⟩
abbrev main_v455 : Ref sig .tc := ⟨.hbm, 568, rfl⟩
abbrev main_v456 : Ref sig .tc := ⟨.hbm, 569, rfl⟩
abbrev main_v457 : Ref sig .tc := ⟨.hbm, 570, rfl⟩
abbrev main_v458 : Ref sig .tc := ⟨.hbm, 571, rfl⟩
abbrev main_v459 : Ref sig .tc := ⟨.hbm, 572, rfl⟩
abbrev main_c_100 : Ref sig .tc := ⟨.hbm, 573, rfl⟩
abbrev main_v460 : Ref sig .tc := ⟨.hbm, 574, rfl⟩
abbrev main_v461 : Ref sig .tc := ⟨.hbm, 575, rfl⟩
abbrev main_c_101 : Ref sig .tc := ⟨.hbm, 576, rfl⟩
abbrev main_v462 : Ref sig .tc := ⟨.hbm, 577, rfl⟩
abbrev main_v463 : Ref sig .tc := ⟨.hbm, 578, rfl⟩
abbrev main_v464 : Ref sig .tc := ⟨.hbm, 579, rfl⟩
abbrev main_v465 : Ref sig .tc := ⟨.hbm, 580, rfl⟩
abbrev main_v466 : Ref sig .tc := ⟨.hbm, 581, rfl⟩
abbrev main_v467 : Ref sig .tc := ⟨.hbm, 582, rfl⟩
abbrev main_cst_102 : Ref sig .tc := ⟨.hbm, 583, rfl⟩
abbrev main_v468 : Ref sig .tc := ⟨.hbm, 584, rfl⟩
abbrev main_v469 : Ref sig .tc := ⟨.hbm, 585, rfl⟩
abbrev main_v470 : Ref sig .tc := ⟨.hbm, 586, rfl⟩
abbrev main_v471 : Ref sig .tc := ⟨.hbm, 587, rfl⟩
abbrev main_v472 : Ref sig .tc := ⟨.hbm, 588, rfl⟩
abbrev main_v473 : Ref sig .tc := ⟨.hbm, 589, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S1600000_S100000_0 : S1600000.Slices ![0] S100000
  slices_S1600000_S100000_100000 : S1600000.Slices ![100000] S100000
  slices_S1600000_S100000_200000 : S1600000.Slices ![200000] S100000
  slices_S1600000_S100000_300000 : S1600000.Slices ![300000] S100000
  slices_S1600000_S100000_400000 : S1600000.Slices ![400000] S100000
  slices_S1600000_S100000_500000 : S1600000.Slices ![500000] S100000
  slices_S1600000_S100000_600000 : S1600000.Slices ![600000] S100000
  slices_S1600000_S100000_700000 : S1600000.Slices ![700000] S100000
  slices_S1600000_S100000_800000 : S1600000.Slices ![800000] S100000
  slices_S1600000_S100000_900000 : S1600000.Slices ![900000] S100000
  slices_S1600000_S100000_1000000 : S1600000.Slices ![1000000] S100000
  slices_S1600000_S100000_1100000 : S1600000.Slices ![1100000] S100000
  slices_S1600000_S100000_1200000 : S1600000.Slices ![1200000] S100000
  slices_S1600000_S100000_1300000 : S1600000.Slices ![1300000] S100000
  slices_S1600000_S100000_1400000 : S1600000.Slices ![1400000] S100000
  slices_S1600000_S100000_1500000 : S1600000.Slices ![1500000] S100000
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  scatter_S100000_S1600000x1_S1600000_n_0_0_1_wf : ScatterDims.WF S100000 S1600000x1 S1600000 [] [0] [0] 1
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .bf16 = 32 ∨ (Rect.block (s := S100000x128) S4000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v243) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v244) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v245) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v246) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v471) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v472) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v473) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  Every weakly fair execution of the program terminates, nothing faulting, with the result buffer holding what the last
  segment boundary's contents hold there — the second region's output array as its write-backs leave it — and the
  argument arrays as launched. The run is the launch of the program's eight segments (five stretches of host operations,
  the first region, the stretch between the regions, the second region); the final state is read against the last
  boundary's contents at every unscoped buffer, of which the result buffer is one.
-/
import proofs.«156708_j74217034875214_2_alg».proof.Proof.FrameKernelIdealPatched

set_option maxRecDepth 16384

noncomputable section

namespace Cert.KernelIdeal.KernelRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v473) = W8 m ρ c (Proc.devRef .tc main_v473)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v473 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.KernelRun

end
-- ==== Proof.Degrees.lean ====
/-
  What the first four stretches of host operations leave: the two clipped degree vectors, and the arguments untouched.

  The out-degree and the in-degree of every node are counted by adding a one, into zeros, at each edge's source
  (respectively destination) index, and clipped below at one; `degree s` is that vector for an index array `s`.
-/
import proofs.«156708_j74217034875214_2_alg».proof.Proof.FrameKernelIdealPatched
import Idealize.ShloMosaic.Lib.StableHlo.Run

set_option maxRecDepth 16384

noncomputable section

namespace Cert.KernelIdeal.Degrees

open Cert.KernelIdeal Cert.KernelIdeal.Gen Cert.KernelIdeal.GenP Idealize.ShloMosaic Idealize.ShloMosaic.TcCoe Idealize.ShloMosaic.StableHlo Idealize.SL.Sem

variable {F : FTy → Type} [FloatOps F]

/-- The degree of every node in the index array `s`, clipped below at one. -/
def degree (s : IVec S1600000 32) : FVec F S100000 .f32 :=
  maximumf (broadcastInDim S100000 ![] bcast_S_S100000 (id (constant S_ .f32 0x3F800000#32)))
    (Host.scatterAdd scatter_S100000_S1600000x1_S1600000_n_0_0_1
      (broadcastInDim S100000 ![] bcast_S_S100000 (constant S_ .f32 0x00000000#32))
      (broadcastInDim S1600000x1 ![0] bcast_S1600000_S1600000x1_0 s)
      (broadcastInDim S1600000 ![] bcast_S_S1600000 (constant S_ .f32 0x3F800000#32)))

variable (m : (ℓ : Loc nD τ sig) → Buf (Elt F) ℓ) (ρ : Dev nD → PrngReg)

set_option maxHeartbeats 4000000 in
theorem W4_main_v4 (c : Dev nD) : W4 m ρ c (Proc.devRef .tc main_v4) = degree (F := F) (m ((c.tc : Thread nD τ).loc main_arg5)) := by
  unfold degree
  show StableHlo.after hostOps0_3 (StableHlo.after hostOps0_2 (StableHlo.after hostOps0_1 (StableHlo.after hostOps0 (W0 m ρ c)))) (Proc.devRef .tc main_v4) = _
  after_results
  rfl

set_option maxHeartbeats 4000000 in
theorem W4_main_v8 (c : Dev nD) : W4 m ρ c (Proc.devRef .tc main_v8) = degree (F := F) (m ((c.tc : Thread nD τ).loc main_arg6)) := by
  unfold degree
  show StableHlo.after hostOps0_3 (StableHlo.after hostOps0_2 (StableHlo.after hostOps0_1 (StableHlo.after hostOps0 (W0 m ρ c)))) (Proc.devRef .tc main_v8) = _
  after_results
  rfl

set_option maxHeartbeats 4000000 in
theorem W4_main_arg0 (c : Dev nD) : W4 m ρ c (Proc.devRef .tc main_arg0) = m ((c.tc : Thread nD τ).loc main_arg0) := by
  show StableHlo.after hostOps0_3 (StableHlo.after hostOps0_2 (StableHlo.after hostOps0_1 (StableHlo.after hostOps0 (W0 m ρ c)))) (Proc.devRef .tc main_arg0) = _
  after_results

set_option maxHeartbeats 4000000 in
theorem W4_main_arg1 (c : Dev nD) : W4 m ρ c (Proc.devRef .tc main_arg1) = m ((c.tc : Thread nD τ).loc main_arg1) := by
  show StableHlo.after hostOps0_3 (StableHlo.after hostOps0_2 (StableHlo.after hostOps0_1 (StableHlo.after hostOps0 (W0 m ρ c)))) (Proc.devRef .tc main_arg1) = _
  after_results

set_option maxHeartbeats 4000000 in
theorem W4_main_arg2 (c : Dev nD) : W4 m ρ c (Proc.devRef .tc main_arg2) = m ((c.tc : Thread nD τ).loc main_arg2) := by
  show StableHlo.after hostOps0_3 (StableHlo.after hostOps0_2 (StableHlo.after hostOps0_1 (StableHlo.after hostOps0 (W0 m ρ c)))) (Proc.devRef .tc main_arg2) = _
  after_results

set_option maxHeartbeats 4000000 in
theorem W4_main_arg3 (c : Dev nD) : W4 m ρ c (Proc.devRef .tc main_arg3) = m ((c.tc : Thread nD τ).loc main_arg3) := by
  show StableHlo.after hostOps0_3 (StableHlo.after hostOps0_2 (StableHlo.after hostOps0_1 (StableHlo.after hostOps0 (W0 m ρ c)))) (Proc.devRef .tc main_arg3) = _
  after_results

set_option maxHeartbeats 4000000 in
theorem W4_main_arg4 (c : Dev nD) : W4 m ρ c (Proc.devRef .tc main_arg4) = m ((c.tc : Thread nD τ).loc main_arg4) := by
  show StableHlo.after hostOps0_3 (StableHlo.after hostOps0_2 (StableHlo.after hostOps0_1 (StableHlo.after hostOps0 (W0 m ρ c)))) (Proc.devRef .tc main_arg4) = _
  after_results

set_option maxHeartbeats 4000000 in
theorem W4_main_arg5 (c : Dev nD) : W4 m ρ c (Proc.devRef .tc main_arg5) = m ((c.tc : Thread nD τ).loc main_arg5) := by
  show StableHlo.after hostOps0_3 (StableHlo.after hostOps0_2 (StableHlo.after hostOps0_1 (StableHlo.after hostOps0 (W0 m ρ c)))) (Proc.devRef .tc main_arg5) = _
  after_results

set_option maxHeartbeats 4000000 in
theorem W4_main_arg6 (c : Dev nD) : W4 m ρ c (Proc.devRef .tc main_arg6) = m ((c.tc : Thread nD τ).loc main_arg6) := by
  show StableHlo.after hostOps0_3 (StableHlo.after hostOps0_2 (StableHlo.after hostOps0_1 (StableHlo.after hostOps0 (W0 m ρ c)))) (Proc.devRef .tc main_arg6) = _
  after_results

end Cert.KernelIdeal.Degrees

end
-- ==== Proof.ChunkSpec.lean ====
/-
  The sparse stage as the kernel's host program spells it.

  The 1,600,000 edges are taken in 16 runs of 100,000 consecutive edges. One run, starting at edge `o`: the run's source
  and destination indices are static slices of the two index arrays; a negative source index is wrapped by adding the
  number of nodes; the rows of the (bf16) node array at those indices are gathered and widened; and the gathered rows are
  added, into zeros, onto the rows the destination indices name (`chunkAgg`). The stage's result is the runs' results
  added up one after the other, starting from zeros (`aggChunks`).
-/
import proofs.«156708_j74217034875214_2_alg».proof.Proof.Gen.KernelIdeal

noncomputable section

namespace Cert.KernelIdeal.Chunks

open Cert.KernelIdeal Cert.KernelIdeal.Gen Idealize.ShloMosaic

variable {F : FTy → Type} [FloatOps F]

/-- The aggregate of the 100,000 edges from edge `o` on: the gathered rows of `x` added onto the destination rows. -/
def chunkAgg (o : ℕ) (hs : S1600000.Slices ![o] S100000) (x : FVec F S100000x128 .bf16) (src dst : IVec S1600000 32) :
    FVec F S100000x128 .f32 :=
  Host.scatterAdd scatter_S100000x128_S100000x1_S100000x128_1_0_0_1
    (broadcastInDim S100000x128 ![] bcast_S_S100000x128 (constant S_ .f32 0x00000000#32))
    (broadcastInDim S100000x1 ![0] bcast_S100000_S100000x1_0 (extractStridedSlice S100000 ![o] dst hs))
    (extf .f32
      (Host.gather gather_S100000x128_S100000x1_S100000x128_1_0_n_n_0_1_1128 x
        (broadcastInDim S100000x1 ![0] bcast_S100000_S100000x1_0
          (select
            (cmpi .slt (extractStridedSlice S100000 ![o] src hs)
              (broadcastInDim S100000 ![] bcast_S_S100000 (constantI S_ 32 0#32)))
            (addi (extractStridedSlice S100000 ![o] src hs)
              (broadcastInDim S100000 ![] bcast_S_S100000 (constantI S_ 32 100000#32)))
            (extractStridedSlice S100000 ![o] src hs))))
      bitsLt_bf16_f32)

/-- The 16 runs' aggregates added up in order, from zeros. -/
def aggChunks (x : FVec F S100000x128 .bf16) (src dst : IVec S1600000 32) : FVec F S100000x128 .f32 :=
  addf (addf (addf (addf (addf (addf (addf (addf (addf (addf (addf (addf (addf (addf (addf (addf ((broadcastInDim S100000x128 ![] bcast_S_S100000x128 (constant S_ .f32 0x00000000#32) : FVec F S100000x128 .f32))
      (chunkAgg 0 slices_S1600000_S100000_0 x src dst))
      (chunkAgg 100000 slices_S1600000_S100000_100000 x src dst))
      (chunkAgg 200000 slices_S1600000_S100000_200000 x src dst))
      (chunkAgg 300000 slices_S1600000_S100000_300000 x src dst))
      (chunkAgg 400000 slices_S1600000_S100000_400000 x src dst))
      (chunkAgg 500000 slices_S1600000_S100000_500000 x src dst))
      (chunkAgg 600000 slices_S1600000_S100000_600000 x src dst))
      (chunkAgg 700000 slices_S1600000_S100000_700000 x src dst))
      (chunkAgg 800000 slices_S1600000_S100000_800000 x src dst))
      (chunkAgg 900000 slices_S1600000_S100000_900000 x src dst))
      (chunkAgg 1000000 slices_S1600000_S100000_1000000 x src dst))
      (chunkAgg 1100000 slices_S1600000_S100000_1100000 x src dst))
      (chunkAgg 1200000 slices_S1600000_S100000_1200000 x src dst))
      (chunkAgg 1300000 slices_S1600000_S100000_1300000 x src dst))
      (chunkAgg 1400000 slices_S1600000_S100000_1400000 x src dst))
      (chunkAgg 1500000 slices_S1600000_S100000_1500000 x src dst)

end Cert.KernelIdeal.Chunks

end
-- ==== Proof.GraphSpec.lean ====
/-
  One dense stage of the graph convolution, as a function of whole arrays, in the spelling of the plain jnp program.

  For an aggregate `agg : [n, 128]`, a column `col : [n, 1]` of per-node scales, a weight `W : [128, 128]` and a bias
  `b : [128]`, `dense agg col W b` is `(agg ⊙ col) · W + b`: the column repeated along the features, the product of the
  scaled aggregate with the weight, the bias repeated down the rows. `reluScaled y col` is `max (y, 0) ⊙ col`, the
  rectified stage scaled row by row — what the next layer's gather reads. Everything is over the extended reals.
-/
import proofs.«156708_j74217034875214_2_alg».proof.Proof.Gen.ReferenceIdeal
import Idealize.ShloMosaic.PureOps.Ideal

noncomputable section

namespace Cert.GraphSpec

open Cert.ReferenceIdeal Cert.ReferenceIdeal.Gen Idealize.ShloMosaic

/-- `(agg ⊙ col) · W + b` on the whole arrays. -/
def dense (agg : FVec Ideal S100000x128 .f32) (col : FVec Ideal S100000x1 .f32) (W : FVec Ideal S128x128 .f32)
    (b : FVec Ideal S128 .f32) : FVec Ideal S100000x128 .f32 :=
  addf (Host.dotGeneral dot_S100000x128_S128x128_S100000x128_1_0_0_1_n_n none
      (mulf agg (broadcastInDim S100000x128 ![0, 1] bcast_S100000x1_S100000x128_0_1 col)) W)
    (broadcastInDim S100000x128 ![0, 1] bcast_S1x128_S100000x128_0_1 (broadcastInDim S1x128 ![1] bcast_S128_S1x128_1 b))

/-- `max (y, 0) ⊙ col` on the whole arrays. -/
def reluScaled (y : FVec Ideal S100000x128 .f32) (col : FVec Ideal S100000x1 .f32) : FVec Ideal S100000x128 .f32 :=
  mulf (maximumf y (broadcastInDim S100000x128 ![] bcast_S_S100000x128 (constant S_ .f32 0x00000000#32)))
    (broadcastInDim S100000x128 ![0, 1] bcast_S100000x1_S100000x128_0_1 col)

end Cert.GraphSpec

end
-- ==== Proof.KernelOutSpec.lean ====
/-
  The idealized kernel's result as ONE function of the argument arrays.

  With `ns` and `nd` the source and destination normalisations (the clipped degree to the power −1/2), the program
  computes, over the extended reals,
    layer 1:  h₁ = max ((A (h ⊙ ns) ⊙ nd) · W₁ + b₁, 0) ⊙ ns        (the next layer's row scaling is applied at once)
    layer 2:  out = (A h₁ ⊙ nd) · W₂ + b₂
  where `A x` adds, for each node, the rows of `x` at the sources of the edges that end there — taken in 16 runs of
  100,000 edges —, the normalisations enter the dense stages as columns (the vectors reshaped), and the node array and
  the weights pass through a narrower float format, which changes nothing on the extended reals.
-/
import proofs.«156708_j74217034875214_2_alg».proof.Proof.Degrees
import proofs.«156708_j74217034875214_2_alg».proof.Proof.ChunkSpec
import proofs.«156708_j74217034875214_2_alg».proof.Proof.GraphSpec

noncomputable section

namespace Cert.KernelIdeal.KernelOut

open Cert.KernelIdeal Cert.KernelIdeal.Gen Cert.KernelIdeal.Chunks Idealize.ShloMosaic

/-- The clipped degree of every node in the index array `s`, to the power −1/2. -/
def norm (s : IVec S1600000 32) : FVec Ideal S100000 .f32 :=
  Host.powf (Degrees.degree (F := Ideal) s) (broadcastInDim S100000 ![] bcast_S_S100000 (constant S_ .f32 0xBF000000#32))

/-- The vector `v` as a column. -/
abbrev col (v : FVec Ideal S100000 .f32) : FVec Ideal S100000x1 .f32 := shapeCast S100000x1 v shapeCasts_S100000_S100000x1

/-- The first layer's output, already scaled for the second layer's gather. -/
def hidden (h : FVec Ideal S100000x128 .f32) (W1 : FVec Ideal S128x128 .f32) (b1 : FVec Ideal S128 .f32)
    (src dst : IVec S1600000 32) : FVec Ideal S100000x128 .f32 :=
  Cert.GraphSpec.reluScaled
    (Cert.GraphSpec.dense
      (aggChunks (F := Ideal)
        (truncf .bf16 (mulf h (broadcastInDim S100000x128 ![0, 1] bcast_S100000x1_S100000x128_0_1
          (broadcastInDim S100000x1 ![0] bcast_S100000_S100000x1_0 (norm src)))) bitsLt_bf16_f32) src dst)
      (col (norm dst)) (truncf .bf16 W1 bitsLt_bf16_f32) b1)
    (col (norm src))

/-- The program's result. -/
def out (h : FVec Ideal S100000x128 .f32) (W1 : FVec Ideal S128x128 .f32) (b1 : FVec Ideal S128 .f32)
    (W2 : FVec Ideal S128x128 .f32) (b2 : FVec Ideal S128 .f32) (src dst : IVec S1600000 32) : FVec Ideal S100000x128 .f32 :=
  Cert.GraphSpec.dense (aggChunks (F := Ideal) (hidden h W1 b1 src dst) src dst) (col (norm dst))
    (truncf .bf16 W2 bitsLt_bf16_f32) b2

end Cert.KernelIdeal.KernelOut

end
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.LibSingleAssign.lean ====
/-
  Straight lines of host operations in single-assignment form: each operation writes exactly one buffer, and no buffer is
  written twice. For such a line the valuation after the whole line can be read one variable at a time: the final value of
  the variable the `j`-th operation assigns is that operation's function of the FINAL values of its operands, provided
  each operand is assigned before position `j` or not at all (it is then never touched again). So a value computed by a
  long line is described by one small equation per operation, and two lines can be compared variable by variable
  without ever writing out a whole composed term.
-/
import Idealize.ShloMosaic.Lib.StableHlo.Run
import proofs.«156708_j74217034875214_2_alg».proof.Proof.LibWrittenRefs

namespace Idealize.ShloMosaic.StableHlo

variable {τ : Topo} {sig : RefSig} {Val : EltTy → Type}

/-- The line `ops` assigns the references `W`, one per operation in order, each once. -/
structure SingleAssign (ops : List (HloOp τ sig Val)) (W : List (Ref sig .tc)) : Prop where
  writes : ops.map (fun op => op.writes) = W.map (fun r => ({Proc.devRef (τ := τ) .tc r} : Finset (DevRef τ sig)))
  nodup : W.Nodup

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- In a list without repetition the entry at position `i` does not occur from a later position `j` on. -/
theorem not_mem_drop_of_nodup {α : Type} : ∀ (W : List α), W.Nodup → ∀ (i j : Nat) (x : α), W[i]? = some x → i < j → x ∉ W.drop j
  | [], _, _, _, _, h, _ => by simp at h
  | _ :: _, _, _, 0, _, _, hlt => absurd hlt (Nat.not_lt_zero _)
  | r :: W', hn, 0, j + 1, x, h, _ => by
    simp only [List.getElem?_cons_zero, Option.some.injEq] at h
    subst h
    rw [List.drop_succ_cons]
    exact fun hm => (List.nodup_cons.mp hn).1 (List.mem_of_mem_drop hm)
  | r :: W', hn, i + 1, j + 1, x, h, hlt => by
    rw [List.drop_succ_cons]
    rw [List.getElem?_cons_succ] at h
    exact not_mem_drop_of_nodup W' (List.nodup_cons.mp hn).2 i j x h (Nat.lt_of_succ_lt_succ hlt)

/-- The final value of the variable the `j`-th operation assigns is that operation's result over the valuation before it. -/
theorem after_at : ∀ (ops : List (HloOp τ sig Val)) (W : List (Ref sig .tc)),
    ops.map (fun op => op.writes) = W.map (fun r => ({Proc.devRef (τ := τ) .tc r} : Finset (DevRef τ sig))) → W.Nodup →
    ∀ (V : Valuation τ sig Val) (j : Nat) (op : HloOp τ sig Val) (y : Ref sig .tc), ops[j]? = some op → W[j]? = some y →
      after ops V (Proc.devRef .tc y) = op.result (after (ops.take j) V) (Proc.devRef .tc y)
  | [], _, _, _, _, _, _, _, hop, _ => by simp at hop
  | _ :: _, [], hw, _, _, _, _, _, _, _ => by simp at hw
  | o :: os, r :: W', hw, hn, V, 0, op, y, hop, hy => by
    simp only [List.getElem?_cons_zero, Option.some.injEq] at hop hy
    subst hop hy
    simp only [List.map_cons, List.cons.injEq] at hw
    rw [after_cons, List.take_zero, after_nil]
    exact after_of_map_writes_eq hw.2 _ (List.nodup_cons.mp hn).1
  | o :: os, r :: W', hw, hn, V, j + 1, op, y, hop, hy => by
    simp only [List.map_cons, List.cons.injEq] at hw
    rw [List.getElem?_cons_succ] at hop hy
    rw [after_cons, List.take_succ_cons, after_cons]
    exact after_at os W' hw.2 (List.nodup_cons.mp hn).2 (o.result V) j op y hop hy

variable {ops : List (HloOp τ sig Val)} {W : List (Ref sig .tc)}

/-- A reference not assigned from position `j` on already holds its final value before position `j`. -/
theorem after_take_of_not_mem_drop (h : SingleAssign ops W) (V : Valuation τ sig Val) (j : Nat) {x : Ref sig .tc} (hx : x ∉ W.drop j) :
    after (ops.take j) V (Proc.devRef .tc x) = after ops V (Proc.devRef .tc x) := by
  conv_rhs => rw [← List.take_append_drop j ops, after_append]
  refine (after_of_map_writes_eq (W := W.drop j) ?_ _ hx).symm
  rw [List.map_drop, h.writes, List.map_drop]

/-- A reference assigned at an earlier position already holds its final value. -/
theorem after_take_of_lt (h : SingleAssign ops W) (V : Valuation τ sig Val) {i j : Nat} {x : Ref sig .tc} (hi : W[i]? = some x) (hij : i < j) :
    after (ops.take j) V (Proc.devRef .tc x) = after ops V (Proc.devRef .tc x) :=
  after_take_of_not_mem_drop h V j (not_mem_drop_of_nodup W h.nodup i j x hi hij)

/-- A reference the line never assigns holds throughout what it held before the line. -/
theorem after_of_not_assigned (h : SingleAssign ops W) (V : Valuation τ sig Val) {x : Ref sig .tc} (hx : x ∉ W) :
    after ops V (Proc.devRef .tc x) = V (Proc.devRef .tc x) :=
  after_of_map_writes_eq h.writes V hx

/-- and so did it before any position. -/
theorem after_take_of_not_assigned (h : SingleAssign ops W) (V : Valuation τ sig Val) (j : Nat) {x : Ref sig .tc} (hx : x ∉ W) :
    after (ops.take j) V (Proc.devRef .tc x) = after ops V (Proc.devRef .tc x) :=
  after_take_of_not_mem_drop h V j fun hm => hx (List.mem_of_mem_drop hm)

/-! ## The final value of an assigned variable, builder by builder -/

theorem final_nullary (h : SingleAssign ops W) (V : Valuation τ sig Val) (j : Nat) {y : Ref sig .tc} {v : y.ty.Contents Val} {hy}
    (hop : ops[j]? = some (nullary y v hy)) (hw : W[j]? = some y) :
    after ops V (Proc.devRef .tc y) = v := by
  rw [after_at ops W h.writes h.nodup V j _ y hop hw, nullary_result]

theorem final_unary (h : SingleAssign ops W) (V : Valuation τ sig Val) (j : Nat) {x y : Ref sig .tc}
    {f : x.ty.Contents Val → y.ty.Contents Val} {hx hy}
    (hop : ops[j]? = some (unary x y f hx hy)) (hw : W[j]? = some y)
    (sx : after (ops.take j) V (Proc.devRef .tc x) = after ops V (Proc.devRef .tc x)) :
    after ops V (Proc.devRef .tc y) = f (after ops V (Proc.devRef .tc x)) := by
  rw [after_at ops W h.writes h.nodup V j _ y hop hw, unary_result, sx]

theorem final_binary (h : SingleAssign ops W) (V : Valuation τ sig Val) (j : Nat) {a b y : Ref sig .tc}
    {f : a.ty.Contents Val → b.ty.Contents Val → y.ty.Contents Val} {ha hb hy}
    (hop : ops[j]? = some (binary a b y f ha hb hy)) (hw : W[j]? = some y)
    (sa : after (ops.take j) V (Proc.devRef .tc a) = after ops V (Proc.devRef .tc a))
    (sb : after (ops.take j) V (Proc.devRef .tc b) = after ops V (Proc.devRef .tc b)) :
    after ops V (Proc.devRef .tc y) = f (after ops V (Proc.devRef .tc a)) (after ops V (Proc.devRef .tc b)) := by
  rw [after_at ops W h.writes h.nodup V j _ y hop hw, binary_result, sa, sb]

theorem final_ternary (h : SingleAssign ops W) (V : Valuation τ sig Val) (j : Nat) {c a b y : Ref sig .tc}
    {f : c.ty.Contents Val → a.ty.Contents Val → b.ty.Contents Val → y.ty.Contents Val} {hc ha hb hy}
    (hop : ops[j]? = some (ternary c a b y f hc ha hb hy)) (hw : W[j]? = some y)
    (sc : after (ops.take j) V (Proc.devRef .tc c) = after ops V (Proc.devRef .tc c))
    (sa : after (ops.take j) V (Proc.devRef .tc a) = after ops V (Proc.devRef .tc a))
    (sb : after (ops.take j) V (Proc.devRef .tc b) = after ops V (Proc.devRef .tc b)) :
    after ops V (Proc.devRef .tc y)
      = f (after ops V (Proc.devRef .tc c)) (after ops V (Proc.devRef .tc a)) (after ops V (Proc.devRef .tc b)) := by
  rw [after_at ops W h.writes h.nodup V j _ y hop hw, ternary_result, sc, sa, sb]

theorem final_reshape (h : SingleAssign ops W) (V : Valuation τ sig Val) (j : Nat) {x y : Ref sig .tc}
    {he : x.ty.elt = y.ty.elt} {hn : x.ty.shape.ShapeCasts y.ty.shape} {hx hy}
    (hop : ops[j]? = some (reshape x y he hn hx hy)) (hw : W[j]? = some y)
    (sx : after (ops.take j) V (Proc.devRef .tc x) = after ops V (Proc.devRef .tc x)) :
    after ops V (Proc.devRef .tc y) = fun i => he ▸ shapeCast y.ty.shape (after ops V (Proc.devRef .tc x)) hn i := by
  rw [after_at ops W h.writes h.nodup V j _ y hop hw, reshape_result, sx]

end Idealize.ShloMosaic.StableHlo
-- ==== Proof.HostLine0Single.lean ====
/-
  The stretch of host operations that ends at the first region's entry — the two normalisations (degree to the power −1/2), the weights' narrowing, the pre-scaled node array, the first layer's 16 runs of gather and scatter-add, the two columns — is in single-assignment form.
-/
import proofs.«156708_j74217034875214_2_alg».proof.Proof.Gen.KernelIdeal.Launch
import proofs.«156708_j74217034875214_2_alg».proof.Proof.LibSingleAssign

set_option maxRecDepth 65536

noncomputable section

namespace Cert.KernelIdeal.HostLine0Single

open Cert.KernelIdeal Cert.KernelIdeal.Gen Idealize.ShloMosaic Idealize.ShloMosaic.StableHlo

variable {F : FTy → Type} [FloatOps F]

/-- Each operation of the line assigns one buffer — these, in order — and no buffer is assigned twice. -/
theorem single : SingleAssign (hostOps0_4 (F := F))
    [main_cst_4, main_v9, main_v10, main_cst_5, main_v11, main_v12, main_v13, main_v14, main_v15, main_v16, main_v17, main_v18, main_cst_6, main_v19, main_v20, main_v21, main_c, main_v22, main_v23, main_c_7, main_v24, main_v25, main_v26, main_v27, main_v28, main_v29, main_cst_8, main_v30, main_v31, main_v32, main_v33, main_v34, main_v35, main_c_9, main_v36, main_v37, main_c_10, main_v38, main_v39, main_v40, main_v41, main_v42, main_v43, main_cst_11, main_v44, main_v45, main_v46, main_v47, main_v48, main_v49, main_c_12, main_v50, main_v51, main_c_13, main_v52, main_v53, main_v54, main_v55, main_v56, main_v57, main_cst_14, main_v58, main_v59, main_v60, main_v61, main_v62, main_v63, main_c_15, main_v64, main_v65, main_c_16, main_v66, main_v67, main_v68, main_v69, main_v70, main_v71, main_cst_17, main_v72, main_v73, main_v74, main_v75, main_v76, main_v77, main_c_18, main_v78, main_v79, main_c_19, main_v80, main_v81, main_v82, main_v83, main_v84, main_v85, main_cst_20, main_v86, main_v87, main_v88, main_v89, main_v90, main_v91, main_c_21, main_v92, main_v93, main_c_22, main_v94, main_v95, main_v96, main_v97, main_v98, main_v99, main_cst_23, main_v100, main_v101, main_v102, main_v103, main_v104, main_v105, main_c_24, main_v106, main_v107, main_c_25, main_v108, main_v109, main_v110, main_v111, main_v112, main_v113, main_cst_26, main_v114, main_v115, main_v116, main_v117, main_v118, main_v119, main_c_27, main_v120, main_v121, main_c_28, main_v122, main_v123, main_v124, main_v125, main_v126, main_v127, main_cst_29, main_v128, main_v129, main_v130, main_v131, main_v132, main_v133, main_c_30, main_v134, main_v135, main_c_31, main_v136, main_v137, main_v138, main_v139, main_v140, main_v141, main_cst_32, main_v142, main_v143, main_v144, main_v145, main_v146, main_v147, main_c_33, main_v148, main_v149, main_c_34, main_v150, main_v151, main_v152, main_v153, main_v154, main_v155, main_cst_35, main_v156, main_v157, main_v158, main_v159, main_v160, main_v161, main_c_36, main_v162, main_v163, main_c_37, main_v164, main_v165, main_v166, main_v167, main_v168, main_v169, main_cst_38, main_v170, main_v171, main_v172, main_v173, main_v174, main_v175, main_c_39, main_v176, main_v177, main_c_40, main_v178, main_v179, main_v180, main_v181, main_v182, main_v183, main_cst_41, main_v184, main_v185, main_v186, main_v187, main_v188, main_v189, main_c_42, main_v190, main_v191, main_c_43, main_v192, main_v193, main_v194, main_v195, main_v196, main_v197, main_cst_44, main_v198, main_v199, main_v200, main_v201, main_v202, main_v203, main_c_45, main_v204, main_v205, main_c_46, main_v206, main_v207, main_v208, main_v209, main_v210, main_v211, main_cst_47, main_v212, main_v213, main_v214, main_v215, main_v216, main_v217, main_c_48, main_v218, main_v219, main_c_49, main_v220, main_v221, main_v222, main_v223, main_v224, main_v225, main_cst_50, main_v226, main_v227, main_v228, main_v229, main_v230, main_v231, main_c_51, main_v232, main_v233, main_c_52, main_v234, main_v235, main_v236, main_v237, main_v238, main_v239, main_cst_53, main_v240, main_v241, main_v242, main_v243, main_v244, main_v245] := ⟨rfl, by decide⟩

end Cert.KernelIdeal.HostLine0Single

end
-- ==== Proof.HostLine0.lean ====
/-
  The stretch of host operations that ends at the first region's entry, read one variable at a time against its final contents: each of the 16 runs adds its aggregate to the running total; the total starts from zeros; the node array the runs gather from is the input scaled row by row by the source normalisation and narrowed; the normalisations are the clipped degrees to the power −1/2; the two columns are the normalisations reshaped; the weights are narrowed; the degrees and the arguments are not assigned here.
-/
import proofs.«156708_j74217034875214_2_alg».proof.Proof.HostLine0Single
import proofs.«156708_j74217034875214_2_alg».proof.Proof.ChunkSpec

set_option maxRecDepth 65536

noncomputable section

namespace Cert.KernelIdeal.HostLine0

open Cert.KernelIdeal Cert.KernelIdeal.Gen Cert.KernelIdeal.Chunks Idealize.ShloMosaic Idealize.ShloMosaic.StableHlo

variable {F : FTy → Type} [FloatOps F]

variable (V : Valuation τ sig (Elt F))

/-- The run of edges from 0 on: its aggregate is added to what the earlier runs gave. -/
theorem run0 : (after (hostOps0_4 (F := F)) V (Proc.devRef Proc.tc main_v33)) = addf (after (hostOps0_4 (F := F)) V (Proc.devRef Proc.tc main_v19)) (chunkAgg 0 slices_S1600000_S100000_0 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 30 rfl rfl (after_take_of_lt HostLine0Single.single V (i := 13) (j := 30) rfl (by decide)) (after_take_of_lt HostLine0Single.single V (i := 29) (j := 30) rfl (by decide))]
  rw [final_ternary HostLine0Single.single V 29 rfl rfl (after_take_of_lt HostLine0Single.single V (i := 27) (j := 29) rfl (by decide)) (after_take_of_lt HostLine0Single.single V (i := 28) (j := 29) rfl (by decide)) (after_take_of_lt HostLine0Single.single V (i := 25) (j := 29) rfl (by decide))]
  rw [final_unary HostLine0Single.single V 28 rfl rfl (after_take_of_lt HostLine0Single.single V (i := 15) (j := 28) rfl (by decide))]
  rw [final_unary HostLine0Single.single V 27 rfl rfl (after_take_of_lt HostLine0Single.single V (i := 26) (j := 27) rfl (by decide))]
  rw [final_nullary HostLine0Single.single V 26 rfl rfl]
  rw [final_unary HostLine0Single.single V 25 rfl rfl (after_take_of_lt HostLine0Single.single V (i := 24) (j := 25) rfl (by decide))]
  rw [final_binary HostLine0Single.single V 24 rfl rfl (after_take_of_lt HostLine0Single.single V (i := 11) (j := 24) rfl (by decide)) (after_take_of_lt HostLine0Single.single V (i := 23) (j := 24) rfl (by decide))]
  rw [final_unary HostLine0Single.single V 23 rfl rfl (after_take_of_lt HostLine0Single.single V (i := 22) (j := 23) rfl (by decide))]
  rw [final_ternary HostLine0Single.single V 22 rfl rfl (after_take_of_lt HostLine0Single.single V (i := 18) (j := 22) rfl (by decide)) (after_take_of_lt HostLine0Single.single V (i := 21) (j := 22) rfl (by decide)) (after_take_of_lt HostLine0Single.single V (i := 14) (j := 22) rfl (by decide))]
  rw [final_binary HostLine0Single.single V 21 rfl rfl (after_take_of_lt HostLine0Single.single V (i := 14) (j := 21) rfl (by decide)) (after_take_of_lt HostLine0Single.single V (i := 20) (j := 21) rfl (by decide))]
  rw [final_unary HostLine0Single.single V 20 rfl rfl (after_take_of_lt HostLine0Single.single V (i := 19) (j := 20) rfl (by decide))]
  rw [final_nullary HostLine0Single.single V 19 rfl rfl]
  rw [final_binary HostLine0Single.single V 18 rfl rfl (after_take_of_lt HostLine0Single.single V (i := 14) (j := 18) rfl (by decide)) (after_take_of_lt HostLine0Single.single V (i := 17) (j := 18) rfl (by decide))]
  rw [final_unary HostLine0Single.single V 17 rfl rfl (after_take_of_lt HostLine0Single.single V (i := 16) (j := 17) rfl (by decide))]
  rw [final_nullary HostLine0Single.single V 16 rfl rfl]
  rw [final_unary HostLine0Single.single V 15 rfl rfl (after_take_of_not_assigned HostLine0Single.single V 15 (by decide))]
  rw [final_unary HostLine0Single.single V 14 rfl rfl (after_take_of_not_assigned HostLine0Single.single V 14 (by decide))]
  rfl

/-- The run of edges from 100000 on: its aggregate is added to what the earlier runs gave. -/
theorem run1 : (after (hostOps0_4 (F := F)) V (Proc.devRef Proc.tc main_v47)) = addf (after (hostOps0_4 (F := F)) V (Proc.devRef Proc.tc main_v33)) (chunkAgg 100000 slices_S1600000_S100000_100000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 47 rfl rfl (after_take_of_lt HostLine0Single.single V (i := 30) (j := 47) rfl (by decide)) (after_take_of_lt HostLine0Single.single V (i := 46) (j := 47) rfl (by decide))]
  rw [final_ternary HostLine0Single.single V 46 rfl rfl (after_take_of_lt HostLine0Single.single V (i := 44) (j := 46) rfl (by decide)) (after_take_of_lt HostLine0Single.single V (i := 45) (j := 46) rfl (by decide)) (after_take_of_lt HostLine0Single.single V (i := 42) (j := 46) rfl (by decide))]
  rw [final_unary HostLine0Single.single V 45 rfl rfl (after_take_of_lt HostLine0Single.single V (i := 32) (j := 45) rfl (by decide))]
  rw [final_unary HostLine0Single.single V 44 rfl rfl (after_take_of_lt HostLine0Single.single V (i := 43) (j := 44) rfl (by decide))]
  rw [final_nullary HostLine0Single.single V 43 rfl rfl]
  rw [final_unary HostLine0Single.single V 42 rfl rfl (after_take_of_lt HostLine0Single.single V (i := 41) (j := 42) rfl (by decide))]
  rw [final_binary HostLine0Single.single V 41 rfl rfl (after_take_of_lt HostLine0Single.single V (i := 11) (j := 41) rfl (by decide)) (after_take_of_lt HostLine0Single.single V (i := 40) (j := 41) rfl (by decide))]
  rw [final_unary HostLine0Single.single V 40 rfl rfl (after_take_of_lt HostLine0Single.single V (i := 39) (j := 40) rfl (by decide))]
  rw [final_ternary HostLine0Single.single V 39 rfl rfl (after_take_of_lt HostLine0Single.single V (i := 35) (j := 39) rfl (by decide)) (after_take_of_lt HostLine0Single.single V (i := 38) (j := 39) rfl (by decide)) (after_take_of_lt HostLine0Single.single V (i := 31) (j := 39) rfl (by decide))]
  rw [final_binary HostLine0Single.single V 38 rfl rfl (after_take_of_lt HostLine0Single.single V (i := 31) (j := 38) rfl (by decide)) (after_take_of_lt HostLine0Single.single V (i := 37) (j := 38) rfl (by decide))]
  rw [final_unary HostLine0Single.single V 37 rfl rfl (after_take_of_lt HostLine0Single.single V (i := 36) (j := 37) rfl (by decide))]
  rw [final_nullary HostLine0Single.single V 36 rfl rfl]
  rw [final_binary HostLine0Single.single V 35 rfl rfl (after_take_of_lt HostLine0Single.single V (i := 31) (j := 35) rfl (by decide)) (after_take_of_lt HostLine0Single.single V (i := 34) (j := 35) rfl (by decide))]
  rw [final_unary HostLine0Single.single V 34 rfl rfl (after_take_of_lt HostLine0Single.single V (i := 33) (j := 34) rfl (by decide))]
  rw [final_nullary HostLine0Single.single V 33 rfl rfl]
  rw [final_unary HostLine0Single.single V 32 rfl rfl (after_take_of_not_assigned HostLine0Single.single V 32 (by decide))]
  rw [final_unary HostLine0Single.single V 31 rfl rfl (after_take_of_not_assigned HostLine0Single.single V 31 (by decide))]
  rfl

/-- The run of edges from 200000 on: its aggregate is added to what the earlier runs gave. -/
theorem run2 : (after (hostOps0_4 (F := F)) V (Proc.devRef Proc.tc main_v61)) = addf (after (hostOps0_4 (F := F)) V (Proc.devRef Proc.tc main_v47)) (chunkAgg 200000 slices_S1600000_S100000_200000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 64 rfl rfl (after_take_of_lt HostLine0Single.single V (i := 47) (j := 64) rfl (by decide)) (after_take_of_lt HostLine0Single.single V (i := 63) (j := 64) rfl (by decide))]
  rw [final_ternary HostLine0Single.single V 63 rfl rfl (after_take_of_lt HostLine0Single.single V (i := 61) (j := 63) rfl (by decide)) (after_take_of_lt HostLine0Single.single V (i := 62) (j := 63) rfl (by decide)) (after_take_of_lt HostLine0Single.single V (i := 59) (j := 63) rfl (by decide))]
  rw [final_unary HostLine0Single.single V 62 rfl rfl (after_take_of_lt HostLine0Single.single V (i := 49) (j := 62) rfl (by decide))]
  rw [final_unary HostLine0Single.single V 61 rfl rfl (after_take_of_lt HostLine0Single.single V (i := 60) (j := 61) rfl (by decide))]
  rw [final_nullary HostLine0Single.single V 60 rfl rfl]
  rw [final_unary HostLine0Single.single V 59 rfl rfl (after_take_of_lt HostLine0Single.single V (i := 58) (j := 59) rfl (by decide))]
  rw [final_binary HostLine0Single.single V 58 rfl rfl (after_take_of_lt HostLine0Single.single V (i := 11) (j := 58) rfl (by decide)) (after_take_of_lt HostLine0Single.single V (i := 57) (j := 58) rfl (by decide))]
  rw [final_unary HostLine0Single.single V 57 rfl rfl (after_take_of_lt HostLine0Single.single V (i := 56) (j := 57) rfl (by decide))]
  rw [final_ternary HostLine0Single.single V 56 rfl rfl (after_take_of_lt HostLine0Single.single V (i := 52) (j := 56) rfl (by decide)) (after_take_of_lt HostLine0Single.single V (i := 55) (j := 56) rfl (by decide)) (after_take_of_lt HostLine0Single.single V (i := 48) (j := 56) rfl (by decide))]
  rw [final_binary HostLine0Single.single V 55 rfl rfl (after_take_of_lt HostLine0Single.single V (i := 48) (j := 55) rfl (by decide)) (after_take_of_lt HostLine0Single.single V (i := 54) (j := 55) rfl (by decide))]
  rw [final_unary HostLine0Single.single V 54 rfl rfl (after_take_of_lt HostLine0Single.single V (i := 53) (j := 54) rfl (by decide))]
  rw [final_nullary HostLine0Single.single V 53 rfl rfl]
  rw [final_binary HostLine0Single.single V 52 rfl rfl (after_take_of_lt HostLine0Single.single V (i := 48) (j := 52) rfl (by decide)) (after_take_of_lt HostLine0Single.single V (i := 51) (j := 52) rfl (by decide))]
  rw [final_unary HostLine0Single.single V 51 rfl rfl (after_take_of_lt HostLine0Single.single V (i := 50) (j := 51) rfl (by decide))]
  rw [final_nullary HostLine0Single.single V 50 rfl rfl]
  rw [final_unary HostLine0Single.single V 49 rfl rfl (after_take_of_not_assigned HostLine0Single.single V 49 (by decide))]
  rw [final_unary HostLine0Single.single V 48 rfl rfl (after_take_of_not_assigned HostLine0Single.single V 48 (by decide))]
  rfl

/-- The run of edges from 300000 on: its aggregate is added to what the earlier runs gave. -/
theorem run3 : (after (hostOps0_4 (F := F)) V (Proc.devRef Proc.tc main_v75)) = addf (after (hostOps0_4 (F := F)) V (Proc.devRef Proc.tc main_v61)) (chunkAgg 300000 slices_S1600000_S100000_300000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 81 rfl rfl (after_take_of_lt HostLine0Single.single V (i := 64) (j := 81) rfl (by decide)) (after_take_of_lt HostLine0Single.single V (i := 80) (j := 81) rfl (by decide))]
  rw [final_ternary HostLine0Single.single V 80 rfl rfl (after_take_of_lt HostLine0Single.single V (i := 78) (j := 80) rfl (by decide)) (after_take_of_lt HostLine0Single.single V (i := 79) (j := 80) rfl (by decide)) (after_take_of_lt HostLine0Single.single V (i := 76) (j := 80) rfl (by decide))]
  rw [final_unary HostLine0Single.single V 79 rfl rfl (after_take_of_lt HostLine0Single.single V (i := 66) (j := 79) rfl (by decide))]
  rw [final_unary HostLine0Single.single V 78 rfl rfl (after_take_of_lt HostLine0Single.single V (i := 77) (j := 78) rfl (by decide))]
  rw [final_nullary HostLine0Single.single V 77 rfl rfl]
  rw [final_unary HostLine0Single.single V 76 rfl rfl (after_take_of_lt HostLine0Single.single V (i := 75) (j := 76) rfl (by decide))]
  rw [final_binary HostLine0Single.single V 75 rfl rfl (after_take_of_lt HostLine0Single.single V (i := 11) (j := 75) rfl (by decide)) (after_take_of_lt HostLine0Single.single V (i := 74) (j := 75) rfl (by decide))]
  rw [final_unary HostLine0Single.single V 74 rfl rfl (after_take_of_lt HostLine0Single.single V (i := 73) (j := 74) rfl (by decide))]
  rw [final_ternary HostLine0Single.single V 73 rfl rfl (after_take_of_lt HostLine0Single.single V (i := 69) (j := 73) rfl (by decide)) (after_take_of_lt HostLine0Single.single V (i := 72) (j := 73) rfl (by decide)) (after_take_of_lt HostLine0Single.single V (i := 65) (j := 73) rfl (by decide))]
  rw [final_binary HostLine0Single.single V 72 rfl rfl (after_take_of_lt HostLine0Single.single V (i := 65) (j := 72) rfl (by decide)) (after_take_of_lt HostLine0Single.single V (i := 71) (j := 72) rfl (by decide))]
  rw [final_unary HostLine0Single.single V 71 rfl rfl (after_take_of_lt HostLine0Single.single V (i := 70) (j := 71) rfl (by decide))]
  rw [final_nullary HostLine0Single.single V 70 rfl rfl]
  rw [final_binary HostLine0Single.single V 69 rfl rfl (after_take_of_lt HostLine0Single.single V (i := 65) (j := 69) rfl (by decide)) (after_take_of_lt HostLine0Single.single V (i := 68) (j := 69) rfl (by decide))]
  rw [final_unary HostLine0Single.single V 68 rfl rfl (after_take_of_lt HostLine0Single.single V (i := 67) (j := 68) rfl (by decide))]
  rw [final_nullary HostLine0Single.single V 67 rfl rfl]
  rw [final_unary HostLine0Single.single V 66 rfl rfl (after_take_of_not_assigned HostLine0Single.single V 66 (by decide))]
  rw [final_unary HostLine0Single.single V 65 rfl rfl (after_take_of_not_assigned HostLine0Single.single V 65 (by decide))]
  rfl

/-- The run of edges from 400000 on: its aggregate is added to what the earlier runs gave. -/
theorem run4 : (after (hostOps0_4 (F := F)) V (Proc.devRef Proc.tc main_v89)) = addf (after (hostOps0_4 (F := F)) V (Proc.devRef Proc.tc main_v75)) (chunkAgg 400000 slices_S1600000_S100000_400000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 98 rfl rfl (after_take_of_lt HostLine0Single.single V (i := 81) (j := 98) rfl (by decide)) (after_take_of_lt HostLine0Single.single V (i := 97) (j := 98) rfl (by decide))]
  rw [final_ternary HostLine0Single.single V 97 rfl rfl (after_take_of_lt HostLine0Single.single V (i := 95) (j := 97) rfl (by decide)) (after_take_of_lt HostLine0Single.single V (i := 96) (j := 97) rfl (by decide)) (after_take_of_lt HostLine0Single.single V (i := 93) (j := 97) rfl (by decide))]
  rw [final_unary HostLine0Single.single V 96 rfl rfl (after_take_of_lt HostLine0Single.single V (i := 83) (j := 96) rfl (by decide))]
  rw [final_unary HostLine0Single.single V 95 rfl rfl (after_take_of_lt HostLine0Single.single V (i := 94) (j := 95) rfl (by decide))]
  rw [final_nullary HostLine0Single.single V 94 rfl rfl]
  rw [final_unary HostLine0Single.single V 93 rfl rfl (after_take_of_lt HostLine0Single.single V (i := 92) (j := 93) rfl (by decide))]
  rw [final_binary HostLine0Single.single V 92 rfl rfl (after_take_of_lt HostLine0Single.single V (i := 11) (j := 92) rfl (by decide)) (after_take_of_lt HostLine0Single.single V (i := 91) (j := 92) rfl (by decide))]
  rw [final_unary HostLine0Single.single V 91 rfl rfl (after_take_of_lt HostLine0Single.single V (i := 90) (j := 91) rfl (by decide))]
  rw [final_ternary HostLine0Single.single V 90 rfl rfl (after_take_of_lt HostLine0Single.single V (i := 86) (j := 90) rfl (by decide)) (after_take_of_lt HostLine0Single.single V (i := 89) (j := 90) rfl (by decide)) (after_take_of_lt HostLine0Single.single V (i := 82) (j := 90) rfl (by decide))]
  rw [final_binary HostLine0Single.single V 89 rfl rfl (after_take_of_lt HostLine0Single.single V (i := 82) (j := 89) rfl (by decide)) (after_take_of_lt HostLine0Single.single V (i := 88) (j := 89) rfl (by decide))]
  rw [final_unary HostLine0Single.single V 88 rfl rfl (after_take_of_lt HostLine0Single.single V (i := 87) (j := 88) rfl (by decide))]
  rw [final_nullary HostLine0Single.single V 87 rfl rfl]
  rw [final_binary HostLine0Single.single V 86 rfl rfl (after_take_of_lt HostLine0Single.single V (i := 82) (j := 86) rfl (by decide)) (after_take_of_lt HostLine0Single.single V (i := 85) (j := 86) rfl (by decide))]
  rw [final_unary HostLine0Single.single V 85 rfl rfl (after_take_of_lt HostLine0Single.single V (i := 84) (j := 85) rfl (by decide))]
  rw [final_nullary HostLine0Single.single V 84 rfl rfl]
  rw [final_unary HostLine0Single.single V 83 rfl rfl (after_take_of_not_assigned HostLine0Single.single V 83 (by decide))]
  rw [final_unary HostLine0Single.single V 82 rfl rfl (after_take_of_not_assigned HostLine0Single.single V 82 (by decide))]
  rfl

/-- The run of edges from 500000 on: its aggregate is added to what the earlier runs gave. -/
theorem run5 : (after (hostOps0_4 (F := F)) V (Proc.devRef Proc.tc main_v103)) = addf (after (hostOps0_4 (F := F)) V (Proc.devRef Proc.tc main_v89)) (chunkAgg 500000 slices_S1600000_S100000_500000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 115 rfl rfl (after_take_of_lt HostLine0Single.single V (i := 98) (j := 115) rfl (by decide)) (after_take_of_lt HostLine0Single.single V (i := 114) (j := 115) rfl (by decide))]
  rw [final_ternary HostLine0Single.single V 114 rfl rfl (after_take_of_lt HostLine0Single.single V (i := 112) (j := 114) rfl (by decide)) (after_take_of_lt HostLine0Single.single V (i := 113) (j := 114) rfl (by decide)) (after_take_of_lt HostLine0Single.single V (i := 110) (j := 114) rfl (by decide))]
  rw [final_unary HostLine0Single.single V 113 rfl rfl (after_take_of_lt HostLine0Single.single V (i := 100) (j := 113) rfl (by decide))]
  rw [final_unary HostLine0Single.single V 112 rfl rfl (after_take_of_lt HostLine0Single.single V (i := 111) (j := 112) rfl (by decide))]
  rw [final_nullary HostLine0Single.single V 111 rfl rfl]
  rw [final_unary HostLine0Single.single V 110 rfl rfl (after_take_of_lt HostLine0Single.single V (i := 109) (j := 110) rfl (by decide))]
  rw [final_binary HostLine0Single.single V 109 rfl rfl (after_take_of_lt HostLine0Single.single V (i := 11) (j := 109) rfl (by decide)) (after_take_of_lt HostLine0Single.single V (i := 108) (j := 109) rfl (by decide))]
  rw [final_unary HostLine0Single.single V 108 rfl rfl (after_take_of_lt HostLine0Single.single V (i := 107) (j := 108) rfl (by decide))]
  rw [final_ternary HostLine0Single.single V 107 rfl rfl (after_take_of_lt HostLine0Single.single V (i := 103) (j := 107) rfl (by decide)) (after_take_of_lt HostLine0Single.single V (i := 106) (j := 107) rfl (by decide)) (after_take_of_lt HostLine0Single.single V (i := 99) (j := 107) rfl (by decide))]
  rw [final_binary HostLine0Single.single V 106 rfl rfl (after_take_of_lt HostLine0Single.single V (i := 99) (j := 106) rfl (by decide)) (after_take_of_lt HostLine0Single.single V (i := 105) (j := 106) rfl (by decide))]
  rw [final_unary HostLine0Single.single V 105 rfl rfl (after_take_of_lt HostLine0Single.single V (i := 104) (j := 105) rfl (by decide))]
  rw [final_nullary HostLine0Single.single V 104 rfl rfl]
  rw [final_binary HostLine0Single.single V 103 rfl rfl (after_take_of_lt HostLine0Single.single V (i := 99) (j := 103) rfl (by decide)) (after_take_of_lt HostLine0Single.single V (i := 102) (j := 103) rfl (by decide))]
  rw [final_unary HostLine0Single.single V 102 rfl rfl (after_take_of_lt HostLine0Single.single V (i := 101) (j := 102) rfl (by decide))]
  rw [final_nullary HostLine0Single.single V 101 rfl rfl]
  rw [final_unary HostLine0Single.single V 100 rfl rfl (after_take_of_not_assigned HostLine0Single.single V 100 (by decide))]
  rw [final_unary HostLine0Single.single V 99 rfl rfl (after_take_of_not_assigned HostLine0Single.single V 99 (by decide))]
  rfl

/-- The run of edges from 600000 on: its aggregate is added to what the earlier runs gave. -/
theorem run6 : (after (hostOps0_4 (F := F)) V (Proc.devRef Proc.tc main_v117)) = addf (after (hostOps0_4 (F := F)) V (Proc.devRef Proc.tc main_v103)) (chunkAgg 600000 slices_S1600000_S100000_600000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 132 rfl rfl (after_take_of_lt HostLine0Single.single V (i := 115) (j := 132) rfl (by decide)) (after_take_of_lt HostLine0Single.single V (i := 131) (j := 132) rfl (by decide))]
  rw [final_ternary HostLine0Single.single V 131 rfl rfl (after_take_of_lt HostLine0Single.single V (i := 129) (j := 131) rfl (by decide)) (after_take_of_lt HostLine0Single.single V (i := 130) (j := 131) rfl (by decide)) (after_take_of_lt HostLine0Single.single V (i := 127) (j := 131) rfl (by decide))]
  rw [final_unary HostLine0Single.single V 130 rfl rfl (after_take_of_lt HostLine0Single.single V (i := 117) (j := 130) rfl (by decide))]
  rw [final_unary HostLine0Single.single V 129 rfl rfl (after_take_of_lt HostLine0Single.single V (i := 128) (j := 129) rfl (by decide))]
  rw [final_nullary HostLine0Single.single V 128 rfl rfl]
  rw [final_unary HostLine0Single.single V 127 rfl rfl (after_take_of_lt HostLine0Single.single V (i := 126) (j := 127) rfl (by decide))]
  rw [final_binary HostLine0Single.single V 126 rfl rfl (after_take_of_lt HostLine0Single.single V (i := 11) (j := 126) rfl (by decide)) (after_take_of_lt HostLine0Single.single V (i := 125) (j := 126) rfl (by decide))]
  rw [final_unary HostLine0Single.single V 125 rfl rfl (after_take_of_lt HostLine0Single.single V (i := 124) (j := 125) rfl (by decide))]
  rw [final_ternary HostLine0Single.single V 124 rfl rfl (after_take_of_lt HostLine0Single.single V (i := 120) (j := 124) rfl (by decide)) (after_take_of_lt HostLine0Single.single V (i := 123) (j := 124) rfl (by decide)) (after_take_of_lt HostLine0Single.single V (i := 116) (j := 124) rfl (by decide))]
  rw [final_binary HostLine0Single.single V 123 rfl rfl (after_take_of_lt HostLine0Single.single V (i := 116) (j := 123) rfl (by decide)) (after_take_of_lt HostLine0Single.single V (i := 122) (j := 123) rfl (by decide))]
  rw [final_unary HostLine0Single.single V 122 rfl rfl (after_take_of_lt HostLine0Single.single V (i := 121) (j := 122) rfl (by decide))]
  rw [final_nullary HostLine0Single.single V 121 rfl rfl]
  rw [final_binary HostLine0Single.single V 120 rfl rfl (after_take_of_lt HostLine0Single.single V (i := 116) (j := 120) rfl (by decide)) (after_take_of_lt HostLine0Single.single V (i := 119) (j := 120) rfl (by decide))]
  rw [final_unary HostLine0Single.single V 119 rfl rfl (after_take_of_lt HostLine0Single.single V (i := 118) (j := 119) rfl (by decide))]
  rw [final_nullary HostLine0Single.single V 118 rfl rfl]
  rw [final_unary HostLine0Single.single V 117 rfl rfl (after_take_of_not_assigned HostLine0Single.single V 117 (by decide))]
  rw [final_unary HostLine0Single.single V 116 rfl rfl (after_take_of_not_assigned HostLine0Single.single V 116 (by decide))]
  rfl

/-- The run of edges from 700000 on: its aggregate is added to what the earlier runs gave. -/
theorem run7 : (after (hostOps0_4 (F := F)) V (Proc.devRef Proc.tc main_v131)) = addf (after (hostOps0_4 (F := F)) V (Proc.devRef Proc.tc main_v117)) (chunkAgg 700000 slices_S1600000_S100000_700000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 149 rfl rfl (after_take_of_lt HostLine0Single.single V (i := 132) (j := 149) rfl (by decide)) (after_take_of_lt HostLine0Single.single V (i := 148) (j := 149) rfl (by decide))]
  rw [final_ternary HostLine0Single.single V 148 rfl rfl (after_take_of_lt HostLine0Single.single V (i := 146) (j := 148) rfl (by decide)) (after_take_of_lt HostLine0Single.single V (i := 147) (j := 148) rfl (by decide)) (after_take_of_lt HostLine0Single.single V (i := 144) (j := 148) rfl (by decide))]
  rw [final_unary HostLine0Single.single V 147 rfl rfl (after_take_of_lt HostLine0Single.single V (i := 134) (j := 147) rfl (by decide))]
  rw [final_unary HostLine0Single.single V 146 rfl rfl (after_take_of_lt HostLine0Single.single V (i := 145) (j := 146) rfl (by decide))]
  rw [final_nullary HostLine0Single.single V 145 rfl rfl]
  rw [final_unary HostLine0Single.single V 144 rfl rfl (after_take_of_lt HostLine0Single.single V (i := 143) (j := 144) rfl (by decide))]
  rw [final_binary HostLine0Single.single V 143 rfl rfl (after_take_of_lt HostLine0Single.single V (i := 11) (j := 143) rfl (by decide)) (after_take_of_lt HostLine0Single.single V (i := 142) (j := 143) rfl (by decide))]
  rw [final_unary HostLine0Single.single V 142 rfl rfl (after_take_of_lt HostLine0Single.single V (i := 141) (j := 142) rfl (by decide))]
  rw [final_ternary HostLine0Single.single V 141 rfl rfl (after_take_of_lt HostLine0Single.single V (i := 137) (j := 141) rfl (by decide)) (after_take_of_lt HostLine0Single.single V (i := 140) (j := 141) rfl (by decide)) (after_take_of_lt HostLine0Single.single V (i := 133) (j := 141) rfl (by decide))]
  rw [final_binary HostLine0Single.single V 140 rfl rfl (after_take_of_lt HostLine0Single.single V (i := 133) (j := 140) rfl (by decide)) (after_take_of_lt HostLine0Single.single V (i := 139) (j := 140) rfl (by decide))]
  rw [final_unary HostLine0Single.single V 139 rfl rfl (after_take_of_lt HostLine0Single.single V (i := 138) (j := 139) rfl (by decide))]
  rw [final_nullary HostLine0Single.single V 138 rfl rfl]
  rw [final_binary HostLine0Single.single V 137 rfl rfl (after_take_of_lt HostLine0Single.single V (i := 133) (j := 137) rfl (by decide)) (after_take_of_lt HostLine0Single.single V (i := 136) (j := 137) rfl (by decide))]
  rw [final_unary HostLine0Single.single V 136 rfl rfl (after_take_of_lt HostLine0Single.single V (i := 135) (j := 136) rfl (by decide))]
  rw [final_nullary HostLine0Single.single V 135 rfl rfl]
  rw [final_unary HostLine0Single.single V 134 rfl rfl (after_take_of_not_assigned HostLine0Single.single V 134 (by decide))]
  rw [final_unary HostLine0Single.single V 133 rfl rfl (after_take_of_not_assigned HostLine0Single.single V 133 (by decide))]
  rfl

/-- The run of edges from 800000 on: its aggregate is added to what the earlier runs gave. -/
theorem run8 : (after (hostOps0_4 (F := F)) V (Proc.devRef Proc.tc main_v145)) = addf (after (hostOps0_4 (F := F)) V (Proc.devRef Proc.tc main_v131)) (chunkAgg 800000 slices_S1600000_S100000_800000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 166 rfl rfl (after_take_of_lt HostLine0Single.single V (i := 149) (j := 166) rfl (by decide)) (after_take_of_lt HostLine0Single.single V (i := 165) (j := 166) rfl (by decide))]
  rw [final_ternary HostLine0Single.single V 165 rfl rfl (after_take_of_lt HostLine0Single.single V (i := 163) (j := 165) rfl (by decide)) (after_take_of_lt HostLine0Single.single V (i := 164) (j := 165) rfl (by decide)) (after_take_of_lt HostLine0Single.single V (i := 161) (j := 165) rfl (by decide))]
  rw [final_unary HostLine0Single.single V 164 rfl rfl (after_take_of_lt HostLine0Single.single V (i := 151) (j := 164) rfl (by decide))]
  rw [final_unary HostLine0Single.single V 163 rfl rfl (after_take_of_lt HostLine0Single.single V (i := 162) (j := 163) rfl (by decide))]
  rw [final_nullary HostLine0Single.single V 162 rfl rfl]
  rw [final_unary HostLine0Single.single V 161 rfl rfl (after_take_of_lt HostLine0Single.single V (i := 160) (j := 161) rfl (by decide))]
  rw [final_binary HostLine0Single.single V 160 rfl rfl (after_take_of_lt HostLine0Single.single V (i := 11) (j := 160) rfl (by decide)) (after_take_of_lt HostLine0Single.single V (i := 159) (j := 160) rfl (by decide))]
  rw [final_unary HostLine0Single.single V 159 rfl rfl (after_take_of_lt HostLine0Single.single V (i := 158) (j := 159) rfl (by decide))]
  rw [final_ternary HostLine0Single.single V 158 rfl rfl (after_take_of_lt HostLine0Single.single V (i := 154) (j := 158) rfl (by decide)) (after_take_of_lt HostLine0Single.single V (i := 157) (j := 158) rfl (by decide)) (after_take_of_lt HostLine0Single.single V (i := 150) (j := 158) rfl (by decide))]
  rw [final_binary HostLine0Single.single V 157 rfl rfl (after_take_of_lt HostLine0Single.single V (i := 150) (j := 157) rfl (by decide)) (after_take_of_lt HostLine0Single.single V (i := 156) (j := 157) rfl (by decide))]
  rw [final_unary HostLine0Single.single V 156 rfl rfl (after_take_of_lt HostLine0Single.single V (i := 155) (j := 156) rfl (by decide))]
  rw [final_nullary HostLine0Single.single V 155 rfl rfl]
  rw [final_binary HostLine0Single.single V 154 rfl rfl (after_take_of_lt HostLine0Single.single V (i := 150) (j := 154) rfl (by decide)) (after_take_of_lt HostLine0Single.single V (i := 153) (j := 154) rfl (by decide))]
  rw [final_unary HostLine0Single.single V 153 rfl rfl (after_take_of_lt HostLine0Single.single V (i := 152) (j := 153) rfl (by decide))]
  rw [final_nullary HostLine0Single.single V 152 rfl rfl]
  rw [final_unary HostLine0Single.single V 151 rfl rfl (after_take_of_not_assigned HostLine0Single.single V 151 (by decide))]
  rw [final_unary HostLine0Single.single V 150 rfl rfl (after_take_of_not_assigned HostLine0Single.single V 150 (by decide))]
  rfl

/-- The run of edges from 900000 on: its aggregate is added to what the earlier runs gave. -/
theorem run9 : (after (hostOps0_4 (F := F)) V (Proc.devRef Proc.tc main_v159)) = addf (after (hostOps0_4 (F := F)) V (Proc.devRef Proc.tc main_v145)) (chunkAgg 900000 slices_S1600000_S100000_900000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 183 rfl rfl (after_take_of_lt HostLine0Single.single V (i := 166) (j := 183) rfl (by decide)) (after_take_of_lt HostLine0Single.single V (i := 182) (j := 183) rfl (by decide))]
  rw [final_ternary HostLine0Single.single V 182 rfl rfl (after_take_of_lt HostLine0Single.single V (i := 180) (j := 182) rfl (by decide)) (after_take_of_lt HostLine0Single.single V (i := 181) (j := 182) rfl (by decide)) (after_take_of_lt HostLine0Single.single V (i := 178) (j := 182) rfl (by decide))]
  rw [final_unary HostLine0Single.single V 181 rfl rfl (after_take_of_lt HostLine0Single.single V (i := 168) (j := 181) rfl (by decide))]
  rw [final_unary HostLine0Single.single V 180 rfl rfl (after_take_of_lt HostLine0Single.single V (i := 179) (j := 180) rfl (by decide))]
  rw [final_nullary HostLine0Single.single V 179 rfl rfl]
  rw [final_unary HostLine0Single.single V 178 rfl rfl (after_take_of_lt HostLine0Single.single V (i := 177) (j := 178) rfl (by decide))]
  rw [final_binary HostLine0Single.single V 177 rfl rfl (after_take_of_lt HostLine0Single.single V (i := 11) (j := 177) rfl (by decide)) (after_take_of_lt HostLine0Single.single V (i := 176) (j := 177) rfl (by decide))]
  rw [final_unary HostLine0Single.single V 176 rfl rfl (after_take_of_lt HostLine0Single.single V (i := 175) (j := 176) rfl (by decide))]
  rw [final_ternary HostLine0Single.single V 175 rfl rfl (after_take_of_lt HostLine0Single.single V (i := 171) (j := 175) rfl (by decide)) (after_take_of_lt HostLine0Single.single V (i := 174) (j := 175) rfl (by decide)) (after_take_of_lt HostLine0Single.single V (i := 167) (j := 175) rfl (by decide))]
  rw [final_binary HostLine0Single.single V 174 rfl rfl (after_take_of_lt HostLine0Single.single V (i := 167) (j := 174) rfl (by decide)) (after_take_of_lt HostLine0Single.single V (i := 173) (j := 174) rfl (by decide))]
  rw [final_unary HostLine0Single.single V 173 rfl rfl (after_take_of_lt HostLine0Single.single V (i := 172) (j := 173) rfl (by decide))]
  rw [final_nullary HostLine0Single.single V 172 rfl rfl]
  rw [final_binary HostLine0Single.single V 171 rfl rfl (after_take_of_lt HostLine0Single.single V (i := 167) (j := 171) rfl (by decide)) (after_take_of_lt HostLine0Single.single V (i := 170) (j := 171) rfl (by decide))]
  rw [final_unary HostLine0Single.single V 170 rfl rfl (after_take_of_lt HostLine0Single.single V (i := 169) (j := 170) rfl (by decide))]
  rw [final_nullary HostLine0Single.single V 169 rfl rfl]
  rw [final_unary HostLine0Single.single V 168 rfl rfl (after_take_of_not_assigned HostLine0Single.single V 168 (by decide))]
  rw [final_unary HostLine0Single.single V 167 rfl rfl (after_take_of_not_assigned HostLine0Single.single V 167 (by decide))]
  rfl

/-- The run of edges from 1000000 on: its aggregate is added to what the earlier runs gave. -/
theorem run10 : (after (hostOps0_4 (F := F)) V (Proc.devRef Proc.tc main_v173)) = addf (after (hostOps0_4 (F := F)) V (Proc.devRef Proc.tc main_v159)) (chunkAgg 1000000 slices_S1600000_S100000_1000000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 200 rfl rfl (after_take_of_lt HostLine0Single.single V (i := 183) (j := 200) rfl (by decide)) (after_take_of_lt HostLine0Single.single V (i := 199) (j := 200) rfl (by decide))]
  rw [final_ternary HostLine0Single.single V 199 rfl rfl (after_take_of_lt HostLine0Single.single V (i := 197) (j := 199) rfl (by decide)) (after_take_of_lt HostLine0Single.single V (i := 198) (j := 199) rfl (by decide)) (after_take_of_lt HostLine0Single.single V (i := 195) (j := 199) rfl (by decide))]
  rw [final_unary HostLine0Single.single V 198 rfl rfl (after_take_of_lt HostLine0Single.single V (i := 185) (j := 198) rfl (by decide))]
  rw [final_unary HostLine0Single.single V 197 rfl rfl (after_take_of_lt HostLine0Single.single V (i := 196) (j := 197) rfl (by decide))]
  rw [final_nullary HostLine0Single.single V 196 rfl rfl]
  rw [final_unary HostLine0Single.single V 195 rfl rfl (after_take_of_lt HostLine0Single.single V (i := 194) (j := 195) rfl (by decide))]
  rw [final_binary HostLine0Single.single V 194 rfl rfl (after_take_of_lt HostLine0Single.single V (i := 11) (j := 194) rfl (by decide)) (after_take_of_lt HostLine0Single.single V (i := 193) (j := 194) rfl (by decide))]
  rw [final_unary HostLine0Single.single V 193 rfl rfl (after_take_of_lt HostLine0Single.single V (i := 192) (j := 193) rfl (by decide))]
  rw [final_ternary HostLine0Single.single V 192 rfl rfl (after_take_of_lt HostLine0Single.single V (i := 188) (j := 192) rfl (by decide)) (after_take_of_lt HostLine0Single.single V (i := 191) (j := 192) rfl (by decide)) (after_take_of_lt HostLine0Single.single V (i := 184) (j := 192) rfl (by decide))]
  rw [final_binary HostLine0Single.single V 191 rfl rfl (after_take_of_lt HostLine0Single.single V (i := 184) (j := 191) rfl (by decide)) (after_take_of_lt HostLine0Single.single V (i := 190) (j := 191) rfl (by decide))]
  rw [final_unary HostLine0Single.single V 190 rfl rfl (after_take_of_lt HostLine0Single.single V (i := 189) (j := 190) rfl (by decide))]
  rw [final_nullary HostLine0Single.single V 189 rfl rfl]
  rw [final_binary HostLine0Single.single V 188 rfl rfl (after_take_of_lt HostLine0Single.single V (i := 184) (j := 188) rfl (by decide)) (after_take_of_lt HostLine0Single.single V (i := 187) (j := 188) rfl (by decide))]
  rw [final_unary HostLine0Single.single V 187 rfl rfl (after_take_of_lt HostLine0Single.single V (i := 186) (j := 187) rfl (by decide))]
  rw [final_nullary HostLine0Single.single V 186 rfl rfl]
  rw [final_unary HostLine0Single.single V 185 rfl rfl (after_take_of_not_assigned HostLine0Single.single V 185 (by decide))]
  rw [final_unary HostLine0Single.single V 184 rfl rfl (after_take_of_not_assigned HostLine0Single.single V 184 (by decide))]
  rfl

/-- The run of edges from 1100000 on: its aggregate is added to what the earlier runs gave. -/
theorem run11 : (after (hostOps0_4 (F := F)) V (Proc.devRef Proc.tc main_v187)) = addf (after (hostOps0_4 (F := F)) V (Proc.devRef Proc.tc main_v173)) (chunkAgg 1100000 slices_S1600000_S100000_1100000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 217 rfl rfl (after_take_of_lt HostLine0Single.single V (i := 200) (j := 217) rfl (by decide)) (after_take_of_lt HostLine0Single.single V (i := 216) (j := 217) rfl (by decide))]
  rw [final_ternary HostLine0Single.single V 216 rfl rfl (after_take_of_lt HostLine0Single.single V (i := 214) (j := 216) rfl (by decide)) (after_take_of_lt HostLine0Single.single V (i := 215) (j := 216) rfl (by decide)) (after_take_of_lt HostLine0Single.single V (i := 212) (j := 216) rfl (by decide))]
  rw [final_unary HostLine0Single.single V 215 rfl rfl (after_take_of_lt HostLine0Single.single V (i := 202) (j := 215) rfl (by decide))]
  rw [final_unary HostLine0Single.single V 214 rfl rfl (after_take_of_lt HostLine0Single.single V (i := 213) (j := 214) rfl (by decide))]
  rw [final_nullary HostLine0Single.single V 213 rfl rfl]
  rw [final_unary HostLine0Single.single V 212 rfl rfl (after_take_of_lt HostLine0Single.single V (i := 211) (j := 212) rfl (by decide))]
  rw [final_binary HostLine0Single.single V 211 rfl rfl (after_take_of_lt HostLine0Single.single V (i := 11) (j := 211) rfl (by decide)) (after_take_of_lt HostLine0Single.single V (i := 210) (j := 211) rfl (by decide))]
  rw [final_unary HostLine0Single.single V 210 rfl rfl (after_take_of_lt HostLine0Single.single V (i := 209) (j := 210) rfl (by decide))]
  rw [final_ternary HostLine0Single.single V 209 rfl rfl (after_take_of_lt HostLine0Single.single V (i := 205) (j := 209) rfl (by decide)) (after_take_of_lt HostLine0Single.single V (i := 208) (j := 209) rfl (by decide)) (after_take_of_lt HostLine0Single.single V (i := 201) (j := 209) rfl (by decide))]
  rw [final_binary HostLine0Single.single V 208 rfl rfl (after_take_of_lt HostLine0Single.single V (i := 201) (j := 208) rfl (by decide)) (after_take_of_lt HostLine0Single.single V (i := 207) (j := 208) rfl (by decide))]
  rw [final_unary HostLine0Single.single V 207 rfl rfl (after_take_of_lt HostLine0Single.single V (i := 206) (j := 207) rfl (by decide))]
  rw [final_nullary HostLine0Single.single V 206 rfl rfl]
  rw [final_binary HostLine0Single.single V 205 rfl rfl (after_take_of_lt HostLine0Single.single V (i := 201) (j := 205) rfl (by decide)) (after_take_of_lt HostLine0Single.single V (i := 204) (j := 205) rfl (by decide))]
  rw [final_unary HostLine0Single.single V 204 rfl rfl (after_take_of_lt HostLine0Single.single V (i := 203) (j := 204) rfl (by decide))]
  rw [final_nullary HostLine0Single.single V 203 rfl rfl]
  rw [final_unary HostLine0Single.single V 202 rfl rfl (after_take_of_not_assigned HostLine0Single.single V 202 (by decide))]
  rw [final_unary HostLine0Single.single V 201 rfl rfl (after_take_of_not_assigned HostLine0Single.single V 201 (by decide))]
  rfl

/-- The run of edges from 1200000 on: its aggregate is added to what the earlier runs gave. -/
theorem run12 : (after (hostOps0_4 (F := F)) V (Proc.devRef Proc.tc main_v201)) = addf (after (hostOps0_4 (F := F)) V (Proc.devRef Proc.tc main_v187)) (chunkAgg 1200000 slices_S1600000_S100000_1200000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 234 rfl rfl (after_take_of_lt HostLine0Single.single V (i := 217) (j := 234) rfl (by decide)) (after_take_of_lt HostLine0Single.single V (i := 233) (j := 234) rfl (by decide))]
  rw [final_ternary HostLine0Single.single V 233 rfl rfl (after_take_of_lt HostLine0Single.single V (i := 231) (j := 233) rfl (by decide)) (after_take_of_lt HostLine0Single.single V (i := 232) (j := 233) rfl (by decide)) (after_take_of_lt HostLine0Single.single V (i := 229) (j := 233) rfl (by decide))]
  rw [final_unary HostLine0Single.single V 232 rfl rfl (after_take_of_lt HostLine0Single.single V (i := 219) (j := 232) rfl (by decide))]
  rw [final_unary HostLine0Single.single V 231 rfl rfl (after_take_of_lt HostLine0Single.single V (i := 230) (j := 231) rfl (by decide))]
  rw [final_nullary HostLine0Single.single V 230 rfl rfl]
  rw [final_unary HostLine0Single.single V 229 rfl rfl (after_take_of_lt HostLine0Single.single V (i := 228) (j := 229) rfl (by decide))]
  rw [final_binary HostLine0Single.single V 228 rfl rfl (after_take_of_lt HostLine0Single.single V (i := 11) (j := 228) rfl (by decide)) (after_take_of_lt HostLine0Single.single V (i := 227) (j := 228) rfl (by decide))]
  rw [final_unary HostLine0Single.single V 227 rfl rfl (after_take_of_lt HostLine0Single.single V (i := 226) (j := 227) rfl (by decide))]
  rw [final_ternary HostLine0Single.single V 226 rfl rfl (after_take_of_lt HostLine0Single.single V (i := 222) (j := 226) rfl (by decide)) (after_take_of_lt HostLine0Single.single V (i := 225) (j := 226) rfl (by decide)) (after_take_of_lt HostLine0Single.single V (i := 218) (j := 226) rfl (by decide))]
  rw [final_binary HostLine0Single.single V 225 rfl rfl (after_take_of_lt HostLine0Single.single V (i := 218) (j := 225) rfl (by decide)) (after_take_of_lt HostLine0Single.single V (i := 224) (j := 225) rfl (by decide))]
  rw [final_unary HostLine0Single.single V 224 rfl rfl (after_take_of_lt HostLine0Single.single V (i := 223) (j := 224) rfl (by decide))]
  rw [final_nullary HostLine0Single.single V 223 rfl rfl]
  rw [final_binary HostLine0Single.single V 222 rfl rfl (after_take_of_lt HostLine0Single.single V (i := 218) (j := 222) rfl (by decide)) (after_take_of_lt HostLine0Single.single V (i := 221) (j := 222) rfl (by decide))]
  rw [final_unary HostLine0Single.single V 221 rfl rfl (after_take_of_lt HostLine0Single.single V (i := 220) (j := 221) rfl (by decide))]
  rw [final_nullary HostLine0Single.single V 220 rfl rfl]
  rw [final_unary HostLine0Single.single V 219 rfl rfl (after_take_of_not_assigned HostLine0Single.single V 219 (by decide))]
  rw [final_unary HostLine0Single.single V 218 rfl rfl (after_take_of_not_assigned HostLine0Single.single V 218 (by decide))]
  rfl

/-- The run of edges from 1300000 on: its aggregate is added to what the earlier runs gave. -/
theorem run13 : (after (hostOps0_4 (F := F)) V (Proc.devRef Proc.tc main_v215)) = addf (after (hostOps0_4 (F := F)) V (Proc.devRef Proc.tc main_v201)) (chunkAgg 1300000 slices_S1600000_S100000_1300000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 251 rfl rfl (after_take_of_lt HostLine0Single.single V (i := 234) (j := 251) rfl (by decide)) (after_take_of_lt HostLine0Single.single V (i := 250) (j := 251) rfl (by decide))]
  rw [final_ternary HostLine0Single.single V 250 rfl rfl (after_take_of_lt HostLine0Single.single V (i := 248) (j := 250) rfl (by decide)) (after_take_of_lt HostLine0Single.single V (i := 249) (j := 250) rfl (by decide)) (after_take_of_lt HostLine0Single.single V (i := 246) (j := 250) rfl (by decide))]
  rw [final_unary HostLine0Single.single V 249 rfl rfl (after_take_of_lt HostLine0Single.single V (i := 236) (j := 249) rfl (by decide))]
  rw [final_unary HostLine0Single.single V 248 rfl rfl (after_take_of_lt HostLine0Single.single V (i := 247) (j := 248) rfl (by decide))]
  rw [final_nullary HostLine0Single.single V 247 rfl rfl]
  rw [final_unary HostLine0Single.single V 246 rfl rfl (after_take_of_lt HostLine0Single.single V (i := 245) (j := 246) rfl (by decide))]
  rw [final_binary HostLine0Single.single V 245 rfl rfl (after_take_of_lt HostLine0Single.single V (i := 11) (j := 245) rfl (by decide)) (after_take_of_lt HostLine0Single.single V (i := 244) (j := 245) rfl (by decide))]
  rw [final_unary HostLine0Single.single V 244 rfl rfl (after_take_of_lt HostLine0Single.single V (i := 243) (j := 244) rfl (by decide))]
  rw [final_ternary HostLine0Single.single V 243 rfl rfl (after_take_of_lt HostLine0Single.single V (i := 239) (j := 243) rfl (by decide)) (after_take_of_lt HostLine0Single.single V (i := 242) (j := 243) rfl (by decide)) (after_take_of_lt HostLine0Single.single V (i := 235) (j := 243) rfl (by decide))]
  rw [final_binary HostLine0Single.single V 242 rfl rfl (after_take_of_lt HostLine0Single.single V (i := 235) (j := 242) rfl (by decide)) (after_take_of_lt HostLine0Single.single V (i := 241) (j := 242) rfl (by decide))]
  rw [final_unary HostLine0Single.single V 241 rfl rfl (after_take_of_lt HostLine0Single.single V (i := 240) (j := 241) rfl (by decide))]
  rw [final_nullary HostLine0Single.single V 240 rfl rfl]
  rw [final_binary HostLine0Single.single V 239 rfl rfl (after_take_of_lt HostLine0Single.single V (i := 235) (j := 239) rfl (by decide)) (after_take_of_lt HostLine0Single.single V (i := 238) (j := 239) rfl (by decide))]
  rw [final_unary HostLine0Single.single V 238 rfl rfl (after_take_of_lt HostLine0Single.single V (i := 237) (j := 238) rfl (by decide))]
  rw [final_nullary HostLine0Single.single V 237 rfl rfl]
  rw [final_unary HostLine0Single.single V 236 rfl rfl (after_take_of_not_assigned HostLine0Single.single V 236 (by decide))]
  rw [final_unary HostLine0Single.single V 235 rfl rfl (after_take_of_not_assigned HostLine0Single.single V 235 (by decide))]
  rfl

/-- The run of edges from 1400000 on: its aggregate is added to what the earlier runs gave. -/
theorem run14 : (after (hostOps0_4 (F := F)) V (Proc.devRef Proc.tc main_v229)) = addf (after (hostOps0_4 (F := F)) V (Proc.devRef Proc.tc main_v215)) (chunkAgg 1400000 slices_S1600000_S100000_1400000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 268 rfl rfl (after_take_of_lt HostLine0Single.single V (i := 251) (j := 268) rfl (by decide)) (after_take_of_lt HostLine0Single.single V (i := 267) (j := 268) rfl (by decide))]
  rw [final_ternary HostLine0Single.single V 267 rfl rfl (after_take_of_lt HostLine0Single.single V (i := 265) (j := 267) rfl (by decide)) (after_take_of_lt HostLine0Single.single V (i := 266) (j := 267) rfl (by decide)) (after_take_of_lt HostLine0Single.single V (i := 263) (j := 267) rfl (by decide))]
  rw [final_unary HostLine0Single.single V 266 rfl rfl (after_take_of_lt HostLine0Single.single V (i := 253) (j := 266) rfl (by decide))]
  rw [final_unary HostLine0Single.single V 265 rfl rfl (after_take_of_lt HostLine0Single.single V (i := 264) (j := 265) rfl (by decide))]
  rw [final_nullary HostLine0Single.single V 264 rfl rfl]
  rw [final_unary HostLine0Single.single V 263 rfl rfl (after_take_of_lt HostLine0Single.single V (i := 262) (j := 263) rfl (by decide))]
  rw [final_binary HostLine0Single.single V 262 rfl rfl (after_take_of_lt HostLine0Single.single V (i := 11) (j := 262) rfl (by decide)) (after_take_of_lt HostLine0Single.single V (i := 261) (j := 262) rfl (by decide))]
  rw [final_unary HostLine0Single.single V 261 rfl rfl (after_take_of_lt HostLine0Single.single V (i := 260) (j := 261) rfl (by decide))]
  rw [final_ternary HostLine0Single.single V 260 rfl rfl (after_take_of_lt HostLine0Single.single V (i := 256) (j := 260) rfl (by decide)) (after_take_of_lt HostLine0Single.single V (i := 259) (j := 260) rfl (by decide)) (after_take_of_lt HostLine0Single.single V (i := 252) (j := 260) rfl (by decide))]
  rw [final_binary HostLine0Single.single V 259 rfl rfl (after_take_of_lt HostLine0Single.single V (i := 252) (j := 259) rfl (by decide)) (after_take_of_lt HostLine0Single.single V (i := 258) (j := 259) rfl (by decide))]
  rw [final_unary HostLine0Single.single V 258 rfl rfl (after_take_of_lt HostLine0Single.single V (i := 257) (j := 258) rfl (by decide))]
  rw [final_nullary HostLine0Single.single V 257 rfl rfl]
  rw [final_binary HostLine0Single.single V 256 rfl rfl (after_take_of_lt HostLine0Single.single V (i := 252) (j := 256) rfl (by decide)) (after_take_of_lt HostLine0Single.single V (i := 255) (j := 256) rfl (by decide))]
  rw [final_unary HostLine0Single.single V 255 rfl rfl (after_take_of_lt HostLine0Single.single V (i := 254) (j := 255) rfl (by decide))]
  rw [final_nullary HostLine0Single.single V 254 rfl rfl]
  rw [final_unary HostLine0Single.single V 253 rfl rfl (after_take_of_not_assigned HostLine0Single.single V 253 (by decide))]
  rw [final_unary HostLine0Single.single V 252 rfl rfl (after_take_of_not_assigned HostLine0Single.single V 252 (by decide))]
  rfl

/-- The run of edges from 1500000 on: its aggregate is added to what the earlier runs gave. -/
theorem run15 : (after (hostOps0_4 (F := F)) V (Proc.devRef Proc.tc main_v243)) = addf (after (hostOps0_4 (F := F)) V (Proc.devRef Proc.tc main_v229)) (chunkAgg 1500000 slices_S1600000_S100000_1500000 (after (hostOps0_4 (F := F)) V (Proc.devRef Proc.tc main_v18)) (after (hostOps0_4 (F := F)) V (Proc.devRef Proc.tc main_arg5)) (after (hostOps0_4 (F := F)) V (Proc.devRef Proc.tc main_arg6))) := by
  rw [final_binary HostLine0Single.single V 285 rfl rfl (after_take_of_lt HostLine0Single.single V (i := 268) (j := 285) rfl (by decide)) (after_take_of_lt HostLine0Single.single V (i := 284) (j := 285) rfl (by decide))]
  rw [final_ternary HostLine0Single.single V 284 rfl rfl (after_take_of_lt HostLine0Single.single V (i := 282) (j := 284) rfl (by decide)) (after_take_of_lt HostLine0Single.single V (i := 283) (j := 284) rfl (by decide)) (after_take_of_lt HostLine0Single.single V (i := 280) (j := 284) rfl (by decide))]
  rw [final_unary HostLine0Single.single V 283 rfl rfl (after_take_of_lt HostLine0Single.single V (i := 270) (j := 283) rfl (by decide))]
  rw [final_unary HostLine0Single.single V 282 rfl rfl (after_take_of_lt HostLine0Single.single V (i := 281) (j := 282) rfl (by decide))]
  rw [final_nullary HostLine0Single.single V 281 rfl rfl]
  rw [final_unary HostLine0Single.single V 280 rfl rfl (after_take_of_lt HostLine0Single.single V (i := 279) (j := 280) rfl (by decide))]
  rw [final_binary HostLine0Single.single V 279 rfl rfl (after_take_of_lt HostLine0Single.single V (i := 11) (j := 279) rfl (by decide)) (after_take_of_lt HostLine0Single.single V (i := 278) (j := 279) rfl (by decide))]
  rw [final_unary HostLine0Single.single V 278 rfl rfl (after_take_of_lt HostLine0Single.single V (i := 277) (j := 278) rfl (by decide))]
  rw [final_ternary HostLine0Single.single V 277 rfl rfl (after_take_of_lt HostLine0Single.single V (i := 273) (j := 277) rfl (by decide)) (after_take_of_lt HostLine0Single.single V (i := 276) (j := 277) rfl (by decide)) (after_take_of_lt HostLine0Single.single V (i := 269) (j := 277) rfl (by decide))]
  rw [final_binary HostLine0Single.single V 276 rfl rfl (after_take_of_lt HostLine0Single.single V (i := 269) (j := 276) rfl (by decide)) (after_take_of_lt HostLine0Single.single V (i := 275) (j := 276) rfl (by decide))]
  rw [final_unary HostLine0Single.single V 275 rfl rfl (after_take_of_lt HostLine0Single.single V (i := 274) (j := 275) rfl (by decide))]
  rw [final_nullary HostLine0Single.single V 274 rfl rfl]
  rw [final_binary HostLine0Single.single V 273 rfl rfl (after_take_of_lt HostLine0Single.single V (i := 269) (j := 273) rfl (by decide)) (after_take_of_lt HostLine0Single.single V (i := 272) (j := 273) rfl (by decide))]
  rw [final_unary HostLine0Single.single V 272 rfl rfl (after_take_of_lt HostLine0Single.single V (i := 271) (j := 272) rfl (by decide))]
  rw [final_nullary HostLine0Single.single V 271 rfl rfl]
  rw [final_unary HostLine0Single.single V 270 rfl rfl (after_take_of_not_assigned HostLine0Single.single V 270 (by decide))]
  rw [final_unary HostLine0Single.single V 269 rfl rfl (after_take_of_not_assigned HostLine0Single.single V 269 (by decide))]
  rfl

/-- The accumulator starts from zeros. -/
theorem zeros : (after (hostOps0_4 (F := F)) V (Proc.devRef Proc.tc main_v19)) = broadcastInDim S100000x128 ![] bcast_S_S100000x128 (constant S_ .f32 0x00000000#32) := by
  rw [final_unary HostLine0Single.single V 13 rfl rfl (after_take_of_lt HostLine0Single.single V (i := 12) (j := 13) rfl (by decide))]
  rw [final_nullary HostLine0Single.single V 12 rfl rfl]

/-- The layer's aggregate: the 16 runs' aggregates added up in order, from zeros. -/
theorem agg : (after (hostOps0_4 (F := F)) V (Proc.devRef Proc.tc main_v243)) = aggChunks (after (hostOps0_4 (F := F)) V (Proc.devRef Proc.tc main_v18)) (after (hostOps0_4 (F := F)) V (Proc.devRef Proc.tc main_arg5)) (after (hostOps0_4 (F := F)) V (Proc.devRef Proc.tc main_arg6)) := by
  rw [run15 V, run14 V, run13 V, run12 V, run11 V, run10 V, run9 V, run8 V, run7 V, run6 V, run5 V, run4 V, run3 V, run2 V, run1 V, run0 V, zeros V]
  rfl

/-- The gathered array: the node features scaled row by row by the source normalisation, narrowed. -/
theorem scaled : (after (hostOps0_4 (F := F)) V (Proc.devRef Proc.tc main_v18)) = truncf .bf16 (mulf (after (hostOps0_4 (F := F)) V (Proc.devRef Proc.tc main_arg0)) (broadcastInDim S100000x128 ![0, 1] bcast_S100000x1_S100000x128_0_1 (broadcastInDim S100000x1 ![0] bcast_S100000_S100000x1_0 (after (hostOps0_4 (F := F)) V (Proc.devRef Proc.tc main_v10))))) bitsLt_bf16_f32 := by
  rw [final_unary HostLine0Single.single V 11 rfl rfl (after_take_of_lt HostLine0Single.single V (i := 10) (j := 11) rfl (by decide))]
  rw [final_binary HostLine0Single.single V 10 rfl rfl (after_take_of_not_assigned HostLine0Single.single V 10 (by decide)) (after_take_of_lt HostLine0Single.single V (i := 9) (j := 10) rfl (by decide))]
  rw [final_unary HostLine0Single.single V 9 rfl rfl (after_take_of_lt HostLine0Single.single V (i := 8) (j := 9) rfl (by decide))]
  rw [final_unary HostLine0Single.single V 8 rfl rfl (after_take_of_lt HostLine0Single.single V (i := 2) (j := 8) rfl (by decide))]

/-- The source normalisation: the clipped out-degree to the power −1/2. -/
theorem normSrc : (after (hostOps0_4 (F := F)) V (Proc.devRef Proc.tc main_v10)) = Host.powf (after (hostOps0_4 (F := F)) V (Proc.devRef Proc.tc main_v4)) (broadcastInDim S100000 ![] bcast_S_S100000 (constant S_ .f32 0xBF000000#32)) := by
  rw [final_binary HostLine0Single.single V 2 rfl rfl (after_take_of_not_assigned HostLine0Single.single V 2 (by decide)) (after_take_of_lt HostLine0Single.single V (i := 1) (j := 2) rfl (by decide))]
  rw [final_unary HostLine0Single.single V 1 rfl rfl (after_take_of_lt HostLine0Single.single V (i := 0) (j := 1) rfl (by decide))]
  rw [final_nullary HostLine0Single.single V 0 rfl rfl]

/-- The destination normalisation: the clipped in-degree to the power −1/2. -/
theorem normDst : (after (hostOps0_4 (F := F)) V (Proc.devRef Proc.tc main_v12)) = Host.powf (after (hostOps0_4 (F := F)) V (Proc.devRef Proc.tc main_v8)) (broadcastInDim S100000 ![] bcast_S_S100000 (constant S_ .f32 0xBF000000#32)) := by
  rw [final_binary HostLine0Single.single V 5 rfl rfl (after_take_of_not_assigned HostLine0Single.single V 5 (by decide)) (after_take_of_lt HostLine0Single.single V (i := 4) (j := 5) rfl (by decide))]
  rw [final_unary HostLine0Single.single V 4 rfl rfl (after_take_of_lt HostLine0Single.single V (i := 3) (j := 4) rfl (by decide))]
  rw [final_nullary HostLine0Single.single V 3 rfl rfl]

/-- The destination normalisation as a column. -/
theorem colDst : (after (hostOps0_4 (F := F)) V (Proc.devRef Proc.tc main_v244)) = shapeCast S100000x1 (after (hostOps0_4 (F := F)) V (Proc.devRef Proc.tc main_v12)) shapeCasts_S100000_S100000x1 := by
  rw [final_reshape HostLine0Single.single V 286 rfl rfl (after_take_of_lt HostLine0Single.single V (i := 5) (j := 286) rfl (by decide))]
  rfl

/-- The source normalisation as a column. -/
theorem colSrc : (after (hostOps0_4 (F := F)) V (Proc.devRef Proc.tc main_v245)) = shapeCast S100000x1 (after (hostOps0_4 (F := F)) V (Proc.devRef Proc.tc main_v10)) shapeCasts_S100000_S100000x1 := by
  rw [final_reshape HostLine0Single.single V 287 rfl rfl (after_take_of_lt HostLine0Single.single V (i := 2) (j := 287) rfl (by decide))]
  rfl

/-- The first weight, narrowed. -/
theorem weight1 : (after (hostOps0_4 (F := F)) V (Proc.devRef Proc.tc main_v13)) = truncf .bf16 (after (hostOps0_4 (F := F)) V (Proc.devRef Proc.tc main_arg1)) bitsLt_bf16_f32 := by
  rw [final_unary HostLine0Single.single V 6 rfl rfl (after_take_of_not_assigned HostLine0Single.single V 6 (by decide))]

/-- The second weight, narrowed. -/
theorem weight2 : (after (hostOps0_4 (F := F)) V (Proc.devRef Proc.tc main_v14)) = truncf .bf16 (after (hostOps0_4 (F := F)) V (Proc.devRef Proc.tc main_arg3)) bitsLt_bf16_f32 := by
  rw [final_unary HostLine0Single.single V 7 rfl rfl (after_take_of_not_assigned HostLine0Single.single V 7 (by decide))]

theorem kept_main_v4 : (after (hostOps0_4 (F := F)) V (Proc.devRef Proc.tc main_v4)) = V (Proc.devRef Proc.tc main_v4) :=
  after_of_not_assigned HostLine0Single.single V (by decide)

theorem kept_main_v8 : (after (hostOps0_4 (F := F)) V (Proc.devRef Proc.tc main_v8)) = V (Proc.devRef Proc.tc main_v8) :=
  after_of_not_assigned HostLine0Single.single V (by decide)

theorem kept_main_arg0 : (after (hostOps0_4 (F := F)) V (Proc.devRef Proc.tc main_arg0)) = V (Proc.devRef Proc.tc main_arg0) :=
  after_of_not_assigned HostLine0Single.single V (by decide)

theorem kept_main_arg1 : (after (hostOps0_4 (F := F)) V (Proc.devRef Proc.tc main_arg1)) = V (Proc.devRef Proc.tc main_arg1) :=
  after_of_not_assigned HostLine0Single.single V (by decide)

theorem kept_main_arg2 : (after (hostOps0_4 (F := F)) V (Proc.devRef Proc.tc main_arg2)) = V (Proc.devRef Proc.tc main_arg2) :=
  after_of_not_assigned HostLine0Single.single V (by decide)

theorem kept_main_arg3 : (after (hostOps0_4 (F := F)) V (Proc.devRef Proc.tc main_arg3)) = V (Proc.devRef Proc.tc main_arg3) :=
  after_of_not_assigned HostLine0Single.single V (by decide)

theorem kept_main_arg4 : (after (hostOps0_4 (F := F)) V (Proc.devRef Proc.tc main_arg4)) = V (Proc.devRef Proc.tc main_arg4) :=
  after_of_not_assigned HostLine0Single.single V (by decide)

theorem kept_main_arg5 : (after (hostOps0_4 (F := F)) V (Proc.devRef Proc.tc main_arg5)) = V (Proc.devRef Proc.tc main_arg5) :=
  after_of_not_assigned HostLine0Single.single V (by decide)

theorem kept_main_arg6 : (after (hostOps0_4 (F := F)) V (Proc.devRef Proc.tc main_arg6)) = V (Proc.devRef Proc.tc main_arg6) :=
  after_of_not_assigned HostLine0Single.single V (by decide)

end Cert.KernelIdeal.HostLine0

end
-- ==== Proof.HostLine1Single.lean ====
/-
  The stretch of host operations between the two regions — the second layer's 16 runs of gather and scatter-add over the first region's output, and the column of destination scales — is in single-assignment form.
-/
import proofs.«156708_j74217034875214_2_alg».proof.Proof.Gen.KernelIdeal.Launch
import proofs.«156708_j74217034875214_2_alg».proof.Proof.LibSingleAssign

set_option maxRecDepth 65536

noncomputable section

namespace Cert.KernelIdeal.HostLine1Single

open Cert.KernelIdeal Cert.KernelIdeal.Gen Idealize.ShloMosaic Idealize.ShloMosaic.StableHlo

variable {F : FTy → Type} [FloatOps F]

/-- Each operation of the line assigns one buffer — these, in order — and no buffer is assigned twice. -/
theorem single : SingleAssign (hostOps1 (F := F))
    [main_cst_54, main_v247, main_v248, main_v249, main_c_55, main_v250, main_v251, main_c_56, main_v252, main_v253, main_v254, main_v255, main_v256, main_v257, main_cst_57, main_v258, main_v259, main_v260, main_v261, main_v262, main_v263, main_c_58, main_v264, main_v265, main_c_59, main_v266, main_v267, main_v268, main_v269, main_v270, main_v271, main_cst_60, main_v272, main_v273, main_v274, main_v275, main_v276, main_v277, main_c_61, main_v278, main_v279, main_c_62, main_v280, main_v281, main_v282, main_v283, main_v284, main_v285, main_cst_63, main_v286, main_v287, main_v288, main_v289, main_v290, main_v291, main_c_64, main_v292, main_v293, main_c_65, main_v294, main_v295, main_v296, main_v297, main_v298, main_v299, main_cst_66, main_v300, main_v301, main_v302, main_v303, main_v304, main_v305, main_c_67, main_v306, main_v307, main_c_68, main_v308, main_v309, main_v310, main_v311, main_v312, main_v313, main_cst_69, main_v314, main_v315, main_v316, main_v317, main_v318, main_v319, main_c_70, main_v320, main_v321, main_c_71, main_v322, main_v323, main_v324, main_v325, main_v326, main_v327, main_cst_72, main_v328, main_v329, main_v330, main_v331, main_v332, main_v333, main_c_73, main_v334, main_v335, main_c_74, main_v336, main_v337, main_v338, main_v339, main_v340, main_v341, main_cst_75, main_v342, main_v343, main_v344, main_v345, main_v346, main_v347, main_c_76, main_v348, main_v349, main_c_77, main_v350, main_v351, main_v352, main_v353, main_v354, main_v355, main_cst_78, main_v356, main_v357, main_v358, main_v359, main_v360, main_v361, main_c_79, main_v362, main_v363, main_c_80, main_v364, main_v365, main_v366, main_v367, main_v368, main_v369, main_cst_81, main_v370, main_v371, main_v372, main_v373, main_v374, main_v375, main_c_82, main_v376, main_v377, main_c_83, main_v378, main_v379, main_v380, main_v381, main_v382, main_v383, main_cst_84, main_v384, main_v385, main_v386, main_v387, main_v388, main_v389, main_c_85, main_v390, main_v391, main_c_86, main_v392, main_v393, main_v394, main_v395, main_v396, main_v397, main_cst_87, main_v398, main_v399, main_v400, main_v401, main_v402, main_v403, main_c_88, main_v404, main_v405, main_c_89, main_v406, main_v407, main_v408, main_v409, main_v410, main_v411, main_cst_90, main_v412, main_v413, main_v414, main_v415, main_v416, main_v417, main_c_91, main_v418, main_v419, main_c_92, main_v420, main_v421, main_v422, main_v423, main_v424, main_v425, main_cst_93, main_v426, main_v427, main_v428, main_v429, main_v430, main_v431, main_c_94, main_v432, main_v433, main_c_95, main_v434, main_v435, main_v436, main_v437, main_v438, main_v439, main_cst_96, main_v440, main_v441, main_v442, main_v443, main_v444, main_v445, main_c_97, main_v446, main_v447, main_c_98, main_v448, main_v449, main_v450, main_v451, main_v452, main_v453, main_cst_99, main_v454, main_v455, main_v456, main_v457, main_v458, main_v459, main_c_100, main_v460, main_v461, main_c_101, main_v462, main_v463, main_v464, main_v465, main_v466, main_v467, main_cst_102, main_v468, main_v469, main_v470, main_v471, main_v472] := ⟨rfl, by decide⟩

end Cert.KernelIdeal.HostLine1Single

end
-- ==== Proof.HostLine1.lean ====
/-
  The stretch of host operations between the two regions, read one variable at a time against its final contents: each of the 16 runs adds its aggregate — gathered from the first region's output — to the running total, which starts from zeros; the destination normalisation is reshaped to a column; the first region's output, the normalisation, the second weight and the arguments are not assigned here.
-/
import proofs.«156708_j74217034875214_2_alg».proof.Proof.HostLine1Single
import proofs.«156708_j74217034875214_2_alg».proof.Proof.ChunkSpec

set_option maxRecDepth 65536

noncomputable section

namespace Cert.KernelIdeal.HostLine1

open Cert.KernelIdeal Cert.KernelIdeal.Gen Cert.KernelIdeal.Chunks Idealize.ShloMosaic Idealize.ShloMosaic.StableHlo

variable {F : FTy → Type} [FloatOps F]

variable (V : Valuation τ sig (Elt F))

/-- The run of edges from 0 on: its aggregate is added to what the earlier runs gave. -/
theorem run0 : (after (hostOps1 (F := F)) V (Proc.devRef Proc.tc main_v261)) = addf (after (hostOps1 (F := F)) V (Proc.devRef Proc.tc main_v247)) (chunkAgg 0 slices_S1600000_S100000_0 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 18 rfl rfl (after_take_of_lt HostLine1Single.single V (i := 1) (j := 18) rfl (by decide)) (after_take_of_lt HostLine1Single.single V (i := 17) (j := 18) rfl (by decide))]
  rw [final_ternary HostLine1Single.single V 17 rfl rfl (after_take_of_lt HostLine1Single.single V (i := 15) (j := 17) rfl (by decide)) (after_take_of_lt HostLine1Single.single V (i := 16) (j := 17) rfl (by decide)) (after_take_of_lt HostLine1Single.single V (i := 13) (j := 17) rfl (by decide))]
  rw [final_unary HostLine1Single.single V 16 rfl rfl (after_take_of_lt HostLine1Single.single V (i := 3) (j := 16) rfl (by decide))]
  rw [final_unary HostLine1Single.single V 15 rfl rfl (after_take_of_lt HostLine1Single.single V (i := 14) (j := 15) rfl (by decide))]
  rw [final_nullary HostLine1Single.single V 14 rfl rfl]
  rw [final_unary HostLine1Single.single V 13 rfl rfl (after_take_of_lt HostLine1Single.single V (i := 12) (j := 13) rfl (by decide))]
  rw [final_binary HostLine1Single.single V 12 rfl rfl (after_take_of_not_assigned HostLine1Single.single V 12 (by decide)) (after_take_of_lt HostLine1Single.single V (i := 11) (j := 12) rfl (by decide))]
  rw [final_unary HostLine1Single.single V 11 rfl rfl (after_take_of_lt HostLine1Single.single V (i := 10) (j := 11) rfl (by decide))]
  rw [final_ternary HostLine1Single.single V 10 rfl rfl (after_take_of_lt HostLine1Single.single V (i := 6) (j := 10) rfl (by decide)) (after_take_of_lt HostLine1Single.single V (i := 9) (j := 10) rfl (by decide)) (after_take_of_lt HostLine1Single.single V (i := 2) (j := 10) rfl (by decide))]
  rw [final_binary HostLine1Single.single V 9 rfl rfl (after_take_of_lt HostLine1Single.single V (i := 2) (j := 9) rfl (by decide)) (after_take_of_lt HostLine1Single.single V (i := 8) (j := 9) rfl (by decide))]
  rw [final_unary HostLine1Single.single V 8 rfl rfl (after_take_of_lt HostLine1Single.single V (i := 7) (j := 8) rfl (by decide))]
  rw [final_nullary HostLine1Single.single V 7 rfl rfl]
  rw [final_binary HostLine1Single.single V 6 rfl rfl (after_take_of_lt HostLine1Single.single V (i := 2) (j := 6) rfl (by decide)) (after_take_of_lt HostLine1Single.single V (i := 5) (j := 6) rfl (by decide))]
  rw [final_unary HostLine1Single.single V 5 rfl rfl (after_take_of_lt HostLine1Single.single V (i := 4) (j := 5) rfl (by decide))]
  rw [final_nullary HostLine1Single.single V 4 rfl rfl]
  rw [final_unary HostLine1Single.single V 3 rfl rfl (after_take_of_not_assigned HostLine1Single.single V 3 (by decide))]
  rw [final_unary HostLine1Single.single V 2 rfl rfl (after_take_of_not_assigned HostLine1Single.single V 2 (by decide))]
  rfl

/-- The run of edges from 100000 on: its aggregate is added to what the earlier runs gave. -/
theorem run1 : (after (hostOps1 (F := F)) V (Proc.devRef Proc.tc main_v275)) = addf (after (hostOps1 (F := F)) V (Proc.devRef Proc.tc main_v261)) (chunkAgg 100000 slices_S1600000_S100000_100000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 35 rfl rfl (after_take_of_lt HostLine1Single.single V (i := 18) (j := 35) rfl (by decide)) (after_take_of_lt HostLine1Single.single V (i := 34) (j := 35) rfl (by decide))]
  rw [final_ternary HostLine1Single.single V 34 rfl rfl (after_take_of_lt HostLine1Single.single V (i := 32) (j := 34) rfl (by decide)) (after_take_of_lt HostLine1Single.single V (i := 33) (j := 34) rfl (by decide)) (after_take_of_lt HostLine1Single.single V (i := 30) (j := 34) rfl (by decide))]
  rw [final_unary HostLine1Single.single V 33 rfl rfl (after_take_of_lt HostLine1Single.single V (i := 20) (j := 33) rfl (by decide))]
  rw [final_unary HostLine1Single.single V 32 rfl rfl (after_take_of_lt HostLine1Single.single V (i := 31) (j := 32) rfl (by decide))]
  rw [final_nullary HostLine1Single.single V 31 rfl rfl]
  rw [final_unary HostLine1Single.single V 30 rfl rfl (after_take_of_lt HostLine1Single.single V (i := 29) (j := 30) rfl (by decide))]
  rw [final_binary HostLine1Single.single V 29 rfl rfl (after_take_of_not_assigned HostLine1Single.single V 29 (by decide)) (after_take_of_lt HostLine1Single.single V (i := 28) (j := 29) rfl (by decide))]
  rw [final_unary HostLine1Single.single V 28 rfl rfl (after_take_of_lt HostLine1Single.single V (i := 27) (j := 28) rfl (by decide))]
  rw [final_ternary HostLine1Single.single V 27 rfl rfl (after_take_of_lt HostLine1Single.single V (i := 23) (j := 27) rfl (by decide)) (after_take_of_lt HostLine1Single.single V (i := 26) (j := 27) rfl (by decide)) (after_take_of_lt HostLine1Single.single V (i := 19) (j := 27) rfl (by decide))]
  rw [final_binary HostLine1Single.single V 26 rfl rfl (after_take_of_lt HostLine1Single.single V (i := 19) (j := 26) rfl (by decide)) (after_take_of_lt HostLine1Single.single V (i := 25) (j := 26) rfl (by decide))]
  rw [final_unary HostLine1Single.single V 25 rfl rfl (after_take_of_lt HostLine1Single.single V (i := 24) (j := 25) rfl (by decide))]
  rw [final_nullary HostLine1Single.single V 24 rfl rfl]
  rw [final_binary HostLine1Single.single V 23 rfl rfl (after_take_of_lt HostLine1Single.single V (i := 19) (j := 23) rfl (by decide)) (after_take_of_lt HostLine1Single.single V (i := 22) (j := 23) rfl (by decide))]
  rw [final_unary HostLine1Single.single V 22 rfl rfl (after_take_of_lt HostLine1Single.single V (i := 21) (j := 22) rfl (by decide))]
  rw [final_nullary HostLine1Single.single V 21 rfl rfl]
  rw [final_unary HostLine1Single.single V 20 rfl rfl (after_take_of_not_assigned HostLine1Single.single V 20 (by decide))]
  rw [final_unary HostLine1Single.single V 19 rfl rfl (after_take_of_not_assigned HostLine1Single.single V 19 (by decide))]
  rfl

/-- The run of edges from 200000 on: its aggregate is added to what the earlier runs gave. -/
theorem run2 : (after (hostOps1 (F := F)) V (Proc.devRef Proc.tc main_v289)) = addf (after (hostOps1 (F := F)) V (Proc.devRef Proc.tc main_v275)) (chunkAgg 200000 slices_S1600000_S100000_200000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 52 rfl rfl (after_take_of_lt HostLine1Single.single V (i := 35) (j := 52) rfl (by decide)) (after_take_of_lt HostLine1Single.single V (i := 51) (j := 52) rfl (by decide))]
  rw [final_ternary HostLine1Single.single V 51 rfl rfl (after_take_of_lt HostLine1Single.single V (i := 49) (j := 51) rfl (by decide)) (after_take_of_lt HostLine1Single.single V (i := 50) (j := 51) rfl (by decide)) (after_take_of_lt HostLine1Single.single V (i := 47) (j := 51) rfl (by decide))]
  rw [final_unary HostLine1Single.single V 50 rfl rfl (after_take_of_lt HostLine1Single.single V (i := 37) (j := 50) rfl (by decide))]
  rw [final_unary HostLine1Single.single V 49 rfl rfl (after_take_of_lt HostLine1Single.single V (i := 48) (j := 49) rfl (by decide))]
  rw [final_nullary HostLine1Single.single V 48 rfl rfl]
  rw [final_unary HostLine1Single.single V 47 rfl rfl (after_take_of_lt HostLine1Single.single V (i := 46) (j := 47) rfl (by decide))]
  rw [final_binary HostLine1Single.single V 46 rfl rfl (after_take_of_not_assigned HostLine1Single.single V 46 (by decide)) (after_take_of_lt HostLine1Single.single V (i := 45) (j := 46) rfl (by decide))]
  rw [final_unary HostLine1Single.single V 45 rfl rfl (after_take_of_lt HostLine1Single.single V (i := 44) (j := 45) rfl (by decide))]
  rw [final_ternary HostLine1Single.single V 44 rfl rfl (after_take_of_lt HostLine1Single.single V (i := 40) (j := 44) rfl (by decide)) (after_take_of_lt HostLine1Single.single V (i := 43) (j := 44) rfl (by decide)) (after_take_of_lt HostLine1Single.single V (i := 36) (j := 44) rfl (by decide))]
  rw [final_binary HostLine1Single.single V 43 rfl rfl (after_take_of_lt HostLine1Single.single V (i := 36) (j := 43) rfl (by decide)) (after_take_of_lt HostLine1Single.single V (i := 42) (j := 43) rfl (by decide))]
  rw [final_unary HostLine1Single.single V 42 rfl rfl (after_take_of_lt HostLine1Single.single V (i := 41) (j := 42) rfl (by decide))]
  rw [final_nullary HostLine1Single.single V 41 rfl rfl]
  rw [final_binary HostLine1Single.single V 40 rfl rfl (after_take_of_lt HostLine1Single.single V (i := 36) (j := 40) rfl (by decide)) (after_take_of_lt HostLine1Single.single V (i := 39) (j := 40) rfl (by decide))]
  rw [final_unary HostLine1Single.single V 39 rfl rfl (after_take_of_lt HostLine1Single.single V (i := 38) (j := 39) rfl (by decide))]
  rw [final_nullary HostLine1Single.single V 38 rfl rfl]
  rw [final_unary HostLine1Single.single V 37 rfl rfl (after_take_of_not_assigned HostLine1Single.single V 37 (by decide))]
  rw [final_unary HostLine1Single.single V 36 rfl rfl (after_take_of_not_assigned HostLine1Single.single V 36 (by decide))]
  rfl

/-- The run of edges from 300000 on: its aggregate is added to what the earlier runs gave. -/
theorem run3 : (after (hostOps1 (F := F)) V (Proc.devRef Proc.tc main_v303)) = addf (after (hostOps1 (F := F)) V (Proc.devRef Proc.tc main_v289)) (chunkAgg 300000 slices_S1600000_S100000_300000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 69 rfl rfl (after_take_of_lt HostLine1Single.single V (i := 52) (j := 69) rfl (by decide)) (after_take_of_lt HostLine1Single.single V (i := 68) (j := 69) rfl (by decide))]
  rw [final_ternary HostLine1Single.single V 68 rfl rfl (after_take_of_lt HostLine1Single.single V (i := 66) (j := 68) rfl (by decide)) (after_take_of_lt HostLine1Single.single V (i := 67) (j := 68) rfl (by decide)) (after_take_of_lt HostLine1Single.single V (i := 64) (j := 68) rfl (by decide))]
  rw [final_unary HostLine1Single.single V 67 rfl rfl (after_take_of_lt HostLine1Single.single V (i := 54) (j := 67) rfl (by decide))]
  rw [final_unary HostLine1Single.single V 66 rfl rfl (after_take_of_lt HostLine1Single.single V (i := 65) (j := 66) rfl (by decide))]
  rw [final_nullary HostLine1Single.single V 65 rfl rfl]
  rw [final_unary HostLine1Single.single V 64 rfl rfl (after_take_of_lt HostLine1Single.single V (i := 63) (j := 64) rfl (by decide))]
  rw [final_binary HostLine1Single.single V 63 rfl rfl (after_take_of_not_assigned HostLine1Single.single V 63 (by decide)) (after_take_of_lt HostLine1Single.single V (i := 62) (j := 63) rfl (by decide))]
  rw [final_unary HostLine1Single.single V 62 rfl rfl (after_take_of_lt HostLine1Single.single V (i := 61) (j := 62) rfl (by decide))]
  rw [final_ternary HostLine1Single.single V 61 rfl rfl (after_take_of_lt HostLine1Single.single V (i := 57) (j := 61) rfl (by decide)) (after_take_of_lt HostLine1Single.single V (i := 60) (j := 61) rfl (by decide)) (after_take_of_lt HostLine1Single.single V (i := 53) (j := 61) rfl (by decide))]
  rw [final_binary HostLine1Single.single V 60 rfl rfl (after_take_of_lt HostLine1Single.single V (i := 53) (j := 60) rfl (by decide)) (after_take_of_lt HostLine1Single.single V (i := 59) (j := 60) rfl (by decide))]
  rw [final_unary HostLine1Single.single V 59 rfl rfl (after_take_of_lt HostLine1Single.single V (i := 58) (j := 59) rfl (by decide))]
  rw [final_nullary HostLine1Single.single V 58 rfl rfl]
  rw [final_binary HostLine1Single.single V 57 rfl rfl (after_take_of_lt HostLine1Single.single V (i := 53) (j := 57) rfl (by decide)) (after_take_of_lt HostLine1Single.single V (i := 56) (j := 57) rfl (by decide))]
  rw [final_unary HostLine1Single.single V 56 rfl rfl (after_take_of_lt HostLine1Single.single V (i := 55) (j := 56) rfl (by decide))]
  rw [final_nullary HostLine1Single.single V 55 rfl rfl]
  rw [final_unary HostLine1Single.single V 54 rfl rfl (after_take_of_not_assigned HostLine1Single.single V 54 (by decide))]
  rw [final_unary HostLine1Single.single V 53 rfl rfl (after_take_of_not_assigned HostLine1Single.single V 53 (by decide))]
  rfl

/-- The run of edges from 400000 on: its aggregate is added to what the earlier runs gave. -/
theorem run4 : (after (hostOps1 (F := F)) V (Proc.devRef Proc.tc main_v317)) = addf (after (hostOps1 (F := F)) V (Proc.devRef Proc.tc main_v303)) (chunkAgg 400000 slices_S1600000_S100000_400000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 86 rfl rfl (after_take_of_lt HostLine1Single.single V (i := 69) (j := 86) rfl (by decide)) (after_take_of_lt HostLine1Single.single V (i := 85) (j := 86) rfl (by decide))]
  rw [final_ternary HostLine1Single.single V 85 rfl rfl (after_take_of_lt HostLine1Single.single V (i := 83) (j := 85) rfl (by decide)) (after_take_of_lt HostLine1Single.single V (i := 84) (j := 85) rfl (by decide)) (after_take_of_lt HostLine1Single.single V (i := 81) (j := 85) rfl (by decide))]
  rw [final_unary HostLine1Single.single V 84 rfl rfl (after_take_of_lt HostLine1Single.single V (i := 71) (j := 84) rfl (by decide))]
  rw [final_unary HostLine1Single.single V 83 rfl rfl (after_take_of_lt HostLine1Single.single V (i := 82) (j := 83) rfl (by decide))]
  rw [final_nullary HostLine1Single.single V 82 rfl rfl]
  rw [final_unary HostLine1Single.single V 81 rfl rfl (after_take_of_lt HostLine1Single.single V (i := 80) (j := 81) rfl (by decide))]
  rw [final_binary HostLine1Single.single V 80 rfl rfl (after_take_of_not_assigned HostLine1Single.single V 80 (by decide)) (after_take_of_lt HostLine1Single.single V (i := 79) (j := 80) rfl (by decide))]
  rw [final_unary HostLine1Single.single V 79 rfl rfl (after_take_of_lt HostLine1Single.single V (i := 78) (j := 79) rfl (by decide))]
  rw [final_ternary HostLine1Single.single V 78 rfl rfl (after_take_of_lt HostLine1Single.single V (i := 74) (j := 78) rfl (by decide)) (after_take_of_lt HostLine1Single.single V (i := 77) (j := 78) rfl (by decide)) (after_take_of_lt HostLine1Single.single V (i := 70) (j := 78) rfl (by decide))]
  rw [final_binary HostLine1Single.single V 77 rfl rfl (after_take_of_lt HostLine1Single.single V (i := 70) (j := 77) rfl (by decide)) (after_take_of_lt HostLine1Single.single V (i := 76) (j := 77) rfl (by decide))]
  rw [final_unary HostLine1Single.single V 76 rfl rfl (after_take_of_lt HostLine1Single.single V (i := 75) (j := 76) rfl (by decide))]
  rw [final_nullary HostLine1Single.single V 75 rfl rfl]
  rw [final_binary HostLine1Single.single V 74 rfl rfl (after_take_of_lt HostLine1Single.single V (i := 70) (j := 74) rfl (by decide)) (after_take_of_lt HostLine1Single.single V (i := 73) (j := 74) rfl (by decide))]
  rw [final_unary HostLine1Single.single V 73 rfl rfl (after_take_of_lt HostLine1Single.single V (i := 72) (j := 73) rfl (by decide))]
  rw [final_nullary HostLine1Single.single V 72 rfl rfl]
  rw [final_unary HostLine1Single.single V 71 rfl rfl (after_take_of_not_assigned HostLine1Single.single V 71 (by decide))]
  rw [final_unary HostLine1Single.single V 70 rfl rfl (after_take_of_not_assigned HostLine1Single.single V 70 (by decide))]
  rfl

/-- The run of edges from 500000 on: its aggregate is added to what the earlier runs gave. -/
theorem run5 : (after (hostOps1 (F := F)) V (Proc.devRef Proc.tc main_v331)) = addf (after (hostOps1 (F := F)) V (Proc.devRef Proc.tc main_v317)) (chunkAgg 500000 slices_S1600000_S100000_500000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 103 rfl rfl (after_take_of_lt HostLine1Single.single V (i := 86) (j := 103) rfl (by decide)) (after_take_of_lt HostLine1Single.single V (i := 102) (j := 103) rfl (by decide))]
  rw [final_ternary HostLine1Single.single V 102 rfl rfl (after_take_of_lt HostLine1Single.single V (i := 100) (j := 102) rfl (by decide)) (after_take_of_lt HostLine1Single.single V (i := 101) (j := 102) rfl (by decide)) (after_take_of_lt HostLine1Single.single V (i := 98) (j := 102) rfl (by decide))]
  rw [final_unary HostLine1Single.single V 101 rfl rfl (after_take_of_lt HostLine1Single.single V (i := 88) (j := 101) rfl (by decide))]
  rw [final_unary HostLine1Single.single V 100 rfl rfl (after_take_of_lt HostLine1Single.single V (i := 99) (j := 100) rfl (by decide))]
  rw [final_nullary HostLine1Single.single V 99 rfl rfl]
  rw [final_unary HostLine1Single.single V 98 rfl rfl (after_take_of_lt HostLine1Single.single V (i := 97) (j := 98) rfl (by decide))]
  rw [final_binary HostLine1Single.single V 97 rfl rfl (after_take_of_not_assigned HostLine1Single.single V 97 (by decide)) (after_take_of_lt HostLine1Single.single V (i := 96) (j := 97) rfl (by decide))]
  rw [final_unary HostLine1Single.single V 96 rfl rfl (after_take_of_lt HostLine1Single.single V (i := 95) (j := 96) rfl (by decide))]
  rw [final_ternary HostLine1Single.single V 95 rfl rfl (after_take_of_lt HostLine1Single.single V (i := 91) (j := 95) rfl (by decide)) (after_take_of_lt HostLine1Single.single V (i := 94) (j := 95) rfl (by decide)) (after_take_of_lt HostLine1Single.single V (i := 87) (j := 95) rfl (by decide))]
  rw [final_binary HostLine1Single.single V 94 rfl rfl (after_take_of_lt HostLine1Single.single V (i := 87) (j := 94) rfl (by decide)) (after_take_of_lt HostLine1Single.single V (i := 93) (j := 94) rfl (by decide))]
  rw [final_unary HostLine1Single.single V 93 rfl rfl (after_take_of_lt HostLine1Single.single V (i := 92) (j := 93) rfl (by decide))]
  rw [final_nullary HostLine1Single.single V 92 rfl rfl]
  rw [final_binary HostLine1Single.single V 91 rfl rfl (after_take_of_lt HostLine1Single.single V (i := 87) (j := 91) rfl (by decide)) (after_take_of_lt HostLine1Single.single V (i := 90) (j := 91) rfl (by decide))]
  rw [final_unary HostLine1Single.single V 90 rfl rfl (after_take_of_lt HostLine1Single.single V (i := 89) (j := 90) rfl (by decide))]
  rw [final_nullary HostLine1Single.single V 89 rfl rfl]
  rw [final_unary HostLine1Single.single V 88 rfl rfl (after_take_of_not_assigned HostLine1Single.single V 88 (by decide))]
  rw [final_unary HostLine1Single.single V 87 rfl rfl (after_take_of_not_assigned HostLine1Single.single V 87 (by decide))]
  rfl

/-- The run of edges from 600000 on: its aggregate is added to what the earlier runs gave. -/
theorem run6 : (after (hostOps1 (F := F)) V (Proc.devRef Proc.tc main_v345)) = addf (after (hostOps1 (F := F)) V (Proc.devRef Proc.tc main_v331)) (chunkAgg 600000 slices_S1600000_S100000_600000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 120 rfl rfl (after_take_of_lt HostLine1Single.single V (i := 103) (j := 120) rfl (by decide)) (after_take_of_lt HostLine1Single.single V (i := 119) (j := 120) rfl (by decide))]
  rw [final_ternary HostLine1Single.single V 119 rfl rfl (after_take_of_lt HostLine1Single.single V (i := 117) (j := 119) rfl (by decide)) (after_take_of_lt HostLine1Single.single V (i := 118) (j := 119) rfl (by decide)) (after_take_of_lt HostLine1Single.single V (i := 115) (j := 119) rfl (by decide))]
  rw [final_unary HostLine1Single.single V 118 rfl rfl (after_take_of_lt HostLine1Single.single V (i := 105) (j := 118) rfl (by decide))]
  rw [final_unary HostLine1Single.single V 117 rfl rfl (after_take_of_lt HostLine1Single.single V (i := 116) (j := 117) rfl (by decide))]
  rw [final_nullary HostLine1Single.single V 116 rfl rfl]
  rw [final_unary HostLine1Single.single V 115 rfl rfl (after_take_of_lt HostLine1Single.single V (i := 114) (j := 115) rfl (by decide))]
  rw [final_binary HostLine1Single.single V 114 rfl rfl (after_take_of_not_assigned HostLine1Single.single V 114 (by decide)) (after_take_of_lt HostLine1Single.single V (i := 113) (j := 114) rfl (by decide))]
  rw [final_unary HostLine1Single.single V 113 rfl rfl (after_take_of_lt HostLine1Single.single V (i := 112) (j := 113) rfl (by decide))]
  rw [final_ternary HostLine1Single.single V 112 rfl rfl (after_take_of_lt HostLine1Single.single V (i := 108) (j := 112) rfl (by decide)) (after_take_of_lt HostLine1Single.single V (i := 111) (j := 112) rfl (by decide)) (after_take_of_lt HostLine1Single.single V (i := 104) (j := 112) rfl (by decide))]
  rw [final_binary HostLine1Single.single V 111 rfl rfl (after_take_of_lt HostLine1Single.single V (i := 104) (j := 111) rfl (by decide)) (after_take_of_lt HostLine1Single.single V (i := 110) (j := 111) rfl (by decide))]
  rw [final_unary HostLine1Single.single V 110 rfl rfl (after_take_of_lt HostLine1Single.single V (i := 109) (j := 110) rfl (by decide))]
  rw [final_nullary HostLine1Single.single V 109 rfl rfl]
  rw [final_binary HostLine1Single.single V 108 rfl rfl (after_take_of_lt HostLine1Single.single V (i := 104) (j := 108) rfl (by decide)) (after_take_of_lt HostLine1Single.single V (i := 107) (j := 108) rfl (by decide))]
  rw [final_unary HostLine1Single.single V 107 rfl rfl (after_take_of_lt HostLine1Single.single V (i := 106) (j := 107) rfl (by decide))]
  rw [final_nullary HostLine1Single.single V 106 rfl rfl]
  rw [final_unary HostLine1Single.single V 105 rfl rfl (after_take_of_not_assigned HostLine1Single.single V 105 (by decide))]
  rw [final_unary HostLine1Single.single V 104 rfl rfl (after_take_of_not_assigned HostLine1Single.single V 104 (by decide))]
  rfl

/-- The run of edges from 700000 on: its aggregate is added to what the earlier runs gave. -/
theorem run7 : (after (hostOps1 (F := F)) V (Proc.devRef Proc.tc main_v359)) = addf (after (hostOps1 (F := F)) V (Proc.devRef Proc.tc main_v345)) (chunkAgg 700000 slices_S1600000_S100000_700000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 137 rfl rfl (after_take_of_lt HostLine1Single.single V (i := 120) (j := 137) rfl (by decide)) (after_take_of_lt HostLine1Single.single V (i := 136) (j := 137) rfl (by decide))]
  rw [final_ternary HostLine1Single.single V 136 rfl rfl (after_take_of_lt HostLine1Single.single V (i := 134) (j := 136) rfl (by decide)) (after_take_of_lt HostLine1Single.single V (i := 135) (j := 136) rfl (by decide)) (after_take_of_lt HostLine1Single.single V (i := 132) (j := 136) rfl (by decide))]
  rw [final_unary HostLine1Single.single V 135 rfl rfl (after_take_of_lt HostLine1Single.single V (i := 122) (j := 135) rfl (by decide))]
  rw [final_unary HostLine1Single.single V 134 rfl rfl (after_take_of_lt HostLine1Single.single V (i := 133) (j := 134) rfl (by decide))]
  rw [final_nullary HostLine1Single.single V 133 rfl rfl]
  rw [final_unary HostLine1Single.single V 132 rfl rfl (after_take_of_lt HostLine1Single.single V (i := 131) (j := 132) rfl (by decide))]
  rw [final_binary HostLine1Single.single V 131 rfl rfl (after_take_of_not_assigned HostLine1Single.single V 131 (by decide)) (after_take_of_lt HostLine1Single.single V (i := 130) (j := 131) rfl (by decide))]
  rw [final_unary HostLine1Single.single V 130 rfl rfl (after_take_of_lt HostLine1Single.single V (i := 129) (j := 130) rfl (by decide))]
  rw [final_ternary HostLine1Single.single V 129 rfl rfl (after_take_of_lt HostLine1Single.single V (i := 125) (j := 129) rfl (by decide)) (after_take_of_lt HostLine1Single.single V (i := 128) (j := 129) rfl (by decide)) (after_take_of_lt HostLine1Single.single V (i := 121) (j := 129) rfl (by decide))]
  rw [final_binary HostLine1Single.single V 128 rfl rfl (after_take_of_lt HostLine1Single.single V (i := 121) (j := 128) rfl (by decide)) (after_take_of_lt HostLine1Single.single V (i := 127) (j := 128) rfl (by decide))]
  rw [final_unary HostLine1Single.single V 127 rfl rfl (after_take_of_lt HostLine1Single.single V (i := 126) (j := 127) rfl (by decide))]
  rw [final_nullary HostLine1Single.single V 126 rfl rfl]
  rw [final_binary HostLine1Single.single V 125 rfl rfl (after_take_of_lt HostLine1Single.single V (i := 121) (j := 125) rfl (by decide)) (after_take_of_lt HostLine1Single.single V (i := 124) (j := 125) rfl (by decide))]
  rw [final_unary HostLine1Single.single V 124 rfl rfl (after_take_of_lt HostLine1Single.single V (i := 123) (j := 124) rfl (by decide))]
  rw [final_nullary HostLine1Single.single V 123 rfl rfl]
  rw [final_unary HostLine1Single.single V 122 rfl rfl (after_take_of_not_assigned HostLine1Single.single V 122 (by decide))]
  rw [final_unary HostLine1Single.single V 121 rfl rfl (after_take_of_not_assigned HostLine1Single.single V 121 (by decide))]
  rfl

/-- The run of edges from 800000 on: its aggregate is added to what the earlier runs gave. -/
theorem run8 : (after (hostOps1 (F := F)) V (Proc.devRef Proc.tc main_v373)) = addf (after (hostOps1 (F := F)) V (Proc.devRef Proc.tc main_v359)) (chunkAgg 800000 slices_S1600000_S100000_800000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 154 rfl rfl (after_take_of_lt HostLine1Single.single V (i := 137) (j := 154) rfl (by decide)) (after_take_of_lt HostLine1Single.single V (i := 153) (j := 154) rfl (by decide))]
  rw [final_ternary HostLine1Single.single V 153 rfl rfl (after_take_of_lt HostLine1Single.single V (i := 151) (j := 153) rfl (by decide)) (after_take_of_lt HostLine1Single.single V (i := 152) (j := 153) rfl (by decide)) (after_take_of_lt HostLine1Single.single V (i := 149) (j := 153) rfl (by decide))]
  rw [final_unary HostLine1Single.single V 152 rfl rfl (after_take_of_lt HostLine1Single.single V (i := 139) (j := 152) rfl (by decide))]
  rw [final_unary HostLine1Single.single V 151 rfl rfl (after_take_of_lt HostLine1Single.single V (i := 150) (j := 151) rfl (by decide))]
  rw [final_nullary HostLine1Single.single V 150 rfl rfl]
  rw [final_unary HostLine1Single.single V 149 rfl rfl (after_take_of_lt HostLine1Single.single V (i := 148) (j := 149) rfl (by decide))]
  rw [final_binary HostLine1Single.single V 148 rfl rfl (after_take_of_not_assigned HostLine1Single.single V 148 (by decide)) (after_take_of_lt HostLine1Single.single V (i := 147) (j := 148) rfl (by decide))]
  rw [final_unary HostLine1Single.single V 147 rfl rfl (after_take_of_lt HostLine1Single.single V (i := 146) (j := 147) rfl (by decide))]
  rw [final_ternary HostLine1Single.single V 146 rfl rfl (after_take_of_lt HostLine1Single.single V (i := 142) (j := 146) rfl (by decide)) (after_take_of_lt HostLine1Single.single V (i := 145) (j := 146) rfl (by decide)) (after_take_of_lt HostLine1Single.single V (i := 138) (j := 146) rfl (by decide))]
  rw [final_binary HostLine1Single.single V 145 rfl rfl (after_take_of_lt HostLine1Single.single V (i := 138) (j := 145) rfl (by decide)) (after_take_of_lt HostLine1Single.single V (i := 144) (j := 145) rfl (by decide))]
  rw [final_unary HostLine1Single.single V 144 rfl rfl (after_take_of_lt HostLine1Single.single V (i := 143) (j := 144) rfl (by decide))]
  rw [final_nullary HostLine1Single.single V 143 rfl rfl]
  rw [final_binary HostLine1Single.single V 142 rfl rfl (after_take_of_lt HostLine1Single.single V (i := 138) (j := 142) rfl (by decide)) (after_take_of_lt HostLine1Single.single V (i := 141) (j := 142) rfl (by decide))]
  rw [final_unary HostLine1Single.single V 141 rfl rfl (after_take_of_lt HostLine1Single.single V (i := 140) (j := 141) rfl (by decide))]
  rw [final_nullary HostLine1Single.single V 140 rfl rfl]
  rw [final_unary HostLine1Single.single V 139 rfl rfl (after_take_of_not_assigned HostLine1Single.single V 139 (by decide))]
  rw [final_unary HostLine1Single.single V 138 rfl rfl (after_take_of_not_assigned HostLine1Single.single V 138 (by decide))]
  rfl

/-- The run of edges from 900000 on: its aggregate is added to what the earlier runs gave. -/
theorem run9 : (after (hostOps1 (F := F)) V (Proc.devRef Proc.tc main_v387)) = addf (after (hostOps1 (F := F)) V (Proc.devRef Proc.tc main_v373)) (chunkAgg 900000 slices_S1600000_S100000_900000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 171 rfl rfl (after_take_of_lt HostLine1Single.single V (i := 154) (j := 171) rfl (by decide)) (after_take_of_lt HostLine1Single.single V (i := 170) (j := 171) rfl (by decide))]
  rw [final_ternary HostLine1Single.single V 170 rfl rfl (after_take_of_lt HostLine1Single.single V (i := 168) (j := 170) rfl (by decide)) (after_take_of_lt HostLine1Single.single V (i := 169) (j := 170) rfl (by decide)) (after_take_of_lt HostLine1Single.single V (i := 166) (j := 170) rfl (by decide))]
  rw [final_unary HostLine1Single.single V 169 rfl rfl (after_take_of_lt HostLine1Single.single V (i := 156) (j := 169) rfl (by decide))]
  rw [final_unary HostLine1Single.single V 168 rfl rfl (after_take_of_lt HostLine1Single.single V (i := 167) (j := 168) rfl (by decide))]
  rw [final_nullary HostLine1Single.single V 167 rfl rfl]
  rw [final_unary HostLine1Single.single V 166 rfl rfl (after_take_of_lt HostLine1Single.single V (i := 165) (j := 166) rfl (by decide))]
  rw [final_binary HostLine1Single.single V 165 rfl rfl (after_take_of_not_assigned HostLine1Single.single V 165 (by decide)) (after_take_of_lt HostLine1Single.single V (i := 164) (j := 165) rfl (by decide))]
  rw [final_unary HostLine1Single.single V 164 rfl rfl (after_take_of_lt HostLine1Single.single V (i := 163) (j := 164) rfl (by decide))]
  rw [final_ternary HostLine1Single.single V 163 rfl rfl (after_take_of_lt HostLine1Single.single V (i := 159) (j := 163) rfl (by decide)) (after_take_of_lt HostLine1Single.single V (i := 162) (j := 163) rfl (by decide)) (after_take_of_lt HostLine1Single.single V (i := 155) (j := 163) rfl (by decide))]
  rw [final_binary HostLine1Single.single V 162 rfl rfl (after_take_of_lt HostLine1Single.single V (i := 155) (j := 162) rfl (by decide)) (after_take_of_lt HostLine1Single.single V (i := 161) (j := 162) rfl (by decide))]
  rw [final_unary HostLine1Single.single V 161 rfl rfl (after_take_of_lt HostLine1Single.single V (i := 160) (j := 161) rfl (by decide))]
  rw [final_nullary HostLine1Single.single V 160 rfl rfl]
  rw [final_binary HostLine1Single.single V 159 rfl rfl (after_take_of_lt HostLine1Single.single V (i := 155) (j := 159) rfl (by decide)) (after_take_of_lt HostLine1Single.single V (i := 158) (j := 159) rfl (by decide))]
  rw [final_unary HostLine1Single.single V 158 rfl rfl (after_take_of_lt HostLine1Single.single V (i := 157) (j := 158) rfl (by decide))]
  rw [final_nullary HostLine1Single.single V 157 rfl rfl]
  rw [final_unary HostLine1Single.single V 156 rfl rfl (after_take_of_not_assigned HostLine1Single.single V 156 (by decide))]
  rw [final_unary HostLine1Single.single V 155 rfl rfl (after_take_of_not_assigned HostLine1Single.single V 155 (by decide))]
  rfl

/-- The run of edges from 1000000 on: its aggregate is added to what the earlier runs gave. -/
theorem run10 : (after (hostOps1 (F := F)) V (Proc.devRef Proc.tc main_v401)) = addf (after (hostOps1 (F := F)) V (Proc.devRef Proc.tc main_v387)) (chunkAgg 1000000 slices_S1600000_S100000_1000000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 188 rfl rfl (after_take_of_lt HostLine1Single.single V (i := 171) (j := 188) rfl (by decide)) (after_take_of_lt HostLine1Single.single V (i := 187) (j := 188) rfl (by decide))]
  rw [final_ternary HostLine1Single.single V 187 rfl rfl (after_take_of_lt HostLine1Single.single V (i := 185) (j := 187) rfl (by decide)) (after_take_of_lt HostLine1Single.single V (i := 186) (j := 187) rfl (by decide)) (after_take_of_lt HostLine1Single.single V (i := 183) (j := 187) rfl (by decide))]
  rw [final_unary HostLine1Single.single V 186 rfl rfl (after_take_of_lt HostLine1Single.single V (i := 173) (j := 186) rfl (by decide))]
  rw [final_unary HostLine1Single.single V 185 rfl rfl (after_take_of_lt HostLine1Single.single V (i := 184) (j := 185) rfl (by decide))]
  rw [final_nullary HostLine1Single.single V 184 rfl rfl]
  rw [final_unary HostLine1Single.single V 183 rfl rfl (after_take_of_lt HostLine1Single.single V (i := 182) (j := 183) rfl (by decide))]
  rw [final_binary HostLine1Single.single V 182 rfl rfl (after_take_of_not_assigned HostLine1Single.single V 182 (by decide)) (after_take_of_lt HostLine1Single.single V (i := 181) (j := 182) rfl (by decide))]
  rw [final_unary HostLine1Single.single V 181 rfl rfl (after_take_of_lt HostLine1Single.single V (i := 180) (j := 181) rfl (by decide))]
  rw [final_ternary HostLine1Single.single V 180 rfl rfl (after_take_of_lt HostLine1Single.single V (i := 176) (j := 180) rfl (by decide)) (after_take_of_lt HostLine1Single.single V (i := 179) (j := 180) rfl (by decide)) (after_take_of_lt HostLine1Single.single V (i := 172) (j := 180) rfl (by decide))]
  rw [final_binary HostLine1Single.single V 179 rfl rfl (after_take_of_lt HostLine1Single.single V (i := 172) (j := 179) rfl (by decide)) (after_take_of_lt HostLine1Single.single V (i := 178) (j := 179) rfl (by decide))]
  rw [final_unary HostLine1Single.single V 178 rfl rfl (after_take_of_lt HostLine1Single.single V (i := 177) (j := 178) rfl (by decide))]
  rw [final_nullary HostLine1Single.single V 177 rfl rfl]
  rw [final_binary HostLine1Single.single V 176 rfl rfl (after_take_of_lt HostLine1Single.single V (i := 172) (j := 176) rfl (by decide)) (after_take_of_lt HostLine1Single.single V (i := 175) (j := 176) rfl (by decide))]
  rw [final_unary HostLine1Single.single V 175 rfl rfl (after_take_of_lt HostLine1Single.single V (i := 174) (j := 175) rfl (by decide))]
  rw [final_nullary HostLine1Single.single V 174 rfl rfl]
  rw [final_unary HostLine1Single.single V 173 rfl rfl (after_take_of_not_assigned HostLine1Single.single V 173 (by decide))]
  rw [final_unary HostLine1Single.single V 172 rfl rfl (after_take_of_not_assigned HostLine1Single.single V 172 (by decide))]
  rfl

/-- The run of edges from 1100000 on: its aggregate is added to what the earlier runs gave. -/
theorem run11 : (after (hostOps1 (F := F)) V (Proc.devRef Proc.tc main_v415)) = addf (after (hostOps1 (F := F)) V (Proc.devRef Proc.tc main_v401)) (chunkAgg 1100000 slices_S1600000_S100000_1100000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 205 rfl rfl (after_take_of_lt HostLine1Single.single V (i := 188) (j := 205) rfl (by decide)) (after_take_of_lt HostLine1Single.single V (i := 204) (j := 205) rfl (by decide))]
  rw [final_ternary HostLine1Single.single V 204 rfl rfl (after_take_of_lt HostLine1Single.single V (i := 202) (j := 204) rfl (by decide)) (after_take_of_lt HostLine1Single.single V (i := 203) (j := 204) rfl (by decide)) (after_take_of_lt HostLine1Single.single V (i := 200) (j := 204) rfl (by decide))]
  rw [final_unary HostLine1Single.single V 203 rfl rfl (after_take_of_lt HostLine1Single.single V (i := 190) (j := 203) rfl (by decide))]
  rw [final_unary HostLine1Single.single V 202 rfl rfl (after_take_of_lt HostLine1Single.single V (i := 201) (j := 202) rfl (by decide))]
  rw [final_nullary HostLine1Single.single V 201 rfl rfl]
  rw [final_unary HostLine1Single.single V 200 rfl rfl (after_take_of_lt HostLine1Single.single V (i := 199) (j := 200) rfl (by decide))]
  rw [final_binary HostLine1Single.single V 199 rfl rfl (after_take_of_not_assigned HostLine1Single.single V 199 (by decide)) (after_take_of_lt HostLine1Single.single V (i := 198) (j := 199) rfl (by decide))]
  rw [final_unary HostLine1Single.single V 198 rfl rfl (after_take_of_lt HostLine1Single.single V (i := 197) (j := 198) rfl (by decide))]
  rw [final_ternary HostLine1Single.single V 197 rfl rfl (after_take_of_lt HostLine1Single.single V (i := 193) (j := 197) rfl (by decide)) (after_take_of_lt HostLine1Single.single V (i := 196) (j := 197) rfl (by decide)) (after_take_of_lt HostLine1Single.single V (i := 189) (j := 197) rfl (by decide))]
  rw [final_binary HostLine1Single.single V 196 rfl rfl (after_take_of_lt HostLine1Single.single V (i := 189) (j := 196) rfl (by decide)) (after_take_of_lt HostLine1Single.single V (i := 195) (j := 196) rfl (by decide))]
  rw [final_unary HostLine1Single.single V 195 rfl rfl (after_take_of_lt HostLine1Single.single V (i := 194) (j := 195) rfl (by decide))]
  rw [final_nullary HostLine1Single.single V 194 rfl rfl]
  rw [final_binary HostLine1Single.single V 193 rfl rfl (after_take_of_lt HostLine1Single.single V (i := 189) (j := 193) rfl (by decide)) (after_take_of_lt HostLine1Single.single V (i := 192) (j := 193) rfl (by decide))]
  rw [final_unary HostLine1Single.single V 192 rfl rfl (after_take_of_lt HostLine1Single.single V (i := 191) (j := 192) rfl (by decide))]
  rw [final_nullary HostLine1Single.single V 191 rfl rfl]
  rw [final_unary HostLine1Single.single V 190 rfl rfl (after_take_of_not_assigned HostLine1Single.single V 190 (by decide))]
  rw [final_unary HostLine1Single.single V 189 rfl rfl (after_take_of_not_assigned HostLine1Single.single V 189 (by decide))]
  rfl

/-- The run of edges from 1200000 on: its aggregate is added to what the earlier runs gave. -/
theorem run12 : (after (hostOps1 (F := F)) V (Proc.devRef Proc.tc main_v429)) = addf (after (hostOps1 (F := F)) V (Proc.devRef Proc.tc main_v415)) (chunkAgg 1200000 slices_S1600000_S100000_1200000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 222 rfl rfl (after_take_of_lt HostLine1Single.single V (i := 205) (j := 222) rfl (by decide)) (after_take_of_lt HostLine1Single.single V (i := 221) (j := 222) rfl (by decide))]
  rw [final_ternary HostLine1Single.single V 221 rfl rfl (after_take_of_lt HostLine1Single.single V (i := 219) (j := 221) rfl (by decide)) (after_take_of_lt HostLine1Single.single V (i := 220) (j := 221) rfl (by decide)) (after_take_of_lt HostLine1Single.single V (i := 217) (j := 221) rfl (by decide))]
  rw [final_unary HostLine1Single.single V 220 rfl rfl (after_take_of_lt HostLine1Single.single V (i := 207) (j := 220) rfl (by decide))]
  rw [final_unary HostLine1Single.single V 219 rfl rfl (after_take_of_lt HostLine1Single.single V (i := 218) (j := 219) rfl (by decide))]
  rw [final_nullary HostLine1Single.single V 218 rfl rfl]
  rw [final_unary HostLine1Single.single V 217 rfl rfl (after_take_of_lt HostLine1Single.single V (i := 216) (j := 217) rfl (by decide))]
  rw [final_binary HostLine1Single.single V 216 rfl rfl (after_take_of_not_assigned HostLine1Single.single V 216 (by decide)) (after_take_of_lt HostLine1Single.single V (i := 215) (j := 216) rfl (by decide))]
  rw [final_unary HostLine1Single.single V 215 rfl rfl (after_take_of_lt HostLine1Single.single V (i := 214) (j := 215) rfl (by decide))]
  rw [final_ternary HostLine1Single.single V 214 rfl rfl (after_take_of_lt HostLine1Single.single V (i := 210) (j := 214) rfl (by decide)) (after_take_of_lt HostLine1Single.single V (i := 213) (j := 214) rfl (by decide)) (after_take_of_lt HostLine1Single.single V (i := 206) (j := 214) rfl (by decide))]
  rw [final_binary HostLine1Single.single V 213 rfl rfl (after_take_of_lt HostLine1Single.single V (i := 206) (j := 213) rfl (by decide)) (after_take_of_lt HostLine1Single.single V (i := 212) (j := 213) rfl (by decide))]
  rw [final_unary HostLine1Single.single V 212 rfl rfl (after_take_of_lt HostLine1Single.single V (i := 211) (j := 212) rfl (by decide))]
  rw [final_nullary HostLine1Single.single V 211 rfl rfl]
  rw [final_binary HostLine1Single.single V 210 rfl rfl (after_take_of_lt HostLine1Single.single V (i := 206) (j := 210) rfl (by decide)) (after_take_of_lt HostLine1Single.single V (i := 209) (j := 210) rfl (by decide))]
  rw [final_unary HostLine1Single.single V 209 rfl rfl (after_take_of_lt HostLine1Single.single V (i := 208) (j := 209) rfl (by decide))]
  rw [final_nullary HostLine1Single.single V 208 rfl rfl]
  rw [final_unary HostLine1Single.single V 207 rfl rfl (after_take_of_not_assigned HostLine1Single.single V 207 (by decide))]
  rw [final_unary HostLine1Single.single V 206 rfl rfl (after_take_of_not_assigned HostLine1Single.single V 206 (by decide))]
  rfl

/-- The run of edges from 1300000 on: its aggregate is added to what the earlier runs gave. -/
theorem run13 : (after (hostOps1 (F := F)) V (Proc.devRef Proc.tc main_v443)) = addf (after (hostOps1 (F := F)) V (Proc.devRef Proc.tc main_v429)) (chunkAgg 1300000 slices_S1600000_S100000_1300000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 239 rfl rfl (after_take_of_lt HostLine1Single.single V (i := 222) (j := 239) rfl (by decide)) (after_take_of_lt HostLine1Single.single V (i := 238) (j := 239) rfl (by decide))]
  rw [final_ternary HostLine1Single.single V 238 rfl rfl (after_take_of_lt HostLine1Single.single V (i := 236) (j := 238) rfl (by decide)) (after_take_of_lt HostLine1Single.single V (i := 237) (j := 238) rfl (by decide)) (after_take_of_lt HostLine1Single.single V (i := 234) (j := 238) rfl (by decide))]
  rw [final_unary HostLine1Single.single V 237 rfl rfl (after_take_of_lt HostLine1Single.single V (i := 224) (j := 237) rfl (by decide))]
  rw [final_unary HostLine1Single.single V 236 rfl rfl (after_take_of_lt HostLine1Single.single V (i := 235) (j := 236) rfl (by decide))]
  rw [final_nullary HostLine1Single.single V 235 rfl rfl]
  rw [final_unary HostLine1Single.single V 234 rfl rfl (after_take_of_lt HostLine1Single.single V (i := 233) (j := 234) rfl (by decide))]
  rw [final_binary HostLine1Single.single V 233 rfl rfl (after_take_of_not_assigned HostLine1Single.single V 233 (by decide)) (after_take_of_lt HostLine1Single.single V (i := 232) (j := 233) rfl (by decide))]
  rw [final_unary HostLine1Single.single V 232 rfl rfl (after_take_of_lt HostLine1Single.single V (i := 231) (j := 232) rfl (by decide))]
  rw [final_ternary HostLine1Single.single V 231 rfl rfl (after_take_of_lt HostLine1Single.single V (i := 227) (j := 231) rfl (by decide)) (after_take_of_lt HostLine1Single.single V (i := 230) (j := 231) rfl (by decide)) (after_take_of_lt HostLine1Single.single V (i := 223) (j := 231) rfl (by decide))]
  rw [final_binary HostLine1Single.single V 230 rfl rfl (after_take_of_lt HostLine1Single.single V (i := 223) (j := 230) rfl (by decide)) (after_take_of_lt HostLine1Single.single V (i := 229) (j := 230) rfl (by decide))]
  rw [final_unary HostLine1Single.single V 229 rfl rfl (after_take_of_lt HostLine1Single.single V (i := 228) (j := 229) rfl (by decide))]
  rw [final_nullary HostLine1Single.single V 228 rfl rfl]
  rw [final_binary HostLine1Single.single V 227 rfl rfl (after_take_of_lt HostLine1Single.single V (i := 223) (j := 227) rfl (by decide)) (after_take_of_lt HostLine1Single.single V (i := 226) (j := 227) rfl (by decide))]
  rw [final_unary HostLine1Single.single V 226 rfl rfl (after_take_of_lt HostLine1Single.single V (i := 225) (j := 226) rfl (by decide))]
  rw [final_nullary HostLine1Single.single V 225 rfl rfl]
  rw [final_unary HostLine1Single.single V 224 rfl rfl (after_take_of_not_assigned HostLine1Single.single V 224 (by decide))]
  rw [final_unary HostLine1Single.single V 223 rfl rfl (after_take_of_not_assigned HostLine1Single.single V 223 (by decide))]
  rfl

/-- The run of edges from 1400000 on: its aggregate is added to what the earlier runs gave. -/
theorem run14 : (after (hostOps1 (F := F)) V (Proc.devRef Proc.tc main_v457)) = addf (after (hostOps1 (F := F)) V (Proc.devRef Proc.tc main_v443)) (chunkAgg 1400000 slices_S1600000_S100000_1400000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 256 rfl rfl (after_take_of_lt HostLine1Single.single V (i := 239) (j := 256) rfl (by decide)) (after_take_of_lt HostLine1Single.single V (i := 255) (j := 256) rfl (by decide))]
  rw [final_ternary HostLine1Single.single V 255 rfl rfl (after_take_of_lt HostLine1Single.single V (i := 253) (j := 255) rfl (by decide)) (after_take_of_lt HostLine1Single.single V (i := 254) (j := 255) rfl (by decide)) (after_take_of_lt HostLine1Single.single V (i := 251) (j := 255) rfl (by decide))]
  rw [final_unary HostLine1Single.single V 254 rfl rfl (after_take_of_lt HostLine1Single.single V (i := 241) (j := 254) rfl (by decide))]
  rw [final_unary HostLine1Single.single V 253 rfl rfl (after_take_of_lt HostLine1Single.single V (i := 252) (j := 253) rfl (by decide))]
  rw [final_nullary HostLine1Single.single V 252 rfl rfl]
  rw [final_unary HostLine1Single.single V 251 rfl rfl (after_take_of_lt HostLine1Single.single V (i := 250) (j := 251) rfl (by decide))]
  rw [final_binary HostLine1Single.single V 250 rfl rfl (after_take_of_not_assigned HostLine1Single.single V 250 (by decide)) (after_take_of_lt HostLine1Single.single V (i := 249) (j := 250) rfl (by decide))]
  rw [final_unary HostLine1Single.single V 249 rfl rfl (after_take_of_lt HostLine1Single.single V (i := 248) (j := 249) rfl (by decide))]
  rw [final_ternary HostLine1Single.single V 248 rfl rfl (after_take_of_lt HostLine1Single.single V (i := 244) (j := 248) rfl (by decide)) (after_take_of_lt HostLine1Single.single V (i := 247) (j := 248) rfl (by decide)) (after_take_of_lt HostLine1Single.single V (i := 240) (j := 248) rfl (by decide))]
  rw [final_binary HostLine1Single.single V 247 rfl rfl (after_take_of_lt HostLine1Single.single V (i := 240) (j := 247) rfl (by decide)) (after_take_of_lt HostLine1Single.single V (i := 246) (j := 247) rfl (by decide))]
  rw [final_unary HostLine1Single.single V 246 rfl rfl (after_take_of_lt HostLine1Single.single V (i := 245) (j := 246) rfl (by decide))]
  rw [final_nullary HostLine1Single.single V 245 rfl rfl]
  rw [final_binary HostLine1Single.single V 244 rfl rfl (after_take_of_lt HostLine1Single.single V (i := 240) (j := 244) rfl (by decide)) (after_take_of_lt HostLine1Single.single V (i := 243) (j := 244) rfl (by decide))]
  rw [final_unary HostLine1Single.single V 243 rfl rfl (after_take_of_lt HostLine1Single.single V (i := 242) (j := 243) rfl (by decide))]
  rw [final_nullary HostLine1Single.single V 242 rfl rfl]
  rw [final_unary HostLine1Single.single V 241 rfl rfl (after_take_of_not_assigned HostLine1Single.single V 241 (by decide))]
  rw [final_unary HostLine1Single.single V 240 rfl rfl (after_take_of_not_assigned HostLine1Single.single V 240 (by decide))]
  rfl

/-- The run of edges from 1500000 on: its aggregate is added to what the earlier runs gave. -/
theorem run15 : (after (hostOps1 (F := F)) V (Proc.devRef Proc.tc main_v471)) = addf (after (hostOps1 (F := F)) V (Proc.devRef Proc.tc main_v457)) (chunkAgg 1500000 slices_S1600000_S100000_1500000 (after (hostOps1 (F := F)) V (Proc.devRef Proc.tc main_v246)) (after (hostOps1 (F := F)) V (Proc.devRef Proc.tc main_arg5)) (after (hostOps1 (F := F)) V (Proc.devRef Proc.tc main_arg6))) := by
  rw [final_binary HostLine1Single.single V 273 rfl rfl (after_take_of_lt HostLine1Single.single V (i := 256) (j := 273) rfl (by decide)) (after_take_of_lt HostLine1Single.single V (i := 272) (j := 273) rfl (by decide))]
  rw [final_ternary HostLine1Single.single V 272 rfl rfl (after_take_of_lt HostLine1Single.single V (i := 270) (j := 272) rfl (by decide)) (after_take_of_lt HostLine1Single.single V (i := 271) (j := 272) rfl (by decide)) (after_take_of_lt HostLine1Single.single V (i := 268) (j := 272) rfl (by decide))]
  rw [final_unary HostLine1Single.single V 271 rfl rfl (after_take_of_lt HostLine1Single.single V (i := 258) (j := 271) rfl (by decide))]
  rw [final_unary HostLine1Single.single V 270 rfl rfl (after_take_of_lt HostLine1Single.single V (i := 269) (j := 270) rfl (by decide))]
  rw [final_nullary HostLine1Single.single V 269 rfl rfl]
  rw [final_unary HostLine1Single.single V 268 rfl rfl (after_take_of_lt HostLine1Single.single V (i := 267) (j := 268) rfl (by decide))]
  rw [final_binary HostLine1Single.single V 267 rfl rfl (after_take_of_not_assigned HostLine1Single.single V 267 (by decide)) (after_take_of_lt HostLine1Single.single V (i := 266) (j := 267) rfl (by decide))]
  rw [final_unary HostLine1Single.single V 266 rfl rfl (after_take_of_lt HostLine1Single.single V (i := 265) (j := 266) rfl (by decide))]
  rw [final_ternary HostLine1Single.single V 265 rfl rfl (after_take_of_lt HostLine1Single.single V (i := 261) (j := 265) rfl (by decide)) (after_take_of_lt HostLine1Single.single V (i := 264) (j := 265) rfl (by decide)) (after_take_of_lt HostLine1Single.single V (i := 257) (j := 265) rfl (by decide))]
  rw [final_binary HostLine1Single.single V 264 rfl rfl (after_take_of_lt HostLine1Single.single V (i := 257) (j := 264) rfl (by decide)) (after_take_of_lt HostLine1Single.single V (i := 263) (j := 264) rfl (by decide))]
  rw [final_unary HostLine1Single.single V 263 rfl rfl (after_take_of_lt HostLine1Single.single V (i := 262) (j := 263) rfl (by decide))]
  rw [final_nullary HostLine1Single.single V 262 rfl rfl]
  rw [final_binary HostLine1Single.single V 261 rfl rfl (after_take_of_lt HostLine1Single.single V (i := 257) (j := 261) rfl (by decide)) (after_take_of_lt HostLine1Single.single V (i := 260) (j := 261) rfl (by decide))]
  rw [final_unary HostLine1Single.single V 260 rfl rfl (after_take_of_lt HostLine1Single.single V (i := 259) (j := 260) rfl (by decide))]
  rw [final_nullary HostLine1Single.single V 259 rfl rfl]
  rw [final_unary HostLine1Single.single V 258 rfl rfl (after_take_of_not_assigned HostLine1Single.single V 258 (by decide))]
  rw [final_unary HostLine1Single.single V 257 rfl rfl (after_take_of_not_assigned HostLine1Single.single V 257 (by decide))]
  rfl

/-- The accumulator starts from zeros. -/
theorem zeros : (after (hostOps1 (F := F)) V (Proc.devRef Proc.tc main_v247)) = broadcastInDim S100000x128 ![] bcast_S_S100000x128 (constant S_ .f32 0x00000000#32) := by
  rw [final_unary HostLine1Single.single V 1 rfl rfl (after_take_of_lt HostLine1Single.single V (i := 0) (j := 1) rfl (by decide))]
  rw [final_nullary HostLine1Single.single V 0 rfl rfl]

/-- The layer's aggregate: the 16 runs' aggregates added up in order, from zeros. -/
theorem agg : (after (hostOps1 (F := F)) V (Proc.devRef Proc.tc main_v471)) = aggChunks (after (hostOps1 (F := F)) V (Proc.devRef Proc.tc main_v246)) (after (hostOps1 (F := F)) V (Proc.devRef Proc.tc main_arg5)) (after (hostOps1 (F := F)) V (Proc.devRef Proc.tc main_arg6)) := by
  rw [run15 V, run14 V, run13 V, run12 V, run11 V, run10 V, run9 V, run8 V, run7 V, run6 V, run5 V, run4 V, run3 V, run2 V, run1 V, run0 V, zeros V]
  rfl

/-- The destination normalisation as a column. -/
theorem colDst : (after (hostOps1 (F := F)) V (Proc.devRef Proc.tc main_v472)) = shapeCast S100000x1 (after (hostOps1 (F := F)) V (Proc.devRef Proc.tc main_v12)) shapeCasts_S100000_S100000x1 := by
  rw [final_reshape HostLine1Single.single V 274 rfl rfl (after_take_of_not_assigned HostLine1Single.single V 274 (by decide))]
  rfl

theorem kept_main_v246 : (after (hostOps1 (F := F)) V (Proc.devRef Proc.tc main_v246)) = V (Proc.devRef Proc.tc main_v246) :=
  after_of_not_assigned HostLine1Single.single V (by decide)

theorem kept_main_v12 : (after (hostOps1 (F := F)) V (Proc.devRef Proc.tc main_v12)) = V (Proc.devRef Proc.tc main_v12) :=
  after_of_not_assigned HostLine1Single.single V (by decide)

theorem kept_main_v14 : (after (hostOps1 (F := F)) V (Proc.devRef Proc.tc main_v14)) = V (Proc.devRef Proc.tc main_v14) :=
  after_of_not_assigned HostLine1Single.single V (by decide)

theorem kept_main_arg0 : (after (hostOps1 (F := F)) V (Proc.devRef Proc.tc main_arg0)) = V (Proc.devRef Proc.tc main_arg0) :=
  after_of_not_assigned HostLine1Single.single V (by decide)

theorem kept_main_arg1 : (after (hostOps1 (F := F)) V (Proc.devRef Proc.tc main_arg1)) = V (Proc.devRef Proc.tc main_arg1) :=
  after_of_not_assigned HostLine1Single.single V (by decide)

theorem kept_main_arg2 : (after (hostOps1 (F := F)) V (Proc.devRef Proc.tc main_arg2)) = V (Proc.devRef Proc.tc main_arg2) :=
  after_of_not_assigned HostLine1Single.single V (by decide)

theorem kept_main_arg3 : (after (hostOps1 (F := F)) V (Proc.devRef Proc.tc main_arg3)) = V (Proc.devRef Proc.tc main_arg3) :=
  after_of_not_assigned HostLine1Single.single V (by decide)

theorem kept_main_arg4 : (after (hostOps1 (F := F)) V (Proc.devRef Proc.tc main_arg4)) = V (Proc.devRef Proc.tc main_arg4) :=
  after_of_not_assigned HostLine1Single.single V (by decide)

theorem kept_main_arg5 : (after (hostOps1 (F := F)) V (Proc.devRef Proc.tc main_arg5)) = V (Proc.devRef Proc.tc main_arg5) :=
  after_of_not_assigned HostLine1Single.single V (by decide)

theorem kept_main_arg6 : (after (hostOps1 (F := F)) V (Proc.devRef Proc.tc main_arg6)) = V (Proc.devRef Proc.tc main_arg6) :=
  after_of_not_assigned HostLine1Single.single V (by decide)

end Cert.KernelIdeal.HostLine1

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«156708_j74217034875214_2_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.LibAffineRows.lean ====
/-
  A dense layer applied to a block of rows, against the same layer applied to the whole array, on the extended reals.

  Let `A` be an `M×K` array, `W` a `K×N` weight and `b` a bias vector of length `N`. A kernel that tiles the rows of
  `A` computes, on a `B×K` block `x` whose row `p` is row `P` of `A`, the product `x · W` on the vector unit from the zero
  accumulator and adds the bias laid out as one row `[1, N]` and broadcast over the block's rows; the host computes the
  one product `A · W` and adds the bias broadcast over all rows. Entry `(p, q)` of the first is entry `(P, q)` of the
  second: both are `∑ k, A (P, k) * W (k, q) + b q`, the same sum term by term, so no finiteness is asked of any entry
  and the operands' float formats do not matter. Also here: the two spellings of "a vector as a row, repeated down the
  rows" read at an entry (a shape cast to `[1, N]` then a row broadcast; two `broadcast_in_dim`), and the rectifier
  `max (·, 0)` with its zero spelt as a splat scalar on one side and a broadcast rank-0 constant on the other.
-/
import proofs.«156708_j74217034875214_2_alg».proof.Proof.LibRowBlock
import Idealize.ShloMosaic.Lib.ValueLayout
import Idealize.ShloMosaic.Lib.Pipeline.Value

noncomputable section

namespace Cert.Lib.AffineRows

open Idealize.ShloMosaic Idealize.ShloMosaic.ValueIdx

variable {α : Type}

/-- A vector `[N]` cast to one row `[1, N]` and broadcast over `B` rows reads, at `(p, j)`, the vector at `j`. -/
theorem castRow_apply {B N : ℕ} (b : (⟨1, ![N]⟩ : Shape).Idx → α) (h1 : (⟨1, ![N]⟩ : Shape).ShapeCasts ⟨2, ![1, N]⟩)
    (h2 : (⟨2, ![1, N]⟩ : Shape).Broadcasts ⟨2, ![B, N]⟩) (p : Fin B) (j : Fin N) :
    broadcastTo ⟨2, ![B, N]⟩ (shapeCast ⟨2, ![1, N]⟩ b h1) h2 (ix2 p j) = b (ix1 j) :=
  (broadcastTo_1b_ab_apply _ h2 p j).trans (shapeCast_a_1a_apply b h1 0 j)

/-- A vector `[N]` put on axis 1 of `[1, N]` and that row put on both axes of `[M, N]` reads, at `(P, j)`, the vector at `j`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (P : Fin M) (j : Fin N) :
    broadcastInDim ⟨2, ![M, N]⟩ ![0, 1] h2 (broadcastInDim ⟨2, ![1, N]⟩ ![1] h1 b) (ix2 P j) = b (ix1 j) := by
  have hj : j.val = if N = 1 then 0 else j.val := by
    split
    · have := j.isLt; omega
    · rfl
  refine (broadcastInDim_apply _ h2 _ (ix2 P j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- One dense layer on a block of rows is, row for row, the layer on the whole array. -/
theorem layer_row {M K N B : ℕ} {φ₁ φ₂ ψ₁ ψ₂ : FTy} (prec prec' : Option ContractPrecision)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (bk : FVec Ideal ⟨2, ![B, N]⟩ .f32) (bR : FVec Ideal ⟨2, ![M, N]⟩ .f32) (P : Fin M) (p : Fin B) (q : Fin N)
    (hx : ∀ k : Fin K, (x (ix2 p k) : EReal) = A (ix2 P k)) (hw : ∀ k : Fin K, (w (ix2 k q) : EReal) = W (ix2 k q))
    (hb : (bk (ix2 p q) : EReal) = bR (ix2 P q)) :
    addf (matmul (DotDims.plain B K N) prec x w (constant ⟨2, ![B, N]⟩ .f32 0x00000000#32)) bk (ix2 p q)
      = addf (Host.dotGeneral (DotDims.plain M K N) prec' A W) bR (ix2 P q) := by
  show FloatOps.addf _ _ = FloatOps.addf _ _
  rw [hb]
  exact congrArg (FloatOps.addf · _) (Cert.Lib.RowBlock.matmul_eq_dotGeneral prec prec' .single A W x w P p q hx hw)

/-- The rectifier at an entry: the zero a splat scalar on one side, a broadcast rank-0 constant on the other. -/
theorem relu_row {s t : Shape} (u : FVec Ideal s .f32) (v : FVec Ideal t .f32) (i : s.Idx) (j : t.Idx)
    (hbc : (⟨0, ![]⟩ : Shape).BroadcastsInDim t ![]) (huv : (u i : EReal) = v j) :
    maximumf u (broadcast s (Scalar.ofBits .f32 0x00000000#32)) i
      = maximumf v (broadcastInDim t ![] hbc (constant ⟨0, ![]⟩ .f32 0x00000000#32)) j := by
  show FloatOps.maximumf (u i) _ = FloatOps.maximumf (v j) _
  rw [huv]
  rfl

end Cert.Lib.AffineRows

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.RegionArraysEntry.lean ====
/-
  One entry of a row block of a dense stage of the graph convolution, against the same entry of the stage on the whole
  arrays, on the extended reals.

  The kernel tiles the 100000 rows of the aggregate into blocks of 4000. On a block `x` whose row `p` is row `P` of the
  aggregate, with the matching rows of the column(s) of per-node scales, the whole weight and the whole bias, its body
  computes `(x ⊙ c) · W + b` (second stage) or `max ((x ⊙ c) · W + b, 0) ⊙ c'` (first stage). Entry `(p, q)` of that is
  entry `(P, q)` of `dense`, respectively `reluScaled ∘ dense`, of the whole arrays: the scaled aggregate agrees row for
  row (a column repeated along the features reads its row's one entry, on the block and on the array), so the products
  agree term by term; the bias row is the same vector at `q`; the rectifier and the second scale are entrywise. Changes of
  float format are the identity on the extended reals, so the weight's format plays no role.
-/
import proofs.«156708_j74217034875214_2_alg».proof.Proof.Gen.KernelIdeal.Skeleton
import proofs.«156708_j74217034875214_2_alg».proof.Proof.GraphSpec
import proofs.«156708_j74217034875214_2_alg».proof.Proof.LibAffineRows
import proofs.«156708_j74217034875214_2_alg».proof.Proof.LibKeepdims
import Idealize.ShloMosaic.Lib.Pipeline.Value
import Idealize.ShloMosaic.Lib.ValueIdx

noncomputable section

namespace Cert.RegionArrays

open Idealize.ShloMosaic Idealize.ShloMosaic.ValueIdx
open Cert.KernelIdeal Cert.KernelIdeal.Gen

variable {α : Type}

/-- A column `[M, 1]` put on both axes of `[M, N]` reads, at `(P, j)`, the column at `(P, 0)`. -/
theorem inDimCol_apply {M N : ℕ} (v : (⟨2, ![M, 1]⟩ : Shape).Idx → α)
    (h : (⟨2, ![M, 1]⟩ : Shape).BroadcastsInDim ⟨2, ![M, N]⟩ ![0, 1]) (P : Fin M) (j : Fin N) :
    broadcastInDim ⟨2, ![M, N]⟩ ![0, 1] h v (ix2 P j) = v (ix2 P (0 : Fin 1)) := by
  refine broadcastInDim_apply _ h v (ix2 P j) (ix2 P (0 : Fin 1)) fun a => ?_
  match a with
  | ⟨0, _⟩ =>
    show P.val = if M = 1 then 0 else P.val
    split
    · have := P.isLt; omega
    · rfl
  | ⟨1, _⟩ =>
    show (0 : ℕ) = if (1 : ℕ) = 1 then 0 else j.val
    rw [if_pos rfl]

/-- The scaled aggregate on a row block: entry `(p, k)` of `x ⊙ c`, the column repeated along the features, is entry
    `(P, k)` of the same product on the whole arrays when row `p` of the block is row `P` of the array. -/
theorem scaled_entry (agg : FVec Ideal S100000x128 .f32) (col : FVec Ideal S100000x1 .f32)
    (x0 : Vec Ideal S4000x128 .f32) (x1 : Vec Ideal S4000x1 .f32) (P : Fin 100000) (p : Fin 4000) (k : Fin 128)
    (h0 : (x0 (ix2 p k) : EReal) = agg (ix2 P k))
    (h1 : (x1 (ix2 p (0 : Fin 1)) : EReal) = col (ix2 P (0 : Fin 1)))
    (hc : (⟨2, ![100000, 1]⟩ : Shape).BroadcastsInDim ⟨2, ![100000, 128]⟩ ![0, 1]) :
    (truncf (F := Ideal) .bf16 (mulf (shapeCast S4000x128 x0 shapeCasts_S4000x128_S4000x128)
        (broadcastTo S4000x128 (shapeCast S4000x1 x1 shapeCasts_S4000x1_S4000x1) broadcasts_S4000x1_S4000x128))
      bitsLt_bf16_f32 (ix2 p k) : EReal)
      = mulf agg (broadcastInDim ⟨2, ![100000, 128]⟩ ![0, 1] hc col) (ix2 P k) := by
  show (shapeCast S4000x128 x0 shapeCasts_S4000x128_S4000x128 (ix2 p k) : EReal)
      * broadcastTo S4000x128 (shapeCast S4000x1 x1 shapeCasts_S4000x1_S4000x1) broadcasts_S4000x1_S4000x128 (ix2 p k)
    = agg (ix2 P k) * broadcastInDim ⟨2, ![100000, 128]⟩ ![0, 1] hc col (ix2 P k)
  rw [shapeCast_self, shapeCast_self, ValueKeepdims.broadcastTo_a1_ab_apply, inDimCol_apply, h0, h1]

/-- One entry of a row block of the dense stage is the same entry of the stage on the whole arrays. -/
theorem dense_entry (agg : FVec Ideal S100000x128 .f32) (col : FVec Ideal S100000x1 .f32) (W : FVec Ideal S128x128 .f32)
    (b : FVec Ideal S128 .f32)
    (x0 : Vec Ideal S4000x128 .f32) (x1 : Vec Ideal S4000x1 .f32) (x2 : Vec Ideal S128x128 .bf16) (x3 : Vec Ideal S128 .f32)
    (P : Fin 100000) (p : Fin 4000) (q : Fin 128)
    (h0 : ∀ k : Fin 128, (x0 (ix2 p k) : EReal) = agg (ix2 P k))
    (h1 : (x1 (ix2 p (0 : Fin 1)) : EReal) = col (ix2 P (0 : Fin 1)))
    (h2 : ∀ k : Fin 128, (x2 (ix2 k q) : EReal) = W (ix2 k q))
    (h3 : (x3 (ix1 q) : EReal) = b (ix1 q)) :
    (k1_pay1 (F := Ideal) x0 x1 x2 x3 (ix2 p q) : EReal) = Cert.GraphSpec.dense agg col W b (ix2 P q) := by
  unfold k1_pay1 Cert.GraphSpec.dense
  refine Cert.Lib.AffineRows.layer_row (M := 100000) (K := 128) (N := 128) (B := 4000) none none _ W _ _ _ _ P p q
    (fun k => ?_) (fun k => ?_) ?_
  · exact scaled_entry agg col x0 x1 P p k (h0 k) h1 _
  · rw [shapeCast_self]; exact h2 k
  · exact (Cert.Lib.AffineRows.castRow_apply x3 _ _ p q).trans (h3.trans (Cert.Lib.AffineRows.inDimRow_apply b _ _ P q).symm)

/-- One entry of a row block of the rectified, rescaled dense stage is the same entry of that stage on the whole arrays. -/
theorem reluScaled_entry (agg : FVec Ideal S100000x128 .f32) (col : FVec Ideal S100000x1 .f32) (W : FVec Ideal S128x128 .f32)
    (b : FVec Ideal S128 .f32) (col' : FVec Ideal S100000x1 .f32)
    (x0 : Vec Ideal S4000x128 .f32) (x1 : Vec Ideal S4000x1 .f32) (x2 : Vec Ideal S128x128 .bf16) (x3 : Vec Ideal S128 .f32)
    (x4 : Vec Ideal S4000x1 .f32)
    (P : Fin 100000) (p : Fin 4000) (q : Fin 128)
    (h0 : ∀ k : Fin 128, (x0 (ix2 p k) : EReal) = agg (ix2 P k))
    (h1 : (x1 (ix2 p (0 : Fin 1)) : EReal) = col (ix2 P (0 : Fin 1)))
    (h2 : ∀ k : Fin 128, (x2 (ix2 k q) : EReal) = W (ix2 k q))
    (h3 : (x3 (ix1 q) : EReal) = b (ix1 q))
    (h4 : (x4 (ix2 p (0 : Fin 1)) : EReal) = col' (ix2 P (0 : Fin 1))) :
    (k0_pay1 (F := Ideal) x0 x1 x2 x3 x4 (ix2 p q) : EReal)
      = Cert.GraphSpec.reluScaled (Cert.GraphSpec.dense agg col W b) col' (ix2 P q) := by
  have hd := dense_entry agg col W b x0 x1 x2 x3 P p q h0 h1 h2 h3
  unfold k0_pay1 Cert.GraphSpec.reluScaled
  show (maximumf (F := Ideal) (k1_pay1 (F := Ideal) x0 x1 x2 x3)
        (broadcast S4000x128 (Scalar.ofBits .f32 0x00000000#32)) (ix2 p q) : EReal)
      * broadcastTo S4000x128 (shapeCast S4000x1 x4 shapeCasts_S4000x1_S4000x1) broadcasts_S4000x1_S4000x128 (ix2 p q)
    = maximumf (F := Ideal) (Cert.GraphSpec.dense agg col W b) _ (ix2 P q) * broadcastInDim _ ![0, 1] _ col' (ix2 P q)
  rw [Cert.Lib.AffineRows.relu_row (k1_pay1 (F := Ideal) x0 x1 x2 x3) (Cert.GraphSpec.dense agg col W b) (ix2 p q) (ix2 P q) _ hd,
    shapeCast_self, ValueKeepdims.broadcastTo_a1_ab_apply, inDimCol_apply, h4]

end Cert.RegionArrays

end
-- ==== Proof.RegionArrays0.lean ====
/-
  The first dense stage's output array, as one function of the arrays the stage finds, on the extended reals.

  The stage runs at 25 grid points; point `t` reads rows `4000 t … 4000 t + 3999` of the aggregate and of the two columns
  of scales, the whole weight and the whole bias, and writes back rows `4000 t … 4000 t + 3999` of the output. What it
  writes back is block `t` of `reluScaled (dense …) …` of the whole arrays (entry by entry: RegionArraysEntry), the 25
  blocks cover the output (row `r` lies in the block of point `r / 4000`), so the output ends as that function of the
  whole arrays.
-/
import proofs.«156708_j74217034875214_2_alg».proof.Proof.FrameKernelIdealPatched
import proofs.«156708_j74217034875214_2_alg».proof.Proof.RegionArraysEntry

noncomputable section

namespace Cert.RegionArrays

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

/-- The index maps of the first dense stage, decided over its 25 grid points: the row-tiled windows (the aggregate, the two
    columns of scales, the output) are at block row `t`, the weight and the bias at block 0. -/
theorem index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the aggregate's block at point `t` is row `4000 t + p` of the aggregate. -/
theorem agg0_block (c : Dev nD) (t : Fin cfg0.N) (p : Fin 4000) (k : Fin 128) (P : Fin 100000)
    (hP : P.val = 4000 * t.val + p.val) :
    (iblk0 V c 0 t : Vec Ideal S4000x128 .f32) (ix2 p k) = (V c main_v243 : S100000x128.Idx → EReal) (ix2 P k) := by
  obtain ⟨e0, e1, -⟩ := index0 t
  unfold iblk0
  rw [View.read_apply]
  show V c main_v243 _ = V c main_v243 _
  congr 1
  funext a
  apply Fin.ext
  match a with
  | ⟨0, _⟩ => show win0_0.index t (0 : Fin 2) * 4000 + 1 * p.val = P.val; rw [e0, hP]; omega
  | ⟨1, _⟩ => show win0_0.index t (1 : Fin 2) * 128 + 1 * k.val = k.val; rw [e1]; omega

/-- Row `p` of the first scale column's block at point `t` is row `4000 t + p` of the column. -/
theorem col0_block (c : Dev nD) (t : Fin cfg0.N) (p : Fin 4000) (P : Fin 100000)
    (hP : P.val = 4000 * t.val + p.val) :
    (iblk0 V c 1 t : Vec Ideal S4000x1 .f32) (ix2 p (0 : Fin 1))
      = (V c main_v244 : S100000x1.Idx → EReal) (ix2 P (0 : Fin 1)) := by
  obtain ⟨-, -, e0, e1, -⟩ := index0 t
  unfold iblk0
  rw [View.read_apply]
  show V c main_v244 _ = V c main_v244 _
  congr 1
  funext a
  apply Fin.ext
  match a with
  | ⟨0, _⟩ => show win0_1.index t (0 : Fin 2) * 4000 + 1 * p.val = P.val; rw [e0, hP]; omega
  | ⟨1, _⟩ => show win0_1.index t (1 : Fin 2) * 1 + 1 * 0 = 0; rw [e1]

/-- Row `p` of the second scale column's block at point `t` is row `4000 t + p` of the column. -/
theorem col0'_block (c : Dev nD) (t : Fin cfg0.N) (p : Fin 4000) (P : Fin 100000)
    (hP : P.val = 4000 * t.val + p.val) :
    (iblk0 V c 2 t : Vec Ideal S4000x1 .f32) (ix2 p (0 : Fin 1))
      = (V c main_v245 : S100000x1.Idx → EReal) (ix2 P (0 : Fin 1)) := by
  obtain ⟨-, -, -, -, e0, e1, -⟩ := index0 t
  unfold iblk0
  rw [View.read_apply]
  show V c main_v245 _ = V c main_v245 _
  congr 1
  funext a
  apply Fin.ext
  match a with
  | ⟨0, _⟩ => show win0_2.index t (0 : Fin 2) * 4000 + 1 * p.val = P.val; rw [e0, hP]; omega
  | ⟨1, _⟩ => show win0_2.index t (1 : Fin 2) * 1 + 1 * 0 = 0; rw [e1]

/-- The weight's block at every point is the weight. -/
theorem weight0_block (c : Dev nD) (t : Fin cfg0.N) (k q : Fin 128) :
    (iblk0 V c 3 t : Vec Ideal S128x128 .bf16) (ix2 k q) = (V c main_v13 : S128x128.Idx → EReal) (ix2 k q) := by
  obtain ⟨-, -, -, -, -, -, e0, e1, -⟩ := index0 t
  unfold iblk0
  rw [View.read_apply]
  show V c main_v13 _ = V c main_v13 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias's block at every point is the bias. -/
theorem bias0_block (c : Dev nD) (t : Fin cfg0.N) (q : Fin 128) :
    (iblk0 V c 4 t : Vec Ideal S128 .f32) (ix1 q) = (V c main_arg2 : S128.Idx → EReal) (ix1 q) := by
  obtain ⟨-, -, -, -, -, -, -, -, e0, -⟩ := index0 t
  unfold iblk0
  rw [View.read_apply]
  show V c main_arg2 _ = V c main_arg2 _
  congr 1
  funext a
  apply Fin.ext
  match a with
  | ⟨0, _⟩ => show win0_4.index t (0 : Fin 1) * 128 + 1 * q.val = q.val; rw [e0]; omega

/-- What point `t` of the first dense stage writes back is block `t` of the rectified, rescaled stage on the whole arrays. -/
theorem flushed0_eq (c : Dev nD) (t : Fin cfg0.N) :
    (dat0 (F := Ideal) V c).flushed 5 t = ((cfg0.win 5).blk t).view.read (Elt Ideal)
      (Cert.GraphSpec.reluScaled (Cert.GraphSpec.dense (V c main_v243) (V c main_v244) (V c main_v13) (V c main_arg2))
        (V c main_v245)) := by
  show (cfg0.win 5).cut (grid0.coords t) ((dat0 V c).after 5 t) = _
  rw [after0_5]
  unfold out0_5
  rw [View.canon_unit_zero zero2]
  simp only [View.ld_unit_zero (S := S4000x128) zero2, View.ld_unit_zero (S := S4000x1) zero2,
    View.ld_unit_zero (S := S128x128) zero2, View.ld_unit_zero (S := S128) zero1]
  refine funext fun (y : S4000x128.Idx) => ?_
  obtain ⟨p, q, rfl⟩ : ∃ (p : Fin 4000) (q : Fin 128), y = ix2 p q := ⟨y 0, y 1, eq_ix2 y⟩
  have hN : cfg0.N = 25 := N_0
  have hP : 4000 * t.val + p.val < 100000 := by have := t.isLt; have := p.isLt; omega
  obtain ⟨-, -, -, -, -, -, -, -, -, e0, e1⟩ := index0 t
  refine (reluScaled_entry (V c main_v243) (V c main_v244) (V c main_v13) (V c main_arg2) (V c main_v245)
    (iblk0 V c 0 t) (iblk0 V c 1 t) (iblk0 V c 3 t) (iblk0 V c 4 t) (iblk0 V c 2 t) ⟨4000 * t.val + p.val, hP⟩ p q
    (fun k => agg0_block V c t p k _ rfl) (col0_block V c t p _ rfl) (fun k => weight0_block V c t k q)
    (bias0_block V c t q) (col0'_block V c t p _ rfl)).trans ?_
  rw [View.read_apply]
  show Cert.GraphSpec.reluScaled (Cert.GraphSpec.dense (V c main_v243) (V c main_v244) (V c main_v13) (V c main_arg2))
      (V c main_v245) _
    = Cert.GraphSpec.reluScaled (Cert.GraphSpec.dense (V c main_v243) (V c main_v244) (V c main_v13) (V c main_arg2))
      (V c main_v245) _
  congr 1
  funext a
  apply Fin.ext
  match a with
  | ⟨0, _⟩ => show 4000 * t.val + p.val = win0_5.index t (0 : Fin 2) * 4000 + 1 * p.val; rw [e0]; omega
  | ⟨1, _⟩ => show q.val = win0_5.index t (1 : Fin 2) * 128 + 1 * q.val; rw [e1]; omega

/-- An index of the output is in point `t`'s block iff each coordinate is in the block's range on its axis. -/
theorem mem_block0 (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v246).slice (win0_5.rect t)).set ↔ _
  rw [View.set_slice_whole, Rect.mem_set_unit]
  exact Iff.rfl

/-- The 25 blocks of 4000 rows cover the output: row `r` is in the block of point `r / 4000`. -/
theorem cover0 (i : S100000x128.Idx) :
    ∃ t : Fin cfg0.N, (cfg0.win 5).flush t = true ∧ i ∈ ((cfg0.win 5).blk t).view.set := by
  have hN : cfg0.N = 25 := N_0
  have hi0 : (i 0).val < 100000 := (i 0).isLt
  have hi1 : (i 1).val < 128 := (i 1).isLt
  obtain ⟨t, ht⟩ : ∃ t : Fin cfg0.N, t.val = (i 0).val / 4000 := ⟨⟨(i 0).val / 4000, by omega⟩, rfl⟩
  obtain ⟨-, -, -, -, -, -, -, -, -, e0, e1⟩ := index0 t
  refine ⟨t, flush0_5 t, ?_⟩
  rw [mem_block0]
  intro a
  match a with
  | ⟨0, _⟩ =>
    show win0_5.index t (0 : Fin 2) * 4000 ≤ (i 0).val ∧ (i 0).val < win0_5.index t (0 : Fin 2) * 4000 + 4000
    rw [e0, ht]; omega
  | ⟨1, _⟩ =>
    show win0_5.index t (1 : Fin 2) * 128 ≤ (i 1).val ∧ (i 1).val < win0_5.index t (1 : Fin 2) * 128 + 128
    rw [e1]; omega

/-- The first dense stage's output array after its 25 points: the rectified, rescaled stage on the whole arrays the region
    found. -/
theorem region0_array (c : Dev nD) :
    (dat0 (F := Ideal) V c).arrAt 5 cfg0.N
      = Cert.GraphSpec.reluScaled
        (Cert.GraphSpec.dense (V c main_v243) (V c main_v244) (V c main_v13) (V c main_arg2)) (V c main_v245) :=
  (dat0 V c).arrAt_eq_of_cover 5 _ (fun t _ => flushed0_eq V c t) cover0

end Cert.RegionArrays

end
-- ==== Proof.RegionArrays1.lean ====
/-
  The second dense stage's output array, as one function of the arrays the stage finds, on the extended reals.

  The stage runs at 25 grid points; point `t` reads rows `4000 t … 4000 t + 3999` of the aggregate and of the column of
  scales, the whole weight and the whole bias, and writes back rows `4000 t … 4000 t + 3999` of the output. What it
  writes back is block `t` of `dense` of the whole arrays (entry by entry: RegionArraysEntry), the 25 blocks cover the
  output (row `r` lies in the block of point `r / 4000`), so the output ends as `dense` of the whole arrays.
-/
import proofs.«156708_j74217034875214_2_alg».proof.Proof.FrameKernelIdealPatched
import proofs.«156708_j74217034875214_2_alg».proof.Proof.RegionArraysEntry

noncomputable section

namespace Cert.RegionArrays

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

/-- The index maps of the second dense stage, decided over its 25 grid points: the row-tiled windows (the aggregate, the
    column of scales, the output) are at block row `t`, the weight and the bias at block 0. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row `p` of the aggregate's block at point `t` is row `4000 t + p` of the aggregate. -/
theorem agg1_block (c : Dev nD) (t : Fin cfg1.N) (p : Fin 4000) (k : Fin 128) (P : Fin 100000)
    (hP : P.val = 4000 * t.val + p.val) :
    (iblk1 V c 0 t : Vec Ideal S4000x128 .f32) (ix2 p k) = (V c main_v471 : S100000x128.Idx → EReal) (ix2 P k) := by
  obtain ⟨e0, e1, -⟩ := index1 t
  unfold iblk1
  rw [View.read_apply]
  show V c main_v471 _ = V c main_v471 _
  congr 1
  funext a
  apply Fin.ext
  match a with
  | ⟨0, _⟩ => show win1_0.index t (0 : Fin 2) * 4000 + 1 * p.val = P.val; rw [e0, hP]; omega
  | ⟨1, _⟩ => show win1_0.index t (1 : Fin 2) * 128 + 1 * k.val = k.val; rw [e1]; omega

/-- Row `p` of the scale column's block at point `t` is row `4000 t + p` of the column. -/
theorem col1_block (c : Dev nD) (t : Fin cfg1.N) (p : Fin 4000) (P : Fin 100000)
    (hP : P.val = 4000 * t.val + p.val) :
    (iblk1 V c 1 t : Vec Ideal S4000x1 .f32) (ix2 p (0 : Fin 1))
      = (V c main_v472 : S100000x1.Idx → EReal) (ix2 P (0 : Fin 1)) := by
  obtain ⟨-, -, e0, e1, -⟩ := index1 t
  unfold iblk1
  rw [View.read_apply]
  show V c main_v472 _ = V c main_v472 _
  congr 1
  funext a
  apply Fin.ext
  match a with
  | ⟨0, _⟩ => show win1_1.index t (0 : Fin 2) * 4000 + 1 * p.val = P.val; rw [e0, hP]; omega
  | ⟨1, _⟩ => show win1_1.index t (1 : Fin 2) * 1 + 1 * 0 = 0; rw [e1]

/-- The weight's block at every point is the weight. -/
theorem weight1_block (c : Dev nD) (t : Fin cfg1.N) (k q : Fin 128) :
    (iblk1 V c 2 t : Vec Ideal S128x128 .bf16) (ix2 k q) = (V c main_v14 : S128x128.Idx → EReal) (ix2 k q) := by
  obtain ⟨-, -, -, -, e0, e1, -⟩ := index1 t
  unfold iblk1
  rw [View.read_apply]
  show V c main_v14 _ = V c main_v14 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias's block at every point is the bias. -/
theorem bias1_block (c : Dev nD) (t : Fin cfg1.N) (q : Fin 128) :
    (iblk1 V c 3 t : Vec Ideal S128 .f32) (ix1 q) = (V c main_arg4 : S128.Idx → EReal) (ix1 q) := by
  obtain ⟨-, -, -, -, -, -, e0, -⟩ := index1 t
  unfold iblk1
  rw [View.read_apply]
  show V c main_arg4 _ = V c main_arg4 _
  congr 1
  funext a
  apply Fin.ext
  match a with
  | ⟨0, _⟩ => show win1_3.index t (0 : Fin 1) * 128 + 1 * q.val = q.val; rw [e0]; omega

/-- What point `t` of the second dense stage writes back is block `t` of the stage on the whole arrays. -/
theorem flushed1_eq (c : Dev nD) (t : Fin cfg1.N) :
    (dat1 (F := Ideal) V c).flushed 4 t = ((cfg1.win 4).blk t).view.read (Elt Ideal)
      (Cert.GraphSpec.dense (V c main_v471) (V c main_v472) (V c main_v14) (V c main_arg4)) := by
  show (cfg1.win 4).cut (grid1.coords t) ((dat1 V c).after 4 t) = _
  rw [after1_4]
  unfold out1_4
  rw [View.canon_unit_zero zero2]
  simp only [View.ld_unit_zero (S := S4000x128) zero2, View.ld_unit_zero (S := S4000x1) zero2,
    View.ld_unit_zero (S := S128x128) zero2, View.ld_unit_zero (S := S128) zero1]
  refine funext fun (y : S4000x128.Idx) => ?_
  obtain ⟨p, q, rfl⟩ : ∃ (p : Fin 4000) (q : Fin 128), y = ix2 p q := ⟨y 0, y 1, eq_ix2 y⟩
  have hN : cfg1.N = 25 := N_1
  have hP : 4000 * t.val + p.val < 100000 := by have := t.isLt; have := p.isLt; omega
  obtain ⟨-, -, -, -, -, -, -, e0, e1⟩ := index1 t
  refine (dense_entry (V c main_v471) (V c main_v472) (V c main_v14) (V c main_arg4) (iblk1 V c 0 t) (iblk1 V c 1 t)
    (iblk1 V c 2 t) (iblk1 V c 3 t) ⟨4000 * t.val + p.val, hP⟩ p q (fun k => agg1_block V c t p k _ rfl)
    (col1_block V c t p _ rfl) (fun k => weight1_block V c t k q) (bias1_block V c t q)).trans ?_
  rw [View.read_apply]
  show Cert.GraphSpec.dense (V c main_v471) (V c main_v472) (V c main_v14) (V c main_arg4) _
    = Cert.GraphSpec.dense (V c main_v471) (V c main_v472) (V c main_v14) (V c main_arg4) _
  congr 1
  funext a
  apply Fin.ext
  match a with
  | ⟨0, _⟩ => show 4000 * t.val + p.val = win1_4.index t (0 : Fin 2) * 4000 + 1 * p.val; rw [e0]; omega
  | ⟨1, _⟩ => show q.val = win1_4.index t (1 : Fin 2) * 128 + 1 * q.val; rw [e1]; omega

/-- An index of the output is in point `t`'s block iff each coordinate is in the block's range on its axis. -/
theorem mem_block1 (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v473).slice (win1_4.rect t)).set ↔ _
  rw [View.set_slice_whole, Rect.mem_set_unit]
  exact Iff.rfl

/-- The 25 blocks of 4000 rows cover the output: row `r` is in the block of point `r / 4000`. -/
theorem cover1 (i : S100000x128.Idx) :
    ∃ t : Fin cfg1.N, (cfg1.win 4).flush t = true ∧ i ∈ ((cfg1.win 4).blk t).view.set := by
  have hN : cfg1.N = 25 := N_1
  have hi0 : (i 0).val < 100000 := (i 0).isLt
  have hi1 : (i 1).val < 128 := (i 1).isLt
  obtain ⟨t, ht⟩ : ∃ t : Fin cfg1.N, t.val = (i 0).val / 4000 := ⟨⟨(i 0).val / 4000, by omega⟩, rfl⟩
  obtain ⟨-, -, -, -, -, -, -, e0, e1⟩ := index1 t
  refine ⟨t, flush1_4 t, ?_⟩
  rw [mem_block1]
  intro a
  match a with
  | ⟨0, _⟩ =>
    show win1_4.index t (0 : Fin 2) * 4000 ≤ (i 0).val ∧ (i 0).val < win1_4.index t (0 : Fin 2) * 4000 + 4000
    rw [e0, ht]; omega
  | ⟨1, _⟩ =>
    show win1_4.index t (1 : Fin 2) * 128 ≤ (i 1).val ∧ (i 1).val < win1_4.index t (1 : Fin 2) * 128 + 128
    rw [e1]; omega

/-- The second dense stage's output array after its 25 points: the stage on the whole arrays the region found. -/
theorem region1_array (c : Dev nD) :
    (dat1 (F := Ideal) V c).arrAt 4 cfg1.N
      = Cert.GraphSpec.dense (V c main_v471) (V c main_v472) (V c main_v14) (V c main_arg4) :=
  (dat1 V c).arrAt_eq_of_cover 4 _ (fun t _ => flushed1_eq V c t) cover1

end Cert.RegionArrays

end
-- ==== Proof.RegionArrays.lean ====
/-
  What each of the two dense stages of the graph convolution leaves in its output array, as one whole-array function of
  the arrays the stage finds, on the extended reals: the first stage `reluScaled (dense agg col W b) col'`
  (`Cert.RegionArrays.region0_array`), the second `dense agg col W b` (`Cert.RegionArrays.region1_array`).
-/
import proofs.«156708_j74217034875214_2_alg».proof.Proof.RegionArrays0
import proofs.«156708_j74217034875214_2_alg».proof.Proof.RegionArrays1
-- ==== Proof.KernelValue.lean ====
/-
  The idealized kernel's result buffer, read down to the argument arrays.

  The last segment boundary's contents at the result buffer are the second region's output array; that array is the
  dense stage of the second region's operands (RegionArrays); those operands are what the host stretch between the
  regions leaves — the 16 runs over the first region's output, the destination normalisation as a column, the narrowed
  second weight, the bias —; the first region's output is the rectified, row-scaled dense stage of ITS operands, which
  the stretch before it leaves: the 16 runs over the pre-scaled node array, the two normalisations as columns, the
  narrowed first weight, the bias; and the normalisations are the clipped degrees, which the first four short stretches
  leave, to the power −1/2. Composed, the result is `KernelOut.out` of the seven argument arrays.
-/
import proofs.«156708_j74217034875214_2_alg».proof.Proof.KernelRun
import proofs.«156708_j74217034875214_2_alg».proof.Proof.KernelOutSpec
import proofs.«156708_j74217034875214_2_alg».proof.Proof.HostLine0
import proofs.«156708_j74217034875214_2_alg».proof.Proof.HostLine1
import proofs.«156708_j74217034875214_2_alg».proof.Proof.RegionArrays

set_option maxRecDepth 16384

noncomputable section

namespace Cert.KernelIdeal.KernelValue

open Cert.KernelIdeal Cert.KernelIdeal.Gen Cert.KernelIdeal.GenP Cert.KernelIdeal.Chunks Cert.KernelIdeal.KernelOut
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## At the first region's entry -/

theorem W5_arg0 : W5 m ρ c (Proc.devRef .tc main_arg0) = (m ((c.tc : Thread nD τ).loc main_arg0)) :=
  (HostLine0.kept_main_arg0 (W4 m ρ c)).trans (Degrees.W4_main_arg0 m ρ c)
theorem W5_arg1 : W5 m ρ c (Proc.devRef .tc main_arg1) = (m ((c.tc : Thread nD τ).loc main_arg1)) :=
  (HostLine0.kept_main_arg1 (W4 m ρ c)).trans (Degrees.W4_main_arg1 m ρ c)
theorem W5_arg2 : W5 m ρ c (Proc.devRef .tc main_arg2) = (m ((c.tc : Thread nD τ).loc main_arg2)) :=
  (HostLine0.kept_main_arg2 (W4 m ρ c)).trans (Degrees.W4_main_arg2 m ρ c)
theorem W5_arg3 : W5 m ρ c (Proc.devRef .tc main_arg3) = (m ((c.tc : Thread nD τ).loc main_arg3)) :=
  (HostLine0.kept_main_arg3 (W4 m ρ c)).trans (Degrees.W4_main_arg3 m ρ c)
theorem W5_arg4 : W5 m ρ c (Proc.devRef .tc main_arg4) = (m ((c.tc : Thread nD τ).loc main_arg4)) :=
  (HostLine0.kept_main_arg4 (W4 m ρ c)).trans (Degrees.W4_main_arg4 m ρ c)
theorem W5_arg5 : W5 m ρ c (Proc.devRef .tc main_arg5) = (m ((c.tc : Thread nD τ).loc main_arg5)) :=
  (HostLine0.kept_main_arg5 (W4 m ρ c)).trans (Degrees.W4_main_arg5 m ρ c)
theorem W5_arg6 : W5 m ρ c (Proc.devRef .tc main_arg6) = (m ((c.tc : Thread nD τ).loc main_arg6)) :=
  (HostLine0.kept_main_arg6 (W4 m ρ c)).trans (Degrees.W4_main_arg6 m ρ c)

theorem W5_normSrc : W5 m ρ c (Proc.devRef .tc main_v10) = norm (m ((c.tc : Thread nD τ).loc main_arg5)) := by
  refine (HostLine0.normSrc (W4 m ρ c)).trans ?_
  rw [HostLine0.kept_main_v4 (W4 m ρ c), Degrees.W4_main_v4 m ρ c]
  rfl

theorem W5_normDst : W5 m ρ c (Proc.devRef .tc main_v12) = norm (m ((c.tc : Thread nD τ).loc main_arg6)) := by
  refine (HostLine0.normDst (W4 m ρ c)).trans ?_
  rw [HostLine0.kept_main_v8 (W4 m ρ c), Degrees.W4_main_v8 m ρ c]
  rfl

theorem W5_scaled : W5 m ρ c (Proc.devRef .tc main_v18)
    = truncf .bf16 (mulf (m ((c.tc : Thread nD τ).loc main_arg0)) (broadcastInDim S100000x128 ![0, 1] bcast_S100000x1_S100000x128_0_1
        (broadcastInDim S100000x1 ![0] bcast_S100000_S100000x1_0 (norm (m ((c.tc : Thread nD τ).loc main_arg5)))))) bitsLt_bf16_f32 := by
  refine (HostLine0.scaled (W4 m ρ c)).trans ?_
  rw [show StableHlo.after hostOps0_4 (W4 m ρ c) (Proc.devRef .tc main_arg0) = _ from W5_arg0 m ρ c,
    show StableHlo.after hostOps0_4 (W4 m ρ c) (Proc.devRef .tc main_v10) = _ from W5_normSrc m ρ c]

theorem W5_agg : W5 m ρ c (Proc.devRef .tc main_v243)
    = aggChunks (F := Ideal) (truncf .bf16 (mulf (m ((c.tc : Thread nD τ).loc main_arg0)) (broadcastInDim S100000x128 ![0, 1] bcast_S100000x1_S100000x128_0_1
        (broadcastInDim S100000x1 ![0] bcast_S100000_S100000x1_0 (norm (m ((c.tc : Thread nD τ).loc main_arg5)))))) bitsLt_bf16_f32) (m ((c.tc : Thread nD τ).loc main_arg5)) (m ((c.tc : Thread nD τ).loc main_arg6)) := by
  refine (HostLine0.agg (W4 m ρ c)).trans ?_
  rw [show StableHlo.after hostOps0_4 (W4 m ρ c) (Proc.devRef .tc main_v18) = _ from W5_scaled m ρ c,
    show StableHlo.after hostOps0_4 (W4 m ρ c) (Proc.devRef .tc main_arg5) = _ from W5_arg5 m ρ c,
    show StableHlo.after hostOps0_4 (W4 m ρ c) (Proc.devRef .tc main_arg6) = _ from W5_arg6 m ρ c]

theorem W5_colDst : W5 m ρ c (Proc.devRef .tc main_v244) = col (norm (m ((c.tc : Thread nD τ).loc main_arg6))) := by
  refine (HostLine0.colDst (W4 m ρ c)).trans ?_
  rw [show StableHlo.after hostOps0_4 (W4 m ρ c) (Proc.devRef .tc main_v12) = _ from W5_normDst m ρ c]

theorem W5_colSrc : W5 m ρ c (Proc.devRef .tc main_v245) = col (norm (m ((c.tc : Thread nD τ).loc main_arg5))) := by
  refine (HostLine0.colSrc (W4 m ρ c)).trans ?_
  rw [show StableHlo.after hostOps0_4 (W4 m ρ c) (Proc.devRef .tc main_v10) = _ from W5_normSrc m ρ c]

theorem W5_weight1 : W5 m ρ c (Proc.devRef .tc main_v13) = (truncf .bf16 ((m ((c.tc : Thread nD τ).loc main_arg1)) : FVec Ideal S128x128 .f32) bitsLt_bf16_f32 : FVec Ideal S128x128 .bf16) := by
  refine (HostLine0.weight1 (W4 m ρ c)).trans ?_
  rw [show StableHlo.after hostOps0_4 (W4 m ρ c) (Proc.devRef .tc main_arg1) = _ from W5_arg1 m ρ c]

theorem W5_weight2 : W5 m ρ c (Proc.devRef .tc main_v14) = (truncf .bf16 ((m ((c.tc : Thread nD τ).loc main_arg3)) : FVec Ideal S128x128 .f32) bitsLt_bf16_f32 : FVec Ideal S128x128 .bf16) := by
  refine (HostLine0.weight2 (W4 m ρ c)).trans ?_
  rw [show StableHlo.after hostOps0_4 (W4 m ρ c) (Proc.devRef .tc main_arg3) = _ from W5_arg3 m ρ c]

/-! ## At the first region's exit -/

/-- The first region's output array: the rectified dense stage, scaled for the next gather. -/
theorem W6_hidden : W6 m ρ c (Proc.devRef .tc main_v246) = hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (W6_arr m ρ c 5).trans ?_
  rw [Cert.RegionArrays.region0_array (V5 m ρ) c]
  show Cert.GraphSpec.reluScaled (Cert.GraphSpec.dense (W5 m ρ c (Proc.devRef .tc main_v243)) (W5 m ρ c (Proc.devRef .tc main_v244))
      (W5 m ρ c (Proc.devRef .tc main_v13)) (W5 m ρ c (Proc.devRef .tc main_arg2))) (W5 m ρ c (Proc.devRef .tc main_v245)) = _
  rw [W5_agg m ρ c, W5_colDst m ρ c, W5_weight1 m ρ c, W5_arg2 m ρ c, W5_colSrc m ρ c]
  rfl

theorem W6_normDst : W6 m ρ c (Proc.devRef .tc main_v12) = norm (m ((c.tc : Thread nD τ).loc main_arg6)) :=
  (W6_of_ne m ρ c main_v12 (by decide)).trans (W5_normDst m ρ c)
theorem W6_weight2 : W6 m ρ c (Proc.devRef .tc main_v14) = (truncf .bf16 ((m ((c.tc : Thread nD τ).loc main_arg3)) : FVec Ideal S128x128 .f32) bitsLt_bf16_f32 : FVec Ideal S128x128 .bf16) :=
  (W6_of_ne m ρ c main_v14 (by decide)).trans (W5_weight2 m ρ c)
theorem W6_arg4 : W6 m ρ c (Proc.devRef .tc main_arg4) = (m ((c.tc : Thread nD τ).loc main_arg4)) :=
  (W6_of_ne m ρ c main_arg4 (by decide)).trans (W5_arg4 m ρ c)
theorem W6_arg5 : W6 m ρ c (Proc.devRef .tc main_arg5) = (m ((c.tc : Thread nD τ).loc main_arg5)) :=
  (W6_of_ne m ρ c main_arg5 (by decide)).trans (W5_arg5 m ρ c)
theorem W6_arg6 : W6 m ρ c (Proc.devRef .tc main_arg6) = (m ((c.tc : Thread nD τ).loc main_arg6)) :=
  (W6_of_ne m ρ c main_arg6 (by decide)).trans (W5_arg6 m ρ c)

/-! ## At the second region's entry -/

theorem W7_agg : W7 m ρ c (Proc.devRef .tc main_v471)
    = aggChunks (F := Ideal) (hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg5)) (m ((c.tc : Thread nD τ).loc main_arg6)) := by
  refine (HostLine1.agg (W6 m ρ c)).trans ?_
  rw [HostLine1.kept_main_v246 (W6 m ρ c), HostLine1.kept_main_arg5 (W6 m ρ c), HostLine1.kept_main_arg6 (W6 m ρ c),
    W6_hidden m ρ c, W6_arg5 m ρ c, W6_arg6 m ρ c]

theorem W7_colDst : W7 m ρ c (Proc.devRef .tc main_v472) = col (norm (m ((c.tc : Thread nD τ).loc main_arg6))) := by
  refine (HostLine1.colDst (W6 m ρ c)).trans ?_
  rw [HostLine1.kept_main_v12 (W6 m ρ c), W6_normDst m ρ c]

theorem W7_weight2 : W7 m ρ c (Proc.devRef .tc main_v14) = (truncf .bf16 ((m ((c.tc : Thread nD τ).loc main_arg3)) : FVec Ideal S128x128 .f32) bitsLt_bf16_f32 : FVec Ideal S128x128 .bf16) :=
  (HostLine1.kept_main_v14 (W6 m ρ c)).trans (W6_weight2 m ρ c)
theorem W7_arg4 : W7 m ρ c (Proc.devRef .tc main_arg4) = (m ((c.tc : Thread nD τ).loc main_arg4)) :=
  (HostLine1.kept_main_arg4 (W6 m ρ c)).trans (W6_arg4 m ρ c)

/-! ## The result -/

/-- The result buffer at the last boundary: the program's result function of the argument arrays. -/
theorem result : W8 m ρ c (Proc.devRef .tc main_v473)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W8_arr m ρ c 4).trans ?_
  rw [Cert.RegionArrays.region1_array (V7 m ρ) c]
  show Cert.GraphSpec.dense (W7 m ρ c (Proc.devRef .tc main_v471)) (W7 m ρ c (Proc.devRef .tc main_v472))
      (W7 m ρ c (Proc.devRef .tc main_v14)) (W7 m ρ c (Proc.devRef .tc main_arg4)) = _
  rw [W7_agg m ρ c, W7_colDst m ρ c, W7_weight2 m ρ c, W7_arg4 m ρ c]
  rfl

end Cert.KernelIdeal.KernelValue

end
-- ==== Proof.AggSpec.lean ====
/-
  The sparse stage as the plain jnp program spells it: the rows of the node array at the (wrapped) source indices of ALL
  the edges are gathered at once, and added, into zeros, onto the rows the destination indices name.
-/
import proofs.«156708_j74217034875214_2_alg».proof.Proof.Gen.ReferenceIdeal
import Idealize.ShloMosaic.PureOps.Ideal

noncomputable section

namespace Cert.AggSpec

open Cert.ReferenceIdeal Cert.ReferenceIdeal.Gen Idealize.ShloMosaic

variable {F : FTy → Type} [FloatOps F]

/-- `agg[i, k] = Σ over the edges e with dst[e] = i of x[src[e], k]`, by one gather and one accumulating scatter. -/
def aggregate (x : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

end Cert.AggSpec

end
-- ==== Proof.LibRowGather.lean ====
/-
  Rows of a matrix taken and added by an index column, read at an entry.

  `x[idx]` of a matrix `x : [N, C]` at an integer column `idx : [R, 1]` lowers to a gather with offset axis 1, collapsed
  slice axis 0, start index map `[0]`, index vector axis 1 and slice sizes `[1, C]`: result entry `(e, f)` is `x` at row
  `idx[e, 0]`, read as a signed integer and clamped into `[0, N − 1]`, column `f` (`rowGather_apply`); for a vector
  `x : [N]` the same with no offset axis (`vecGather_apply`). The accumulating scatter with update window axis 1,
  inserted window axis 0, scatter-dims-to-operand-dims `[0]` and index vector axis 1 adds update row `e` onto row
  `idx[e, 0]`, read signed and NOT clamped, of an `[N, C]` operand, and drops it when that row is outside: an update
  entry `(e, f)` lands on operand entry `i` only if `idx[e, 0]` is the row of `i` (`rowScatter_row_of_hit`).
-/
import Idealize.ShloMosaic.Lib.ValueIdx

noncomputable section

namespace Cert.Lib.Rows

open Idealize.ShloMosaic Idealize.ShloMosaic.ValueIdx

section Gather
variable {α : Type}

/-- The dimension numbers of taking rows of an `[N, C]` matrix at an index column `[R, 1]`. -/
abbrev rowGatherDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def clampRow {w : Nat} (N : Nat) (hN : 0 < N) (v : BitVec w) : Fin N := ⟨min v.toInt.toNat (N - 1), by omega⟩

/-- Rows taken from a matrix, at entry `(e, f)`: the matrix at the clamped row `idx[e, 0]`, column `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowGatherDims N R C wf) x idx (ix2 e f) = x (ix2 (clampRow N hN (idx (ix2 e 0))) f) := by
  unfold Host.gather
  congr 1
  funext a
  refine Fin.ext ?_
  match a with
  | ⟨0, _⟩ =>
    show (rowGatherDims N R C wf).start (ix2 e f) idx 0 + (rowGatherDims N R C wf).batchCoord (ix2 e f) 0
      + (rowGatherDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e f) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e f) idx 1 + (rowGatherDims N R C wf).batchCoord (ix2 e f) 1
      + (rowGatherDims N R C wf).offCoord (ix2 e f) 1 = _
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    rfl

/-- The dimension numbers of taking entries of a vector `[N]` at an index column `[R, 1]`. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries taken from a vector, at `e`: the vector at the clamped `idx[e, 0]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (clampRow N hN (idx (ix2 e 0)))) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

section Scatter

/-- The dimension numbers of adding update rows `[R, C]` onto the rows of an `[N, C]` operand that an index column
    `[R, 1]` names. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update entry `(e, f)` that lands on operand entry `i` has its start index `idx[e, 0]`, read signed, equal to
    the row of `i`. -/
theorem rowScatter_row_of_hit {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatterDims N R C wf).resultIdx? j idx = some i) :
    (idx (ix2 (j 0) 0)).toInt = ((i 0).val : Int) := by
  unfold ScatterDims.resultIdx? at h
  split at h
  · rename_i hall
    have h0 := congrArg (fun k : (⟨2, ![N, C]⟩ : Shape).Idx => (k 0).val) (Option.some.inj h)
    have hpos := (hall 0).1
    have hst : (rowScatterDims N R C wf).start j idx 0 = (idx (ix2 (j 0) 0)).toInt := by
      unfold ScatterDims.start
      rw [dif_pos (show (0 : Fin 2) ∈ (rowScatterDims N R C wf).scatterDimsToOperandDims from List.mem_singleton.mpr rfl)]
      have hsi : (rowScatterDims N R C wf).siIdx j ⟨List.idxOf (0 : Fin 2) (rowScatterDims N R C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      exact congrArg (fun k => (idx k).toInt) hsi
    have hw : (rowScatterDims N R C wf).window j 0 = 0 := by
      unfold ScatterDims.window
      rw [dif_neg (show ¬ (0 : Fin 2) ∈ (rowScatterDims N R C wf).sKept by simp [ScatterDims.sKept, Shape.kept])]
    simp only [hst, hw] at h0 hpos
    omega
  · exact absurd h (by simp)

end Scatter

end Cert.Lib.Rows

end
-- ==== Proof.LibEdgeAggregate.lean ====
/-
  A graph aggregation read at an entry: `agg[i, k] = Σ over edges e with dst[e] = i of x[src[e], k]`, on the extended
  reals.

  The aggregation is computed as rows of `x : [N, C]` taken at the edges' source column, then added onto the rows of a
  zero `[N, C]` array that the edges' destination column names. An accumulating row scatter of updates `[R, C]` at an
  index column `[R, 1]` lands update entry `(e, f)` on operand entry `(i, k)` exactly when `idx[e, 0]`, read signed, is
  `i` and `f = k` (`rowScatter_resultIdx_iff`); so its value at `(i, k)` is the operand there plus the sum over the update
  rows `e` of `upd[e, k]` where `idx[e, 0] = i` and `0` elsewhere (`rowScatterAdd_apply`).

  With 32-bit source and destination vectors `src, dst : [E]`, a negative source wrapped once by a constant `cN`
  (`wrapIdx`) and then clamped by the gather (`srcRow`), edge `e` adds `edge … i k e` to entry `(i, k)`: `x[srcRow e, k]`
  when `dst[e] = i`, else `0`. The aggregation over ALL edges at once is `0 + Σ_{e < E} edge e` (`whole_apply`); the
  aggregation over the `n` edges `o … o + n − 1`, their indices taken by a slice and the rows taken from a narrower-format
  copy of the matrix that is then widened (the identity on the extended reals), is `0 + Σ_{e < n} edge (o + e)` of the SAME
  per-edge function (`chunk_apply`), so that consecutive chunks add up to the whole.
-/
import Idealize.ShloMosaic.Lib.ValueIdx
import Idealize.ShloMosaic.Lib.Pipeline.Value
import Idealize.ShloMosaic.PureOps.Ideal.Laws
import proofs.«156708_j74217034875214_2_alg».proof.Proof.LibRowGather

noncomputable section

open scoped BigOperators

namespace Cert.Lib.EdgeAggregate

open Idealize.ShloMosaic Idealize.ShloMosaic.ValueIdx Cert.Lib.Rows

section Scatter

variable {N R C w : Nat} (wf : ScatterDims.WF ⟨2, ![N, C]⟩ ⟨2, ![R, 1]⟩ ⟨2, ![R, C]⟩ [1] [0] [0] 1)

/-- The window of update entry `(e, f)` starts, on the row axis, at `idx[e, 0]` read signed. -/
theorem rowScatter_start0 (idx : IVec ⟨2, ![R, 1]⟩ w) (j : (⟨2, ![R, C]⟩ : Shape).Idx) :
    (rowScatterDims N R C wf).start j idx 0 = (idx (ix2 (j 0) 0)).toInt := by
  unfold ScatterDims.start
  rw [dif_pos (show (0 : Fin 2) ∈ (rowScatterDims N R C wf).scatterDimsToOperandDims from List.mem_singleton.mpr rfl)]
  have hsi : (rowScatterDims N R C wf).siIdx j ⟨List.idxOf (0 : Fin 2) (rowScatterDims N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

/-- … and, on the column axis, at `0`. -/
theorem rowScatter_start1 (idx : IVec ⟨2, ![R, 1]⟩ w) (j : (⟨2, ![R, C]⟩ : Shape).Idx) :
    (rowScatterDims N R C wf).start j idx 1 = 0 := by
  unfold ScatterDims.start
  rw [dif_neg (show ¬ (1 : Fin 2) ∈ ([0] : List (Fin 2)) by decide)]

/-- The window coordinate of an update entry on the row axis is `0` (the axis is inserted). -/
theorem rowScatter_window0 (j : (⟨2, ![R, C]⟩ : Shape).Idx) : (rowScatterDims N R C wf).window j 0 = 0 := by
  unfold ScatterDims.window
  rw [dif_neg (show ¬ (0 : Fin 2) ∈ (rowScatterDims N R C wf).sKept by simp [ScatterDims.sKept, Shape.kept])]

/-- The window coordinate of update entry `(e, f)` on the column axis is `f`. -/
theorem rowScatter_window1 (j : (⟨2, ![R, C]⟩ : Shape).Idx) : (rowScatterDims N R C wf).window j 1 = (j 1).val := by
  unfold ScatterDims.window
  have hk : (rowScatterDims N R C wf).sKept = [1] := rfl
  rw [dif_pos (show (1 : Fin 2) ∈ (rowScatterDims N R C wf).sKept by rw [hk]; exact List.mem_singleton.mpr rfl)]
  rfl

/-- Update entry `(e, f)` lands on operand entry `(i, k)` exactly when `idx[e, 0]`, read signed, is `i`, and `f = k`. -/
theorem rowScatter_resultIdx_iff (idx : IVec ⟨2, ![R, 1]⟩ w) (e : Fin R) (f : Fin C) (i : Fin N) (k : Fin C) :
    (rowScatterDims N R C wf).resultIdx? (ix2 e f) idx = some (ix2 i k)
      ↔ (idx (ix2 e 0)).toInt = (i.val : Int) ∧ f = k := by
  have hs0 := rowScatter_start0 wf idx (ix2 e f)
  have hs1 := rowScatter_start1 wf idx (ix2 e f)
  have hw0 := rowScatter_window0 wf (ix2 e f)
  have hw1 := rowScatter_window1 wf (ix2 e f)
  have he0 : (ix2 e f : (⟨2, ![R, C]⟩ : Shape).Idx) 0 = e := rfl
  have he1 : (ix2 e f : (⟨2, ![R, C]⟩ : Shape).Idx) 1 = f := rfl
  rw [he0] at hs0
  rw [he1] at hw1
  constructor
  · intro h
    unfold ScatterDims.resultIdx? at h
    split at h
    · rename_i hall
      have h0 := congrArg (fun q : (⟨2, ![N, C]⟩ : Shape).Idx => (q 0).val) (Option.some.inj h)
      have h1 := congrArg (fun q : (⟨2, ![N, C]⟩ : Shape).Idx => (q 1).val) (Option.some.inj h)
      have hpos := (hall 0).1
      simp only [hs0, hw0] at h0 hpos
      simp only [hs1, hw1] at h1
      refine ⟨?_, Fin.ext ?_⟩
      · have : ((ix2 i k : (⟨2, ![N, C]⟩ : Shape).Idx) 0).val = i.val := rfl
        omega
      · have : ((ix2 i k : (⟨2, ![N, C]⟩ : Shape).Idx) 1).val = k.val := rfl
        omega
    · exact absurd h (by simp)
  · rintro ⟨hi, rfl⟩
    unfold ScatterDims.resultIdx?
    have hall : ∀ a, 0 ≤ (rowScatterDims N R C wf).start (ix2 e f) idx a + (rowScatterDims N R C wf).window (ix2 e f) a ∧
        (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx 0 + (rowScatterDims N R C wf).window (ix2 e f) 0 ∧
          (rowScatterDims N R C wf).start (ix2 e f) idx 0 + (rowScatterDims N R C wf).window (ix2 e f) 0 < (N : Int)
        rw [hs0, hw0, hi]
        have := i.isLt
        omega
      | ⟨1, _⟩ =>
        show 0 ≤ (rowScatterDims N R C wf).start (ix2 e f) idx 1 + (rowScatterDims N R C wf).window (ix2 e f) 1 ∧
          (rowScatterDims N R C wf).start (ix2 e f) idx 1 + (rowScatterDims N R C wf).window (ix2 e f) 1 < (C : Int)
        rw [hs1, hw1]
        have := f.isLt
        omega
    rw [dif_pos hall]
    congr 1
    funext a
    refine Fin.ext ?_
    match a with
    | ⟨0, _⟩ =>
      show ((rowScatterDims N R C wf).start (ix2 e f) idx 0 + (rowScatterDims N R C wf).window (ix2 e f) 0).toNat = i.val
      rw [hs0, hw0, hi]
      omega
    | ⟨1, _⟩ =>
      show ((rowScatterDims N R C wf).start (ix2 e f) idx 1 + (rowScatterDims N R C wf).window (ix2 e f) 1).toNat = f.val
      rw [hs1, hw1]
      omega

/-- THE ACCUMULATING ROW SCATTER READ AT `(i, k)`: the operand there plus, over the update rows `e`, `upd[e, k]` where
    `idx[e, 0]` read signed is `i`, and `0` where it is not (a row outside the operand is dropped). -/
theorem rowScatterAdd_apply {φ : FTy} (x : FVec Ideal ⟨2, ![N, C]⟩ φ) (idx : IVec ⟨2, ![R, 1]⟩ w)
    (upd : FVec Ideal ⟨2, ![R, C]⟩ φ) (i : Fin N) (k : Fin C) :
    Host.scatterAdd (rowScatterDims N R C wf) x idx upd (ix2 i k)
      = x (ix2 i k) + ∑ e : Fin R, if (idx (ix2 e 0)).toInt = (i.val : Int) then upd (ix2 e k) else 0 := by
  show Ideal.hostScatterAdd (rowScatterDims N R C wf) x idx upd (ix2 i k) = _
  unfold Ideal.hostScatterAdd
  congr 1
  rw [Finset.sum_filter, sum_idx2]
  refine Finset.sum_congr rfl fun e _ => ?_
  by_cases he : (idx (ix2 e 0)).toInt = (i.val : Int)
  · rw [if_pos he]
    have : ∀ f : Fin C, (if (rowScatterDims N R C wf).resultIdx? (ix2 e f) idx = some (ix2 i k) then upd (ix2 e f) else 0)
        = if f = k then upd (ix2 e f) else 0 := by
      intro f
      by_cases hf : f = k
      · rw [if_pos hf, if_pos ((rowScatter_resultIdx_iff wf idx e f i k).mpr ⟨he, hf⟩)]
      · rw [if_neg hf, if_neg (fun h => hf ((rowScatter_resultIdx_iff wf idx e f i k).mp h).2)]
    rw [Finset.sum_congr rfl fun f _ => this f]
    simp
  · rw [if_neg he]
    refine Finset.sum_eq_zero fun f _ => ?_
    rw [if_neg (fun h => he ((rowScatter_resultIdx_iff wf idx e f i k).mp h).1)]

end Scatter

/-! ## The aggregation at an entry, as a sum over edges of one per-edge function -/

section Edges

variable {N E C : Nat}

/-- An edge's source index with a negative value wrapped once by `cN`: `v + cN` if `v < 0` (signed), else `v`. -/
def wrapIdx (cN v : BitVec 32) : BitVec 32 := Scalar.select (IntOp.cmpi .slt v 0#32) (IntOp.addi v cN) v

/-- The row of `x` an edge's source index names: wrapped, then clamped into `[0, N − 1]`. -/
def srcRow (N : Nat) (hN : 0 < N) (cN v : BitVec 32) : Fin N := clampRow N hN (wrapIdx cN v)

/-- What edge `e` adds to entry `(i, k)` of the aggregation: `x` at the edge's source row, column `k`, when the edge's
    destination (read signed) is `i`; `0` otherwise. -/
def edge (hN : 0 < N) (cN : BitVec 32) (x : (⟨2, ![N, C]⟩ : Shape).Idx → EReal) (src dst : IVec ⟨1, ![E]⟩ 32)
    (i : Fin N) (k : Fin C) (e : Fin E) : EReal :=
  if (dst (ix1 e)).toInt = (i.val : Int) then x (ix2 (srcRow N hN cN (src (ix1 e))) k) else 0

/-- A vector `[R]` broadcast to a column `[R, 1]`, read at `(e, 0)`: the vector at `e`. -/
theorem col_apply {α : Type} {R : Nat} (hc : (⟨1, ![R]⟩ : Shape).BroadcastsInDim ⟨2, ![R, 1]⟩ ![0])
    (v : (⟨1, ![R]⟩ : Shape).Idx → α) (e : Fin R) (z : Fin 1) :
    broadcastInDim ⟨2, ![R, 1]⟩ ![0] hc v (ix2 e z) = v (ix1 e) := by
  refine broadcastInDim_apply _ hc v _ (ix1 e) fun a => ?_
  match a with
  | ⟨0, _⟩ =>
    show e.val = if R = 1 then 0 else e.val
    split
    · have := e.isLt; omega
    · rfl

/-- The wrapped source indices as the program computes them (compare with a broadcast `0`, add a broadcast `cN`,
    select), read at `e`. -/
theorem wrap_apply {R : Nat} (h0 : (⟨0, ![]⟩ : Shape).BroadcastsInDim ⟨1, ![R]⟩ ![]) (cN : BitVec 32)
    (s : IVec ⟨1, ![R]⟩ 32) (e : Fin R) :
    select (cmpi .slt s (broadcastInDim ⟨1, ![R]⟩ ![] h0 (constantI ⟨0, ![]⟩ 32 0#32)))
      (addi s (broadcastInDim ⟨1, ![R]⟩ ![] h0 (constantI ⟨0, ![]⟩ 32 cN))) s (ix1 e) = wrapIdx cN (s (ix1 e)) := rfl

/-- The zero `[N, C]` array the scatter accumulates into, at an entry: the extended real `0`. -/
theorem zeros_apply (hz : (⟨0, ![]⟩ : Shape).BroadcastsInDim ⟨2, ![N, C]⟩ ![]) (j : (⟨2, ![N, C]⟩ : Shape).Idx) :
    broadcastInDim ⟨2, ![N, C]⟩ ![] hz (constant (F := Ideal) ⟨0, ![]⟩ .f32 0x00000000#32) j = 0 :=
  Ideal.ofBits_zero_f32

/-- THE WHOLE FORM: rows of `x` taken at all `E` edges' wrapped sources and added onto zeros at their destinations, read
    at `(i, k)`, is `0` plus the sum over the edges of `edge`. -/
theorem whole_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (hz : (⟨0, ![]⟩ : Shape).BroadcastsInDim ⟨2, ![N, C]⟩ ![])
    (x : FVec Ideal ⟨2, ![N, C]⟩ .f32) (src dst : IVec ⟨1, ![E]⟩ 32) (i : Fin N) (k : Fin C) :
    Host.scatterAdd (rowScatterDims N E C wfS)
        (broadcastInDim ⟨2, ![N, C]⟩ ![] hz (constant (F := Ideal) ⟨0, ![]⟩ .f32 0x00000000#32))
        (broadcastInDim ⟨2, ![E, 1]⟩ ![0] hc dst)
        (Host.gather (rowGatherDims N E C wfG) x
          (broadcastInDim ⟨2, ![E, 1]⟩ ![0] hc
            (select (cmpi .slt src (broadcastInDim ⟨1, ![E]⟩ ![] h0 (constantI ⟨0, ![]⟩ 32 0#32)))
              (addi src (broadcastInDim ⟨1, ![E]⟩ ![] h0 (constantI ⟨0, ![]⟩ 32 cN))) src)))
        (ix2 i k)
      = 0 + ∑ e : Fin E, edge hN cN x src dst i k e := by
  rw [rowScatterAdd_apply, zeros_apply]
  congr 1
  refine Finset.sum_congr rfl fun e _ => ?_
  rw [col_apply, rowGather_apply hN, col_apply, wrap_apply]
  rfl

/-- THE CHUNK FORM: the same for the `n` edges `o, …, o + n − 1`, their sources and destinations taken by a slice, the rows
    taken from a narrower-format copy of the matrix and widened: `0` plus the sum over the chunk's edges of the SAME
    `edge`, at edge `o + e`. -/
theorem chunk_apply {n o : Nat} (hN : 0 < N) (cN : BitVec 32)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (h0 : (⟨0, ![]⟩ : Shape).BroadcastsInDim ⟨1, ![n]⟩ ![])
    (hc : (⟨1, ![n]⟩ : Shape).BroadcastsInDim ⟨2, ![n, 1]⟩ ![0])
    (hz : (⟨0, ![]⟩ : Shape).BroadcastsInDim ⟨2, ![N, C]⟩ ![])
    (hsl : (⟨1, ![E]⟩ : Shape).Slices ![o] ⟨1, ![n]⟩) (ho : o + n ≤ E) (hbits : FTy.bf16.bits < FTy.f32.bits)
    (xb : FVec Ideal ⟨2, ![N, C]⟩ .bf16) (src dst : IVec ⟨1, ![E]⟩ 32) (i : Fin N) (k : Fin C) :
    Host.scatterAdd (rowScatterDims N n C wfS)
        (broadcastInDim ⟨2, ![N, C]⟩ ![] hz (constant (F := Ideal) ⟨0, ![]⟩ .f32 0x00000000#32))
        (broadcastInDim ⟨2, ![n, 1]⟩ ![0] hc (extractStridedSlice ⟨1, ![n]⟩ ![o] dst hsl))
        (extf .f32 (Host.gather (rowGatherDims N n C wfG) xb
          (broadcastInDim ⟨2, ![n, 1]⟩ ![0] hc
            (select (cmpi .slt (extractStridedSlice ⟨1, ![n]⟩ ![o] src hsl)
                (broadcastInDim ⟨1, ![n]⟩ ![] h0 (constantI ⟨0, ![]⟩ 32 0#32)))
              (addi (extractStridedSlice ⟨1, ![n]⟩ ![o] src hsl)
                (broadcastInDim ⟨1, ![n]⟩ ![] h0 (constantI ⟨0, ![]⟩ 32 cN)))
              (extractStridedSlice ⟨1, ![n]⟩ ![o] src hsl)))) hbits)
        (ix2 i k)
      = 0 + ∑ e : Fin n, edge hN cN xb src dst i k ⟨o + e.val, by omega⟩ := by
  rw [rowScatterAdd_apply, zeros_apply]
  congr 1
  refine Finset.sum_congr rfl fun e _ => ?_
  have hsl_apply : ∀ v : IVec ⟨1, ![E]⟩ 32,
      extractStridedSlice ⟨1, ![n]⟩ ![o] v hsl (ix1 e) = v (ix1 ⟨o + e.val, by omega⟩) := fun v =>
    extractStridedSlice_apply _ v hsl (ix1 e) (ix1 ⟨o + e.val, by omega⟩) fun a => by
      match a with
      | ⟨0, _⟩ => rfl
  rw [col_apply, extf_apply, rowGather_apply hN, col_apply, wrap_apply, hsl_apply, hsl_apply]
  rfl

end Edges

end Cert.Lib.EdgeAggregate

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.ChunksRejoin.lean ====
/-
  The aggregation in 16 runs of 100,000 edges is the aggregation over all 1,600,000 edges at once, on the extended reals.

  At an entry `(p, q)` each run is `0` plus the sum, over its 100,000 consecutive edges, of one per-edge function; the
  whole is `0` plus the sum of the same function over all the edges. A sum over `16 · 100000` consecutive indices is the
  sum of its 16 blocks, and the runs are added up one after the other from zeros: what remains is `0 + a = a`.
-/
import proofs.«156708_j74217034875214_2_alg».proof.Proof.ChunkSpec
import proofs.«156708_j74217034875214_2_alg».proof.Proof.AggSpec
import proofs.«156708_j74217034875214_2_alg».proof.Proof.LibEdgeAggregate
import proofs.«156708_j74217034875214_2_alg».proof.Proof.LibBlockSum

noncomputable section

open scoped BigOperators

namespace Cert.ChunksRejoin

open Idealize.ShloMosaic Idealize.ShloMosaic.ValueIdx Cert.Lib.EdgeAggregate Cert.Lib.BlockSum

/-- A sum over 16 indices, written out from the left. -/
theorem sum_sixteen {M : Type*} [AddCommMonoid M] (G : Fin 16 → M) :
    ∑ s, G s = G 0 + G 1 + G 2 + G 3 + G 4 + G 5 + G 6 + G 7 + G 8 + G 9 + G 10 + G 11 + G 12 + G 13 + G 14 + G 15 := by
  simp only [Fin.sum_univ_castSucc, Fin.sum_univ_zero, zero_add]
  rfl

/-- The 16 runs re-joined: the runs' aggregates added up from zeros are the aggregate over all the edges. -/
theorem aggChunks_eq (x : FVec Ideal Cert.KernelIdeal.S100000x128 .bf16) (src dst : IVec Cert.KernelIdeal.S1600000 32) :
    Cert.KernelIdeal.Chunks.aggChunks (F := Ideal) x src dst = Cert.AggSpec.aggregate (F := Ideal) x src dst := by
  funext j
  obtain ⟨p, q, rfl⟩ : ∃ (p : Fin 100000) (q : Fin 128), j = ix2 p q := ⟨j 0, j 1, eq_ix2 j⟩
  have hN : 0 < 100000 := by decide
  -- the sum of the per-edge function over block `s` of 100000 consecutive edges
  obtain ⟨G, hG⟩ : ∃ G : Fin 16 → EReal,
      G = fun s => ∑ e : Fin 100000, edge (N := 100000) (E := 16 * 100000) (C := 128) hN 100000#32 x src dst p q (at_ s e) :=
    ⟨_, rfl⟩
  -- all the edges at once: the sum of the blocks
  have hR : Cert.AggSpec.aggregate (F := Ideal) x src dst (ix2 p q) = 0 + ∑ s, G s := by
    rw [hG]
    exact (whole_apply (N := 100000) (E := 16 * 100000) (C := 128) hN 100000#32 _ _ _ _ _ x src dst p q).trans
      (congrArg (0 + ·) (sum_blocks 16 100000 _))
  -- one run, from edge `o = s · 100000`: block `s`
  have hC : ∀ (s : Fin 16) (o : ℕ) (hs : Cert.KernelIdeal.S1600000.Slices ![o] Cert.KernelIdeal.S100000)
      (hos : o = s.val * 100000),
      Cert.KernelIdeal.Chunks.chunkAgg (F := Ideal) o hs x src dst (ix2 p q) = 0 + G s := by
    intro s o hs hos
    have ho : o + 100000 ≤ 16 * 100000 := by have := s.isLt; omega
    refine (chunk_apply (N := 100000) (E := 16 * 100000) (C := 128) hN 100000#32 _ _ _ _ _ hs ho _ x src dst p q).trans ?_
    subst hos
    rw [hG]
  unfold Cert.KernelIdeal.Chunks.aggChunks
  simp only [addf_apply]
  rw [hC 0 0 Cert.KernelIdeal.Gen.slices_S1600000_S100000_0 rfl,
    hC 1 100000 Cert.KernelIdeal.Gen.slices_S1600000_S100000_100000 rfl,
    hC 2 200000 Cert.KernelIdeal.Gen.slices_S1600000_S100000_200000 rfl,
    hC 3 300000 Cert.KernelIdeal.Gen.slices_S1600000_S100000_300000 rfl,
    hC 4 400000 Cert.KernelIdeal.Gen.slices_S1600000_S100000_400000 rfl,
    hC 5 500000 Cert.KernelIdeal.Gen.slices_S1600000_S100000_500000 rfl,
    hC 6 600000 Cert.KernelIdeal.Gen.slices_S1600000_S100000_600000 rfl,
    hC 7 700000 Cert.KernelIdeal.Gen.slices_S1600000_S100000_700000 rfl,
    hC 8 800000 Cert.KernelIdeal.Gen.slices_S1600000_S100000_800000 rfl,
    hC 9 900000 Cert.KernelIdeal.Gen.slices_S1600000_S100000_900000 rfl,
    hC 10 1000000 Cert.KernelIdeal.Gen.slices_S1600000_S100000_1000000 rfl,
    hC 11 1100000 Cert.KernelIdeal.Gen.slices_S1600000_S100000_1100000 rfl,
    hC 12 1200000 Cert.KernelIdeal.Gen.slices_S1600000_S100000_1200000 rfl,
    hC 13 1300000 Cert.KernelIdeal.Gen.slices_S1600000_S100000_1300000 rfl,
    hC 14 1400000 Cert.KernelIdeal.Gen.slices_S1600000_S100000_1400000 rfl,
    hC 15 1500000 Cert.KernelIdeal.Gen.slices_S1600000_S100000_1500000 rfl,
    zeros_apply, hR, sum_sixteen]
  simp only [zero_add]

end Cert.ChunksRejoin

end
-- ==== Proof.LibColumnOfVector.lean ====
/-
  A vector as a column, two ways that agree.

  A vector `[a]` reshaped to the column `[a, 1]` (same row-major position) and the vector put on axis 0 of `[a, 1]` by a
  `broadcast_in_dim` with `dims = [0]` are the same array: both read, at `(i, 0)`, the vector at `i`.
-/
import Idealize.ShloMosaic.Lib.ValueIdx
import Idealize.ShloMosaic.Lib.Pipeline.Value
import proofs.«156708_j74217034875214_2_alg».proof.Proof.LibKeepdims
import proofs.«156708_j74217034875214_2_alg».proof.Proof.LibEdgeAggregate

noncomputable section

namespace Cert.Lib.ColumnOfVector

open Idealize.ShloMosaic Idealize.ShloMosaic.ValueIdx

/-- The reshape of a vector `[a]` to the column `[a, 1]` is the broadcast of the vector along axis 0 of `[a, 1]`. -/
theorem col_of_vec {α : Type} {a : ℕ} (v : (⟨1, ![a]⟩ : Shape).Idx → α)
    (h1 : (⟨1, ![a]⟩ : Shape).ShapeCasts ⟨2, ![a, 1]⟩) (h2 : (⟨1, ![a]⟩ : Shape).BroadcastsInDim ⟨2, ![a, 1]⟩ ![0]) :
    shapeCast ⟨2, ![a, 1]⟩ v h1 = broadcastInDim ⟨2, ![a, 1]⟩ ![0] h2 v := by
  funext j
  obtain ⟨i, u, rfl⟩ : ∃ (i : Fin a) (u : Fin 1), j = ix2 i u := ⟨j 0, j 1, eq_ix2 j⟩
  rw [Idealize.ShloMosaic.ValueKeepdims.shapeCast_a_a1_apply, Cert.Lib.EdgeAggregate.col_apply]

end Cert.Lib.ColumnOfVector

end
-- ==== Proof.Bridge.lean ====
/-
  The kernel's result function is the plain program's, as arrays over the extended reals.

  The plain program, stage by stage, is two rounds of: scale the rows by the source normalisation, aggregate over all the
  edges, scale by the destination normalisation, multiply by the weight, add the bias — with a rectification and the
  next round's row scaling in between (`reference_eq`). The kernel's program computes the same function
  (`kernel_eq_reference`): its aggregation in 16 runs is the aggregation over all the edges, a vector reshaped to a column
  is the vector broadcast to the column, the narrowing of the node array and of the weights is the identity on the
  extended reals, and the two programs compute the normalisations by the same operations on the same constants.
-/
import proofs.«156708_j74217034875214_2_alg».proof.Proof.Gen.ReferenceIdeal.Read
import proofs.«156708_j74217034875214_2_alg».proof.Proof.GraphSpec
import proofs.«156708_j74217034875214_2_alg».proof.Proof.AggSpec
import proofs.«156708_j74217034875214_2_alg».proof.Proof.KernelOutSpec
import proofs.«156708_j74217034875214_2_alg».proof.Proof.ChunksRejoin
import proofs.«156708_j74217034875214_2_alg».proof.Proof.LibColumnOfVector

noncomputable section

namespace Cert.Bridge

open Idealize.ShloMosaic

section Reference

open Cert.ReferenceIdeal Cert.ReferenceIdeal.Gen

/-- A vector of per-node scales as a column. -/
abbrev bc1 (v : FVec Ideal S100000 .f32) : FVec Ideal S100000x1 .f32 :=
  broadcastInDim S100000x1 ![0] bcast_S100000_S100000x1_0 v

/-- The plain program's stages composed: two rounds of aggregate-and-dense over the whole edge list. -/
theorem reference_eq (x0 : FVec Ideal S100000x128 .f32) (x1 : FVec Ideal S128x128 .f32) (x2 : FVec Ideal S128 .f32)
    (x3 : FVec Ideal S128x128 .f32) (x4 : FVec Ideal S128 .f32) (x5 x6 : IVec S1600000 32) :
    Read.val_main_v53 (F := Ideal) x0 x1 x2 x3 x4 x5 x6
      = Cert.GraphSpec.dense
          (Cert.AggSpec.aggregate (F := Ideal)
            (Cert.GraphSpec.reluScaled
              (Cert.GraphSpec.dense
                (Cert.AggSpec.aggregate (F := Ideal)
                  (mulf x0 (broadcastInDim S100000x128 ![0, 1] bcast_S100000x1_S100000x128_0_1
                    (bc1 (Read.val_main_v10 (F := Ideal) x5))))
                  x5 x6)
                (bc1 (Read.val_main_v12 (F := Ideal) x6)) x1 x2)
              (bc1 (Read.val_main_v10 (F := Ideal) x5)))
            x5 x6)
          (bc1 (Read.val_main_v12 (F := Ideal) x6)) x3 x4 := by
  unfold Read.val_main_v53 Read.val_main_v52 Read.val_main_v51 Read.val_main_v50 Read.val_main_v49 Read.val_main_v48 Read.val_main_v47 Read.val_main_v46 Read.val_main_v45 Read.val_main_v44 Read.val_main_cst_10 Read.val_main_v43 Read.val_main_v42 Read.val_main_v41 Read.val_main_v40 Read.val_main_v39 Read.val_main_c_9 Read.val_main_v38 Read.val_main_v37 Read.val_main_c_8 Read.val_main_v36 Read.val_main_v35 Read.val_main_v34 Read.val_main_v33 Read.val_main_call2_v0 Read.val_main_call2_cst Read.val_main_v32 Read.val_main_v31 Read.val_main_v30 Read.val_main_v29 Read.val_main_v28 Read.val_main_v27 Read.val_main_v26 Read.val_main_v25 Read.val_main_v24 Read.val_main_v23 Read.val_main_cst_7 Read.val_main_v22 Read.val_main_v21 Read.val_main_v20 Read.val_main_v19 Read.val_main_v18 Read.val_main_c_6 Read.val_main_v17 Read.val_main_v16 Read.val_main_c Read.val_main_v15 Read.val_main_v14 Read.val_main_v13
  unfold Cert.GraphSpec.dense Cert.GraphSpec.reluScaled Cert.AggSpec.aggregate
  rfl

end Reference

section Kernel

open Cert.KernelIdeal Cert.KernelIdeal.Gen

/-- The clipped degree to the power −1/2, in the two programs' spellings, for the first index array. -/
theorem powDegree_eq_v10 (s : IVec S1600000 32) :
    Host.powf (Cert.KernelIdeal.Degrees.degree (F := Ideal) s)
        (broadcastInDim S100000 ![] bcast_S_S100000 (constant S_ .f32 0xBF000000#32))
      = Cert.ReferenceIdeal.Read.val_main_v10 (F := Ideal) s := by
  unfold Cert.KernelIdeal.Degrees.degree
  unfold Cert.ReferenceIdeal.Read.val_main_v10 Cert.ReferenceIdeal.Read.val_main_v9 Cert.ReferenceIdeal.Read.val_main_cst_4 Cert.ReferenceIdeal.Read.val_main_v4 Cert.ReferenceIdeal.Read.val_main_call0_v1
    Cert.ReferenceIdeal.Read.val_main_call0_v0 Cert.ReferenceIdeal.Read.val_main_cst_1 Cert.ReferenceIdeal.Read.val_main_v3 Cert.ReferenceIdeal.Read.val_main_v2 Cert.ReferenceIdeal.Read.val_main_v1 Cert.ReferenceIdeal.Read.val_main_cst_0
    Cert.ReferenceIdeal.Read.val_main_v0 Cert.ReferenceIdeal.Read.val_main_cst
  rfl

/-- The same for the second index array. -/
theorem powDegree_eq_v12 (s : IVec S1600000 32) :
    Host.powf (Cert.KernelIdeal.Degrees.degree (F := Ideal) s)
        (broadcastInDim S100000 ![] bcast_S_S100000 (constant S_ .f32 0xBF000000#32))
      = Cert.ReferenceIdeal.Read.val_main_v12 (F := Ideal) s := by
  unfold Cert.KernelIdeal.Degrees.degree
  unfold Cert.ReferenceIdeal.Read.val_main_v12 Cert.ReferenceIdeal.Read.val_main_v11 Cert.ReferenceIdeal.Read.val_main_cst_5 Cert.ReferenceIdeal.Read.val_main_v8 Cert.ReferenceIdeal.Read.val_main_call1_v1
    Cert.ReferenceIdeal.Read.val_main_call1_v0 Cert.ReferenceIdeal.Read.val_main_cst_3 Cert.ReferenceIdeal.Read.val_main_v7 Cert.ReferenceIdeal.Read.val_main_v6 Cert.ReferenceIdeal.Read.val_main_v5 Cert.ReferenceIdeal.Read.val_main_cst_2
    Cert.ReferenceIdeal.Read.val_main_v0 Cert.ReferenceIdeal.Read.val_main_cst
  rfl

/-- A vector reshaped to a column is the vector broadcast to the column. -/
theorem col_eq (v : FVec Ideal S100000 .f32) : Cert.KernelIdeal.KernelOut.col v = bc1 v :=
  Cert.Lib.ColumnOfVector.col_of_vec v _ _

/-- Narrowing an array to a 16-bit format is the identity on the extended reals. -/
theorem truncf_bf16_eq {s : Shape} (a : FVec Ideal s .f32) (hb : FTy.bf16.bits < FTy.f32.bits) :
    (truncf .bf16 a hb : FVec Ideal s .bf16) = a := rfl

/-- The node array scaled by the source normalisation and narrowed, in the two programs' spellings. -/
theorem scaled_eq (h : FVec Ideal S100000x128 .f32) (src : IVec S1600000 32) :
    (truncf .bf16 (mulf h (broadcastInDim S100000x128 ![0, 1] bcast_S100000x1_S100000x128_0_1
        (broadcastInDim S100000x1 ![0] bcast_S100000_S100000x1_0 (Cert.KernelIdeal.KernelOut.norm src)))) bitsLt_bf16_f32
        : FVec Ideal S100000x128 .bf16)
      = mulf h (broadcastInDim Cert.ReferenceIdeal.S100000x128 ![0, 1] Cert.ReferenceIdeal.Gen.bcast_S100000x1_S100000x128_0_1
          (bc1 (Cert.ReferenceIdeal.Read.val_main_v10 (F := Ideal) src))) := by
  rw [truncf_bf16_eq, show Cert.KernelIdeal.KernelOut.norm src = Cert.ReferenceIdeal.Read.val_main_v10 (F := Ideal) src from powDegree_eq_v10 src]

/-- The aggregation in 16 runs of the scaled, narrowed node array is the aggregation over all the edges. -/
theorem agg1_eq (h : FVec Ideal S100000x128 .f32) (src dst : IVec S1600000 32) :
    Cert.KernelIdeal.Chunks.aggChunks (F := Ideal)
        (truncf .bf16 (mulf h (broadcastInDim S100000x128 ![0, 1] bcast_S100000x1_S100000x128_0_1
          (broadcastInDim S100000x1 ![0] bcast_S100000_S100000x1_0 (Cert.KernelIdeal.KernelOut.norm src)))) bitsLt_bf16_f32) src dst
      = Cert.AggSpec.aggregate (F := Ideal)
          (mulf h (broadcastInDim Cert.ReferenceIdeal.S100000x128 ![0, 1] Cert.ReferenceIdeal.Gen.bcast_S100000x1_S100000x128_0_1
            (bc1 (Cert.ReferenceIdeal.Read.val_main_v10 (F := Ideal) src)))) src dst :=
  (Cert.ChunksRejoin.aggChunks_eq _ src dst).trans
    (congrArg (fun x => Cert.AggSpec.aggregate (F := Ideal) x src dst) (scaled_eq h src))

/-- One dense stage with a reshaped column and a narrowed weight is the plain one. -/
theorem dense_eq (agg : FVec Ideal Cert.ReferenceIdeal.S100000x128 .f32) (dst : IVec S1600000 32)
    (W : FVec Ideal S128x128 .f32) (b : FVec Ideal S128 .f32) :
    Cert.GraphSpec.dense agg (Cert.KernelIdeal.KernelOut.col (Cert.KernelIdeal.KernelOut.norm dst)) (truncf .bf16 W bitsLt_bf16_f32) b
      = Cert.GraphSpec.dense agg (bc1 (Cert.ReferenceIdeal.Read.val_main_v12 (F := Ideal) dst)) W b := by
  rw [col_eq, truncf_bf16_eq, show Cert.KernelIdeal.KernelOut.norm dst = Cert.ReferenceIdeal.Read.val_main_v12 (F := Ideal) dst from powDegree_eq_v12 dst]

/-- The first layer's output in the two programs' spellings. -/
theorem hidden_eq (h : FVec Ideal S100000x128 .f32) (W1 : FVec Ideal S128x128 .f32) (b1 : FVec Ideal S128 .f32)
    (src dst : IVec S1600000 32) :
    Cert.KernelIdeal.KernelOut.hidden h W1 b1 src dst
      = Cert.GraphSpec.reluScaled
          (Cert.GraphSpec.dense
            (Cert.AggSpec.aggregate (F := Ideal)
              (mulf h (broadcastInDim Cert.ReferenceIdeal.S100000x128 ![0, 1] Cert.ReferenceIdeal.Gen.bcast_S100000x1_S100000x128_0_1
                (bc1 (Cert.ReferenceIdeal.Read.val_main_v10 (F := Ideal) src)))) src dst)
            (bc1 (Cert.ReferenceIdeal.Read.val_main_v12 (F := Ideal) dst)) W1 b1)
          (bc1 (Cert.ReferenceIdeal.Read.val_main_v10 (F := Ideal) src)) := by
  unfold Cert.KernelIdeal.KernelOut.hidden
  rw [agg1_eq, dense_eq, col_eq, show Cert.KernelIdeal.KernelOut.norm src = Cert.ReferenceIdeal.Read.val_main_v10 (F := Ideal) src from powDegree_eq_v10 src]

/-- THE KERNEL'S RESULT IS THE PLAIN PROGRAM'S, as arrays over the extended reals. -/
theorem kernel_eq_reference (h : FVec Ideal S100000x128 .f32) (W1 : FVec Ideal S128x128 .f32) (b1 : FVec Ideal S128 .f32)
    (W2 : FVec Ideal S128x128 .f32) (b2 : FVec Ideal S128 .f32) (src dst : IVec S1600000 32) :
    Cert.KernelIdeal.KernelOut.out h W1 b1 W2 b2 src dst
      = Cert.ReferenceIdeal.Read.val_main_v53 (F := Ideal) h W1 b1 W2 b2 src dst := by
  rw [reference_eq]
  unfold Cert.KernelIdeal.KernelOut.out
  rw [hidden_eq, Cert.ChunksRejoin.aggChunks_eq, dense_eq]

end Kernel

end Cert.Bridge

end
-- ==== Proof.lean ====
/-
  A two-layer graph convolution, D_in^{-1/2} A D_out^{-1/2} x W + b with a rectifier between the layers, as a kernel
  against its plain jnp statement, on the extended reals.

  Both programs count the degrees by an accumulating scatter of ones, clip them at one and raise them to −1/2. The
  plain program then, per layer, scales the rows of the node array by the source normalisation, gathers the rows at
  the sources of ALL 1,600,000 edges, adds them onto the destination rows by one accumulating scatter, scales the rows
  by the destination normalisation, and multiplies by the weight and adds the bias on the host. The kernel differs in
  four ways, none of which changes a value on the extended reals:
    • the edge sum is taken in 16 runs of 100,000 edges, each gathered and scattered into zeros and the runs added
      up — the same finite sum of the same per-edge terms, regrouped (commutativity and associativity of + alone:
      no finiteness is needed, and the precondition is never opened);
    • the dense part — row scaling, product, bias, and in layer 1 the rectifier and the NEXT layer's source scaling —
      runs in a pallas_call tiled over blocks of 4,000 rows: entry (4000 t + p, q) of the whole-array stage is entry
      (p, q) of block t's, the contraction being the same sum term by term;
    • the normalisations enter as reshaped columns rather than broadcast ones, and the node array and the weights
      pass through bf16, which is the identity on the extended reals;
    • the second layer's source scaling is fused into the first region's output, where the plain program applies it
      to the rectified stage just before its gather: the same product.
  The kernel's run names its result at the last segment boundary's contents (KernelRun); those contents are read down
  to one function of the arguments (KernelValue, over RegionArrays, HostLine0/1 and Degrees); that function is the
  reference's last stage (Bridge, over ChunksRejoin); and the reference's run is its generated one.
  `preserves` has no ledger entry. The two kernels' frames are the generated several-region frames.
-/
import proofs.«156708_j74217034875214_2_alg».proof.Defs
import proofs.«156708_j74217034875214_2_alg».proof.Proof.Gen.Kernel
import proofs.«156708_j74217034875214_2_alg».proof.Proof.Gen.Kernel.Skeleton
import proofs.«156708_j74217034875214_2_alg».proof.Proof.Gen.Kernel.Launch
import proofs.«156708_j74217034875214_2_alg».proof.Proof.Gen.Kernel.Points
import proofs.«156708_j74217034875214_2_alg».proof.Proof.FrameKernelPatched
import proofs.«156708_j74217034875214_2_alg».proof.Proof.Gen.KernelIdeal
import proofs.«156708_j74217034875214_2_alg».proof.Proof.Gen.KernelIdeal.Skeleton
import proofs.«156708_j74217034875214_2_alg».proof.Proof.Gen.KernelIdeal.Launch
import proofs.«156708_j74217034875214_2_alg».proof.Proof.Gen.KernelIdeal.Points
import proofs.«156708_j74217034875214_2_alg».proof.Proof.FrameKernelIdealPatched
import proofs.«156708_j74217034875214_2_alg».proof.Proof.Gen.ReferenceIdeal
import proofs.«156708_j74217034875214_2_alg».proof.Proof.Gen.Pre_finite_inputs
import proofs.«156708_j74217034875214_2_alg».proof.Proof.Gen.ReferenceIdeal.Run
import proofs.«156708_j74217034875214_2_alg».proof.Proof.Gen.ReferenceIdeal.Read
import proofs.«156708_j74217034875214_2_alg».proof.Proof.KernelRun
import proofs.«156708_j74217034875214_2_alg».proof.Proof.KernelValue
import proofs.«156708_j74217034875214_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs end at the same array: the kernel's result function of its arguments, which is the
    reference's last stage of the same arguments. -/
theorem algebraic : Cert.algebraic_KernelIdeal_ReferenceIdeal := by
  intro m ρ m' ρ' _ hagree
  refine ⟨fun c => Cert.KernelIdeal.KernelOut.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KernelValue.result m ρ c), (h c).2⟩)
      (Cert.KernelIdeal.KernelRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, (hagree c).1, (hagree c).2.1, (hagree c).2.2.1, (hagree c).2.2.2.1,
      (hagree c).2.2.2.2.1, (hagree c).2.2.2.2.2.1, (hagree c).2.2.2.2.2.2]
    exact (Cert.Bridge.kernel_eq_reference _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
